-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x768 : Shape := ⟨3, ![1024, 64, 768]⟩
abbrev S_ : Shape := ⟨0, ![]⟩

class Facts : Prop where
  bcast_S_S1024x64x768 : S_.BroadcastsInDim S1024x64x768 (![] : Fin 0 → Fin S1024x64x768.rank)
  reducesTo_S1024x64x768_S_d0_1_2 : S1024x64x768.ReducesTo [0, 1, 2] S_
  h_S_ : 0 < S_.numel

variable [Facts]

def fn {F : FTy → Type} [FloatOps F] (main_arg0 : FVec F S1024x64x768 .f32) : IVec S_ 1 :=
  let main_v0 : FVec F S1024x64x768 .f32 := Host.absf main_arg0
  let main_cst : FVec F S_ .f32 := constant S_ .f32 0x7F800000#32
  let main_v1 : FVec F S1024x64x768 .f32 := broadcastInDim S1024x64x768 ![] bcast_S_S1024x64x768 main_cst
  let main_v2 : IVec S1024x64x768 1 := cmpf .olt main_v0 main_v1
  let main_c : IVec S_ 1 := constantI S_ 1 1#1
  let main_v3 : IVec S_ 1 := (fun x v => Host.reduce IntOp.andi x v reducesTo_S1024x64x768_S_d0_1_2 h_S_) main_v2 main_c
  main_v3
-- ==== Kernel.lean ====
abbrev S1024x64x768 : Shape := ⟨3, ![1024, 64, 768]⟩
abbrev S1024x49152 : Shape := ⟨2, ![1024, 49152]⟩
abbrev S2x1024x1024 : Shape := ⟨3, ![2, 1024, 1024]⟩
abbrev S2x1024x1 : Shape := ⟨3, ![2, 1024, 1]⟩
abbrev S1024x1024 : Shape := ⟨2, ![1024, 1024]⟩
abbrev S1x1024x1024 : Shape := ⟨3, ![1, 1024, 1024]⟩
abbrev S1x1024x1 : Shape := ⟨3, ![1, 1024, 1]⟩
abbrev S1024x1 : Shape := ⟨2, ![1024, 1]⟩
abbrev S1024 : Shape := ⟨1, ![1024]⟩
abbrev S256x1024 : Shape := ⟨2, ![256, 1024]⟩
abbrev S256x256 : Shape := ⟨2, ![256, 256]⟩
abbrev S1x1024 : Shape := ⟨2, ![1, 1024]⟩
abbrev S1x1 : Shape := ⟨2, ![1, 1]⟩
abbrev S2x256x1024 : Shape := ⟨3, ![2, 256, 1024]⟩
abbrev S256x1 : Shape := ⟨2, ![256, 1]⟩
abbrev S1x256x1024 : Shape := ⟨3, ![1, 256, 1024]⟩
abbrev S256 : Shape := ⟨1, ![256]⟩
abbrev S1 : Shape := ⟨1, ![1]⟩
abbrev S_ : Shape := ⟨0, ![]⟩

abbrev nBuf : Space → Nat
  | .hbm => 22
  | .vmem => 17
  | .smem => 0
  | _ => 0

abbrev bufTy : (tb : Table) → Fin (tcTables nBuf tb) → BufTy
  | .hbm, ⟨0, _⟩ => ⟨S1024x64x768, .f32⟩
  | .hbm, ⟨1, _⟩ => ⟨S1024x49152, .f32⟩
  | .hbm, ⟨2, _⟩ => ⟨S2x1024x1024, .f32⟩
  | .hbm, ⟨3, _⟩ => ⟨S2x1024x1, .f32⟩
  | .hbm, ⟨4, _⟩ => ⟨S1x1024x1, .f32⟩
  | .hbm, ⟨5, _⟩ => ⟨S1024x1, .f32⟩
  | .hbm, ⟨6, _⟩ => ⟨S1x1024x1, .f32⟩
  | .hbm, ⟨7, _⟩ => ⟨S1024x1, .f32⟩
  | .hbm, ⟨8, _⟩ => ⟨S1024x1, .f32⟩
  | .hbm, ⟨9, _⟩ => ⟨S1x1024, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1, .f32⟩
  | .local _ .vmem, ⟨5, _⟩ => ⟨S1x1024x1, .f32⟩
  | .local _ .vmem, ⟨6, _⟩ => ⟨S1024x1024, .f32⟩
  | .local _ .vmem, ⟨7, _⟩ => ⟨S1024x1, .f32⟩
  | .local _ .vmem, ⟨8, _⟩ => ⟨S2x256x1024, .f32⟩
  | .local _ .vmem, ⟨9, _⟩ => ⟨S2x256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | _, _ => ⟨S1024x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v88 : BitVec 1 := Scalar.cmpi .eq arg1 c23_i32
  let v89 : BitVec 32 := Scalar.extui v88
  let c0_i32_53 : BitVec 32 := 0#32
  let v90 : BitVec 1 := Scalar.cmpi .ne v89 c0_i32_53
  v90

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v106 : BitVec 1 := Scalar.cmpi .eq arg0 c3_i32
  let v107 : BitVec 32 := Scalar.extui v106
  let c0_i32_36 : BitVec 32 := 0#32
  let v108 : BitVec 1 := Scalar.cmpi .ne v107 c0_i32_36
  v108

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S1024x64x768_S1024x49152 : S1024x64x768.ShapeCasts S1024x49152
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  bitsLt_bf16_f32 : FTy.bits .bf16 < FTy.bits .f32
  slices_S1024x1024_o0_0_S256x1024 : S1024x1024.Slices ![0, 0] S256x1024
  inb_S1024x1024_S256x256_0_0 : ∀ a, (![0, 0] : Fin 2 → Nat) a + S256x256.size a ≤ S1024x1024.size a
  h_S256x256 : 0 < S256x256.numel
  shapeCasts_S256x256_S256x256 : S256x256.ShapeCasts S256x256
  slices_S1024x1024_o256_0_S256x1024 : S1024x1024.Slices ![256, 0] S256x1024
  inb_S1024x1024_S256x256_0_256 : ∀ a, (![0, 256] : Fin 2 → Nat) a + S256x256.size a ≤ S1024x1024.size a
  slices_S1024x1024_o512_0_S256x1024 : S1024x1024.Slices ![512, 0] S256x1024
  inb_S1024x1024_S256x256_0_512 : ∀ a, (![0, 512] : Fin 2 → Nat) a + S256x256.size a ≤ S1024x1024.size a
  slices_S1024x1024_o768_0_S256x1024 : S1024x1024.Slices ![768, 0] S256x1024
  inb_S1024x1024_S256x256_0_768 : ∀ a, (![0, 768] : Fin 2 → Nat) a + S256x256.size a ≤ S1024x1024.size a
  inb_S1024x1024_S256x256_256_256 : ∀ a, (![256, 256] : Fin 2 → Nat) a + S256x256.size a ≤ S1024x1024.size a
  inb_S1024x1024_S256x256_256_512 : ∀ a, (![256, 512] : Fin 2 → Nat) a + S256x256.size a ≤ S1024x1024.size a
  inb_S1024x1024_S256x256_256_768 : ∀ a, (![256, 768] : Fin 2 → Nat) a + S256x256.size a ≤ S1024x1024.size a
  inb_S1024x1024_S256x256_512_512 : ∀ a, (![512, 512] : Fin 2 → Nat) a + S256x256.size a ≤ S1024x1024.size a
  inb_S1024x1024_S256x256_512_768 : ∀ a, (![512, 768] : Fin 2 → Nat) a + S256x256.size a ≤ S1024x1024.size a
  inb_S1024x1024_S256x256_768_768 : ∀ a, (![768, 768] : Fin 2 → Nat) a + S256x256.size a ≤ S1024x1024.size a
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  slices_S2x1024x1_S1x1024x1_1_0_0 : S2x1024x1.Slices ![1, 0, 0] S1x1024x1
  shapeCasts_S1024x1_S1x1024 : S1024x1.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x256x1024_S2x256x1024_0_0_0 : ∀ a, (![0, 0, 0] : Fin 3 → Nat) a + S2x256x1024.size a ≤ S2x256x1024.size a
  h_S2x256x1024 : 0 < S2x256x1024.numel
  shapeCasts_S2x256x1024_S2x256x1024 : S2x256x1024.ShapeCasts S2x256x1024
  slices_S2x256x1024_o0_0_0_S1x256x1024 : S2x256x1024.Slices ![0, 0, 0] S1x256x1024
  shapeCasts_S1x256x1024_S256x1024 : S1x256x1024.ShapeCasts S256x1024
  slices_S2x256x1024_o1_0_0_S1x256x1024 : S2x256x1024.Slices ![1, 0, 0] S1x256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  iota_S256x1024_d0_w32 : S256x1024.Iotas .tc 32 [0]
  iota_S256x1024_d1_w32 : S256x1024.Iotas .tc 32 [1]
  natLt_1_32 : 1 < 32
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  dot_S256x1024_S256x1024_S256x256_1_1_0_0_n_n_wf : DotDims.WF S256x1024 S256x1024 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x49152.size a
  hwx0_0 : ∀ i : grid0.Coords, EltTy.bits .f32 = 32 ∨ (Rect.block (s := S1024x49152) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .f32 = 32 ∨ (Rect.block (s := S2x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S2x1024x1.size a
  hwx0_2 : ∀ i : grid0.Coords, EltTy.bits .f32 = 32 ∨ (Rect.block (s := S2x1024x1) S1x1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x1024.size a ≤ S2x1024x1024.size a
  hwx1_0 : ∀ i : grid1.Coords, EltTy.bits .f32 = 32 ∨ (Rect.block (s := S2x1024x1024) S2x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S1024x1.size a
  hwx1_1 : ∀ i : grid1.Coords, EltTy.bits .f32 = 32 ∨ (Rect.block (s := S1024x1) S256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1_0) S2x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x64x768 : Shape := ⟨3, ![1024, 64, 768]⟩
abbrev S1024x49152 : Shape := ⟨2, ![1024, 49152]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S49152x1024 : Shape := ⟨2, ![49152, 1024]⟩

abbrev nBuf : Space → Nat
  | .hbm => 84
  | .vmem => 0
  | .smem => 0
  | _ => 0

abbrev bufTy : (tb : Table) → Fin (tcTables nBuf tb) → BufTy
  | .hbm, ⟨0, _⟩ => ⟨S1024x64x768, .f32⟩
  | .hbm, ⟨1, _⟩ => ⟨S1024x49152, .f32⟩
  | .hbm, ⟨2, _⟩ => ⟨S1024x49152, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S49152x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S1x1024, .i32⟩
  | .hbm, ⟨40, _⟩ => ⟨S1024x1024, .i32⟩
  | .hbm, ⟨41, _⟩ => ⟨S1024x1024, .i32⟩
  | .hbm, ⟨42, _⟩ => ⟨S1024x1024, .i1⟩
  | .hbm, ⟨43, _⟩ => ⟨S1024x1024, .i32⟩
  | .hbm, ⟨44, _⟩ => ⟨S1024x1024, .i32⟩
  | .hbm, ⟨45, _⟩ => ⟨S_, .i32⟩
  | .hbm, ⟨46, _⟩ => ⟨S1024x1024, .i32⟩
  | .hbm, ⟨47, _⟩ => ⟨S1024x1024, .i32⟩
  | .hbm, ⟨48, _⟩ => ⟨S1024x1024, .i1⟩
  | .hbm, ⟨49, _⟩ => ⟨S1024x1024, .i1⟩
  | .hbm, ⟨50, _⟩ => ⟨S1024x1024, .i1⟩
  | .hbm, ⟨51, _⟩ => ⟨S1024x1, .i32⟩
  | .hbm, ⟨52, _⟩ => ⟨S1x1024, .i32⟩
  | .hbm, ⟨53, _⟩ => ⟨S1024x1024, .i32⟩
  | .hbm, ⟨54, _⟩ => ⟨S1024x1024, .i32⟩
  | .hbm, ⟨55, _⟩ => ⟨S1024x1024, .i1⟩
  | .hbm, ⟨56, _⟩ => ⟨S_, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1024x1024, .f32⟩
  | .hbm, ⟨66, _⟩ => ⟨S1024x1024, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S_, .f32⟩
  | .hbm, ⟨71, _⟩ => ⟨S_, .f32⟩
  | .hbm, ⟨72, _⟩ => ⟨S1024x1024, .f32⟩
  | .hbm, ⟨73, _⟩ => ⟨S1024x1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S1024x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_call1_v0 : Ref sig .tc := ⟨.hbm, 57, rfl⟩
abbrev main_call1_v1 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_call2_v0 : Ref sig .tc := ⟨.hbm, 71, rfl⟩
abbrev main_call2_v1 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_cst_11 : Ref sig .tc := ⟨.hbm, 78, rfl⟩
abbrev main_v44 : Ref sig .tc := ⟨.hbm, 79, rfl⟩
abbrev main_cst_12 : Ref sig .tc := ⟨.hbm, 80, rfl⟩
abbrev main_v45 : Ref sig .tc := ⟨.hbm, 81, rfl⟩
abbrev main_cst_13 : Ref sig .tc := ⟨.hbm, 82, rfl⟩
abbrev main_v46 : Ref sig .tc := ⟨.hbm, 83, rfl⟩

abbrev nD : Nat := 1
abbrev τ : Topo := Topo.v7x

variable {F : FTy → Type} [FloatOps F]

class Facts₀ : Prop where
  shapeCasts_S1024x64x768_S1024x49152 : S1024x64x768.ShapeCasts S1024x49152
  reducesTo_S1024x49152_S1024_d1 : S1024x49152.ReducesTo [1] S1024
  h_S_ : 0 < S_.numel
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x49152_S49152x1024_1_0 : S1024x49152.Transposes [1, 0] S49152x1024
  bcast_S_S1024x1024 : S_.BroadcastsInDim S1024x1024 (![] : Fin 0 → Fin S1024x1024.rank)
  bcast_S_S1024 : S_.BroadcastsInDim S1024 (![] : Fin 0 → Fin S1024.rank)
  reducesTo_S1024x1024_S_d0_1 : S1024x1024.ReducesTo [0, 1] S_
  dot_S1024x49152_S49152x1024_S1024x1024_1_0_0_1_n_n_wf : DotDims.WF S1024x49152 S49152x1024 S1024x1024 [1] [0] [0] [1] [] []

variable [Facts₀]

def dot_S1024x49152_S49152x1024_S1024x1024_1_0_0_1_n_n : DotDims S1024x49152 S49152x1024 S1024x1024 where
  lhsContracting := [1]
  rhsContracting := [0]
  lhsNonContracting := [0]
  rhsNonContracting := [1]
  lhsBatch := []
  rhsBatch := []
  wf := dot_S1024x49152_S49152x1024_S1024x1024_1_0_0_1_n_n_wf

class Facts : Prop extends Facts₀ where

variable [Facts]
-- ==== Proof.K.R0Base.lean ====
/-
  Region 0 (the Gram kernel): what its three control cases share. The grid is 2 shards of 24 reduction steps;
  the first step of a shard (step % 24 = 0) zeroes the two accumulators, every step adds the block's row sums of
  squares and its upper-triangular 256-tile products, the last step (step % 24 = 23) copies the accumulators out.
-/
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The reduction step is the first of its shard. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 24 = 0 :=
  (by decide +kernel : ∀ t : Fin grid0.N, cond0_0 (grid0.coords t) ↔ t.val % 24 = 0)
/-- The reduction step is the last of its shard. -/
abbrev cond0_1 (i : grid0.Coords) : Prop := k0_cond2 i = 1#1
theorem hcond0_1 : ∀ t : Fin cfg0.N, cond0_1 (grid0.coords t) ↔ t.val % 24 = 23 :=
  (by decide +kernel : ∀ t : Fin grid0.N, cond0_1 (grid0.coords t) ↔ t.val % 24 = 23)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev VO0_1 : View sig .tc .vmem S1x1024x1024 .f32 := (Memref.whole cc0_stg1_0 : Memref sig .tc .vmem S1x1024x1024 .f32).view
abbrev VO0_2 : View sig .tc .vmem S1x1024x1 .f32 := (Memref.whole cc0_stg2_0 : Memref sig .tc .vmem S1x1024x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S1024x1024 .f32 := Memref.whole cc0_scratch0
abbrev scM0_1 : Memref sig .tc .vmem S1024x1 .f32 := Memref.whole cc0_scratch1
abbrev VS0_0 : View sig .tc .vmem S1024x1024 .f32 := scM0_0.view
abbrev VS0_1 : View sig .tc .vmem S1024x1 .f32 := scM0_1.view

/-- The scoped buffers region 0 never touches (the other region's), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's invariant when nothing is known of the accumulators. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Hand

end
-- ==== Proof.K.R0RunA.lean ====
/-
  Region 0, case A (the first step: the accumulators are zeroed, then added to): the body's run on
  whole staging buffers. The pieces its stores write are found by running it.
-/
import proofs.«167578_j20134806684259_2_alg».proof.Proof.K.R0Base
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : cond0_0 i) (hc1 : ¬cond0_1 i)
    (x0 : Vec F S1024x1024 .f32) :
    Σ' (LS0 : List (View.Piece (Elt F) S1024x1024 .f32)), { LS1 : List (View.Piece (Elt F) S1024x1 .f32) //
      ∀ (xi1 : Vec F S1x1024x1024 .f32) (xi2 : Vec F S1x1024x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, fun xi1 xi2 E K => ?run⟩
  case run =>
    simp only [cc0__gram_kernel_eq_skeleton]; unfold cc0__gram_kernel_skel
    unfold owns
    iintro ⟨⟨%fi0, %hfi0, HI0⟩, ⟨%fo1, %hfo1, HO1⟩, ⟨%fo2, %hfo2, HO2⟩, ⟨%ds0, %fs0, -, HS0⟩, ⟨%ds1, %fs1, -, HS1⟩, Hk⟩
    obtain rfl := harg2.eq_unread hfi0; obtain rfl := harg3.eq_unread hfo1; obtain rfl := harg4.eq_unread hfo2
    sl_exec (disch := first | exact hc0 | exact hc1)
    sl_step
    iapply Hk
    isplitl [HI0]
    · iexists _; isplitr; · ipureintro; exact harg2.read_unread _
      iexact HI0
    isplitl [HO1]
    · iexists _; isplitr; · ipureintro; exact harg3.read_unread _
      iexact HO1
    isplitl [HO2]
    · iexists _; isplitr; · ipureintro; exact harg4.read_unread _
      iexact HO2
    isplitl [HS0]
    · iexists _; iexact HS0
    iexists _; iexact HS1

end Cert.Kernel.Hand

end
-- ==== Proof.K.R0RunB.lean ====
/-
  Region 0, case B (a middle step: the accumulators are added to): the body's run on
  whole staging buffers. The pieces its stores write are found by running it.
-/
import proofs.«167578_j20134806684259_2_alg».proof.Proof.K.R0Base
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : ¬cond0_0 i) (hc1 : ¬cond0_1 i)
    (x0 : Vec F S1024x1024 .f32) (xs0 : Vec F S1024x1024 .f32) (xs1 : Vec F S1024x1 .f32) :
    Σ' (LS0 : List (View.Piece (Elt F) S1024x1024 .f32)), { LS1 : List (View.Piece (Elt F) S1024x1 .f32) //
      ∀ (xi1 : Vec F S1x1024x1024 .f32) (xi2 : Vec F S1x1024x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (arg5.view.loc (c : Thread nD τ) ↦[arg5.view.set]{fullShare} arg5.view.writes (Elt F) (harg5.unread xs0) LS0) ∗ (arg6.view.loc (c : Thread nD τ) ↦[arg6.view.set]{fullShare} arg6.view.writes (Elt F) (harg6.unread xs1) LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, fun xi1 xi2 E K => ?run⟩
  case run =>
    simp only [cc0__gram_kernel_eq_skeleton]; unfold cc0__gram_kernel_skel
    unfold owns
    iintro ⟨⟨%fi0, %hfi0, HI0⟩, ⟨%fo1, %hfo1, HO1⟩, ⟨%fo2, %hfo2, HO2⟩, ⟨%fs0, %hfs0, HS0⟩, ⟨%fs1, %hfs1, HS1⟩, Hk⟩
    obtain rfl := harg2.eq_unread hfi0; obtain rfl := harg3.eq_unread hfo1; obtain rfl := harg4.eq_unread hfo2; obtain rfl := harg5.eq_unread hfs0; obtain rfl := harg6.eq_unread hfs1
    sl_exec (disch := first | exact hc0 | exact hc1)
    sl_step
    iapply Hk
    isplitl [HI0]
    · iexists _; isplitr; · ipureintro; exact harg2.read_unread _
      iexact HI0
    isplitl [HO1]
    · iexists _; isplitr; · ipureintro; exact harg3.read_unread _
      iexact HO1
    isplitl [HO2]
    · iexists _; isplitr; · ipureintro; exact harg4.read_unread _
      iexact HO2
    isplitl [HS0]
    · iexact HS0
    iexact HS1

end Cert.Kernel.Hand

end
-- ==== Proof.K.R0RunC.lean ====
/-
  Region 0, case C (the last step: the accumulators are added to, then copied into the output windows): the body's run on
  whole staging buffers. The pieces its stores write are found by running it.
-/
import proofs.«167578_j20134806684259_2_alg».proof.Proof.K.R0Base
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : ¬cond0_0 i) (hc1 : cond0_1 i)
    (x0 : Vec F S1024x1024 .f32) (xs0 : Vec F S1024x1024 .f32) (xs1 : Vec F S1024x1 .f32) :
    Σ' (L1 : List (View.Piece (Elt F) S1x1024x1024 .f32)) (L2 : List (View.Piece (Elt F) S1x1024x1 .f32)) (LS0 : List (View.Piece (Elt F) S1024x1024 .f32)), { LS1 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread xs0) LS0) ∗ (arg6.view.loc (c : Thread nD τ) ↦[arg6.view.set]{fullShare} arg6.view.writes (Elt F) (harg6.unread xs1) LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, ?_, ?_, fun E K => ?run⟩
  case run =>
    simp only [cc0__gram_kernel_eq_skeleton]; unfold cc0__gram_kernel_skel
    unfold owns
    iintro ⟨⟨%fi0, %hfi0, HI0⟩, ⟨%do1, %fo1, -, HO1⟩, ⟨%do2, %fo2, -, HO2⟩, ⟨%fs0, %hfs0, HS0⟩, ⟨%fs1, %hfs1, HS1⟩, Hk⟩
    obtain rfl := harg2.eq_unread hfi0; obtain rfl := harg5.eq_unread hfs0; obtain rfl := harg6.eq_unread hfs1
    sl_exec (disch := first | exact hc0 | exact hc1)
    sl_step
    iapply Hk
    isplitl [HI0]
    · iexists _; isplitr; · ipureintro; exact harg2.read_unread _
      iexact HI0
    isplitl [HO1]
    · iexists _; iexact HO1
    isplitl [HO2]
    · iexists _; iexact HO2
    isplitl [HS0]
    · iexact HS0
    iexact HS1

end Cert.Kernel.Hand

end
-- ==== Proof.K.R0Body.lean ====
/-
  Region 0: what the accumulators and the output windows hold after every grid point (by recursion on the point:
  the first step of a run starts from zero, a later step adds to what the step before left, the last step also fills
  the output windows), the region's proof data, and the body's obligation at every point.
-/
import proofs.«167578_j20134806684259_2_alg».proof.Proof.K.R0RunA
import proofs.«167578_j20134806684259_2_alg».proof.Proof.K.R0RunB
import proofs.«167578_j20134806684259_2_alg».proof.Proof.K.R0RunC
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

abbrev runA0 (c : Dev nD) (t : Fin cfg0.N) (hc0 : cond0_0 (grid0.coords t)) (hc1 : ¬cond0_1 (grid0.coords t)) (x0 : Vec F S1024x1024 .f32) :=
  kernelRun0_A (F := F) c (grid0.coords t) (ms0_0 t) (hs0_0 t) (ms0_1 t) (hs0_1 t) (ms0_2 t) (hs0_2 t) scM0_0 (Memref.isWhole_whole _) scM0_1 (Memref.isWhole_whole _) hc0 hc1 x0
abbrev runB0 (c : Dev nD) (t : Fin cfg0.N) (hc0 : ¬cond0_0 (grid0.coords t)) (hc1 : ¬cond0_1 (grid0.coords t)) (x0 : Vec F S1024x1024 .f32) (xs0 : Vec F S1024x1024 .f32) (xs1 : Vec F S1024x1 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) hc0 hc1 x0 xs0 xs1
abbrev runC0 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) hc0 hc1 x0 xs0 xs1

/-! ## What each case leaves -/

/-- The first step's stores into accumulator 0 begin with a store of the whole buffer, so they cover it. -/
theorem scoverA0_0 (c : Dev nD) (t : Fin cfg0.N) (hc0 : cond0_0 (grid0.coords t)) (hc1 : ¬cond0_1 (grid0.coords t)) (x0 : Vec F S1024x1024 .f32) (y : S1024x1024.Idx) :
    ∃ pc ∈ (runA0 c t hc0 hc1 x0).1, y ∈ pc.1.set :=
  View.cover_of_tiledL (runA0 c t hc0 hc1 x0).1 S1024x1024.size (by sl_kernel_rfl) y
theorem scoverA0_1 (c : Dev nD) (t : Fin cfg0.N) (hc0 : cond0_0 (grid0.coords t)) (hc1 : ¬cond0_1 (grid0.coords t)) (x0 : Vec F S1024x1024 .f32) (y : S1024x1.Idx) :
    ∃ pc ∈ (runA0 c t hc0 hc1 x0).2.1, y ∈ pc.1.set :=
  View.cover_of_tiledL (runA0 c t hc0 hc1 x0).2.1 S1024x1.size (by sl_kernel_rfl) y
/-- What the first step leaves in the accumulators. -/
def soutA0_0 (c : Dev nD) (t : Fin cfg0.N) (hc0 : cond0_0 (grid0.coords t)) (hc1 : ¬cond0_1 (grid0.coords t)) (x0 : Vec F S1024x1024 .f32) : Vec F S1024x1024 .f32 :=
  VS0_0.read (Elt F) (VS0_0.writes (Elt F) VS0_0.junk (runA0 c t hc0 hc1 x0).1)
def soutA0_1 (c : Dev nD) (t : Fin cfg0.N) (hc0 : cond0_0 (grid0.coords t)) (hc1 : ¬cond0_1 (grid0.coords t)) (x0 : Vec F S1024x1024 .f32) : Vec F S1024x1 .f32 :=
  VS0_1.read (Elt F) (VS0_1.writes (Elt F) VS0_1.junk (runA0 c t hc0 hc1 x0).2.1)
/-- What a middle step leaves in the accumulators: its stores over what the step before left. -/
def soutB0_0 (c : Dev nD) (t : Fin cfg0.N) (hc0 : ¬cond0_0 (grid0.coords t)) (hc1 : ¬cond0_1 (grid0.coords t)) (x0 : Vec F S1024x1024 .f32) (xs0 : Vec F S1024x1024 .f32) (xs1 : Vec F S1024x1 .f32) : Vec F S1024x1024 .f32 :=
  VS0_0.read (Elt F) (VS0_0.writes (Elt F) ((Memref.isWhole_whole cc0_scratch0).unread xs0) (runB0 c t hc0 hc1 x0 xs0 xs1).1)
def soutB0_1 (c : Dev nD) (t : Fin cfg0.N) (hc0 : ¬cond0_0 (grid0.coords t)) (hc1 : ¬cond0_1 (grid0.coords t)) (x0 : Vec F S1024x1024 .f32) (xs0 : Vec F S1024x1024 .f32) (xs1 : Vec F S1024x1 .f32) : Vec F S1024x1 .f32 :=
  VS0_1.read (Elt F) (VS0_1.writes (Elt F) ((Memref.isWhole_whole cc0_scratch1).unread xs1) (runB0 c t hc0 hc1 x0 xs0 xs1).2.1)
/-- The last step's store into each output window is of the whole block. -/
theorem coverC0_1 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) (y : S1x1024x1024.Idx) :
    ∃ pc ∈ (runC0 c t hc0 hc1 x0 xs0 xs1).1, y ∈ pc.1.set :=
  View.cover_of_tiledL (runC0 c t hc0 hc1 x0 xs0 xs1).1 S1x1024x1024.size (by sl_kernel_rfl) y
theorem coverC0_2 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) (y : S1x1024x1.Idx) :
    ∃ pc ∈ (runC0 c t hc0 hc1 x0 xs0 xs1).2.1, y ∈ pc.1.set :=
  View.cover_of_tiledL (runC0 c t hc0 hc1 x0 xs0 xs1).2.1 S1x1024x1.size (by sl_kernel_rfl) y
/-- What the last step leaves in the output windows and in the accumulators. -/
def outC0_1 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) : Vec F S1x1024x1024 .f32 :=
  VO0_1.read (Elt F) (VO0_1.writes (Elt F) VO0_1.junk (runC0 c t hc0 hc1 x0 xs0 xs1).1)
def outC0_2 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) : Vec F S1x1024x1 .f32 :=
  VO0_2.read (Elt F) (VO0_2.writes (Elt F) VO0_2.junk (runC0 c t hc0 hc1 x0 xs0 xs1).2.1)
def soutC0_0 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) : Vec F S1024x1024 .f32 :=
  VS0_0.read (Elt F) (VS0_0.writes (Elt F) ((Memref.isWhole_whole cc0_scratch0).unread xs0) (runC0 c t hc0 hc1 x0 xs0 xs1).2.2.1)
def soutC0_1 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) : Vec F S1024x1 .f32 :=
  VS0_1.read (Elt F) (VS0_1.writes (Elt F) ((Memref.isWhole_whole cc0_scratch1).unread xs1) (runC0 c t hc0 hc1 x0 xs0 xs1).2.2.2.1)

/-! ## Point by point -/

/-- The output windows' staging buffers and the two accumulators after the body at point `n`
    (windows first, then accumulators). -/
def outsAt0 (c : Dev nD) : (n : ℕ) → n < cfg0.N → Vec F S1x1024x1024 .f32 × Vec F S1x1024x1 .f32 × Vec F S1024x1024 .f32 × Vec F S1024x1 .f32
  | 0, hn => ((VO0_1.read (Elt F) VO0_1.junk), (VO0_2.read (Elt F) VO0_2.junk), soutA0_0 c ⟨0, hn⟩ ((hcond0_0 ⟨0, hn⟩).mpr (Nat.zero_mod _)) (fun h => (fun h => by (try dsimp only at h); omega) ((hcond0_1 ⟨0, hn⟩).mp h)) (iblk0 V c 0 ⟨0, hn⟩), soutA0_1 c ⟨0, hn⟩ ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 24 = 0 then
      if h1 : (n + 1) % 24 = 23 then
        False.elim (by omega)
      else
        ((VO0_1.read (Elt F) VO0_1.junk), (VO0_2.read (Elt F) VO0_2.junk), soutA0_0 c ⟨n + 1, hn⟩ ((hcond0_0 ⟨n + 1, hn⟩).mpr h0) (fun h => h1 ((hcond0_1 ⟨n + 1, hn⟩).mp h)) (iblk0 V c 0 ⟨n + 1, hn⟩), soutA0_1 c ⟨n + 1, hn⟩ ((hcond0_0 ⟨n + 1, hn⟩).mpr h0) (fun h => h1 ((hcond0_1 ⟨n + 1, hn⟩).mp h)) (iblk0 V c 0 ⟨n + 1, hn⟩))
    else
      if h1 : (n + 1) % 24 = 23 then
        (outC0_1 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, outC0_2 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, soutC0_0 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, soutC0_1 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        ((VO0_1.read (Elt F) VO0_1.junk), (VO0_2.read (Elt F) VO0_2.junk), soutB0_0 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, soutB0_1 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 24 = 0) (h1 : ¬t.val % 24 = 23) :
    outsAt0 V c t.val t.isLt = ((VO0_1.read (Elt F) VO0_1.junk), (VO0_2.read (Elt F) VO0_2.junk), soutA0_0 c t ((hcond0_0 t).mpr h0) (fun h => h1 ((hcond0_1 t).mp h)) (iblk0 V c 0 t), soutA0_1 c t ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 24 = 0) (h1 : ¬t.val % 24 = 23) :
    outsAt0 V c t.val t.isLt = ((VO0_1.read (Elt F) VO0_1.junk), (VO0_2.read (Elt F) VO0_2.junk), soutB0_0 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, soutB0_1 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 24 = 0) (h1 : t.val % 24 = 23) :
    outsAt0 V c t.val t.isLt = (outC0_1 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, outC0_2 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, soutC0_0 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, soutC0_1 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: nothing known of the accumulators before the first point, afterwards
    each accumulator at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body's obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 48 := lt_of_lt_of_eq t.isLt (show cfg0.N = 48 from N_0)
  by_cases h0 : t.val % 24 = 0
  · by_cases h1 : t.val % 24 = 23
    · exfalso; omega
    ·
      rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold soutA0_0 soutA0_1; (try dsimp only)
      by_cases hz : t.val = 0
      · rw [PhiS0_castSucc V c t, PhiS0_zero V c _ _ hz, PhiA0_eq]
        iintro ⟨⟨⟨HS0, HS1, Hr⟩, Hg⟩, Ho, ⟨%d0, H0⟩, ⟨%d1, H1⟩, ⟨%d2, H2⟩⟩
        iapply ((runA0 c t ((hcond0_0 t).mpr h0) (fun h => h1 ((hcond0_1 t).mp h)) (iblk0 V c 0 t)).2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scoverA0_0 c t _ _ _)
            isplitl [HS1]
            · unfold owns; iexists _; isplitr
              swap; · iexact HS1
              ipureintro; exact View.read_writes_of_cover _ _ _ _ _ (scoverA0_1 c t _ _ _)
            iexact Hr
          iexact Hg
        isplitl [Ho]; · iexact Ho
        isplitl [H0]; · iexact H0
        isplitl [H1]; · iexists _; iexact H1
        iexists _; iexact H2
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((runA0 c t ((hcond0_0 t).mpr h0) (fun h => h1 ((hcond0_1 t).mp h)) (iblk0 V c 0 t)).2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scoverA0_0 c t _ _ _)
            isplitl [HS1]
            · unfold owns; iexists _; isplitr
              swap; · iexact HS1
              ipureintro; exact View.read_writes_of_cover _ _ _ _ _ (scoverA0_1 c t _ _ _)
            iexact Hr
          iexact Hg
        isplitl [Ho]; · iexact Ho
        isplitl [H0]; · iexact H0
        isplitl [H1]; · iexists _; iexact H1
        iexists _; iexact H2

  · by_cases h1 : t.val % 24 = 23
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t ((hcond0_1 t).mpr h1)], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold outC0_1 outC0_2 soutC0_0 soutC0_1; (try dsimp only)
      by_cases hz : t.val = 0
      · exfalso; omega
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((runC0 c t (fun h => h0 ((hcond0_0 t).mp h)) ((hcond0_1 t).mpr h1) (iblk0 V c 0 t) _ _).2.2.2.2 Set.univ _)
        isplitl [H0]; · iexact H0
        isplitl [H1]; · iexists _; iexact H1
        isplitl [H2]; · iexists _; iexact H2
        isplitl [HS0]; · iexact HS0
        isplitl [HS1]; · iexact HS1
        iintro ⟨H0, ⟨%e1, H1⟩, ⟨%e2, H2⟩, HS0, HS1⟩
        isplitl [HS0 HS1 Hr Hg]
        · isplitl [HS0 HS1 Hr]
          · isplitl [HS0]
            · unfold owns; iexists _; isplitr
              swap; · iexact HS0
              ipureintro; rfl
            isplitl [HS1]
            · unfold owns; iexists _; isplitr
              swap; · iexact HS1
              ipureintro; rfl
            iexact Hr
          iexact Hg
        isplitl [Ho]; · iexact Ho
        isplitl [H0]; · iexact H0
        isplitl [H1]
        · unfold owns; iexists _; isplitr
          swap; · iexact H1
          ipureintro; exact View.read_writes_of_cover _ _ _ _ _ (coverC0_1 c t _ _ _ _ _)
        unfold owns; iexists _; isplitr
        swap; · iexact H2
        ipureintro; exact View.read_writes_of_cover _ _ _ _ _ (coverC0_2 c t _ _ _ _ _)

    ·
      rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold soutB0_0 soutB0_1; (try dsimp only)
      by_cases hz : t.val = 0
      · exfalso; omega
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((runB0 c t (fun h => h0 ((hcond0_0 t).mp h)) (fun h => h1 ((hcond0_1 t).mp h)) (iblk0 V c 0 t) _ _).2.2 _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hr Hg]
        · isplitl [HS0 HS1 Hr]
          · isplitl [HS0]
            · unfold owns; iexists _; isplitr
              swap; · iexact HS0
              ipureintro; rfl
            isplitl [HS1]
            · unfold owns; iexists _; isplitr
              swap; · iexact HS1
              ipureintro; rfl
            iexact Hr
          iexact Hg
        isplitl [Ho]; · iexact Ho
        isplitl [H0]; · iexact H0
        isplitl [H1]; · iexists _; iexact H1
        iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back the one that knows nothing of the accumulators. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  isplitl [HS0 HS1 Hr]
  · isplitl [HS0]
    · iexists _; iexact HS0
    isplitl [HS1]
    · iexists _; iexact HS1
    iexact Hr
  iexact Hg

theorem hout0 (c : Dev nD) : (dat0 V c).Φ (Fin.last cfg0.N) ⊢ Pipeline.ΦA spec0 c :=
  Phi_out0 V c _ (by rw [Fin.val_last]; have : cfg0.N = 48 := N_0; omega)

end Cert.Kernel.Hand

end
-- ==== Proof.K.R1Base.lean ====
/-
  Region 1 (the epilogue kernel): what its three control cases share. The grid is 4 row tiles of 256; the first
  tile zeroes the two scalar accumulators, every tile adds its masked sums, the last tile copies them out.
-/
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The row tile is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The row tile is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev VO1_3 : View sig .tc .vmem S1x1 .f32 := (Memref.whole cc1_stg3_0 : Memref sig .tc .vmem S1x1 .f32).view
abbrev VO1_4 : View sig .tc .vmem S1x1 .f32 := (Memref.whole cc1_stg4_0 : Memref sig .tc .vmem S1x1 .f32).view
abbrev ms1_0 (t : Fin cfg1.N) : Memref sig .tc .vmem S2x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The two scalar accumulators: whole scoped buffers of the kernel's own. -/
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view

/-- The scoped buffers region 1 never touches (the other region's), each whole at some contents, beside a
    description `P` of the two accumulators. -/
def rest1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P)

/-- The region's invariant when nothing is known of the accumulators. -/
theorem PhiA1_eq (c : Dev nD) :
    (Pipeline.ΦA spec1 c : sProp 𝕄)
      = iprop(rest1 c iprop((∃ d, owns (c : Thread nD τ) scM1_0 fullShare d) ∗ (∃ d, owns (c : Thread nD τ) scM1_1 fullShare d)) ∗ (∃ r, prngReg c r)) := by
  unfold Pipeline.ΦA rest1; rw [scopedRest1_eq]; simp only [scM1_0, scM1_1, owns_whole]; try rfl

end Cert.Kernel.Hand

end
-- ==== Proof.K.R1RunA.lean ====
/-
  Region 1, case A (the first step: the accumulators are zeroed, then added to): the body's run on
  whole staging buffers. The pieces its stores write are found by running it.
-/
import proofs.«167578_j20134806684259_2_alg».proof.Proof.K.R1Base
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S2x256x1024 .f32) (harg1 : arg1.IsWhole) (arg2 : Memref sig .tc .vmem S256x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S2x256x1024 .f32) (x1 : Vec F S256x1 .f32) (x2 : Vec F S1x1024 .f32) :
    Σ' (LS0 : List (View.Piece (Elt F) S1x1 .f32)), { LS1 : List (View.Piece (Elt F) S1x1 .f32) //
      ∀ (xi3 : Vec F S1x1 .f32) (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__epilogue_kernel i arg1 harg1 arg2 harg2 arg3 harg3 arg4 harg4 arg5 harg5 arg6 harg6 arg7 harg7) K } := by
  refine ⟨?_, ?_, fun xi3 xi4 E K => ?run⟩
  case run =>
    simp only [cc1__epilogue_kernel_eq_skeleton]; unfold cc1__epilogue_kernel_skel
    unfold owns
    iintro ⟨⟨%fi0, %hfi0, HI0⟩, ⟨%fi1, %hfi1, HI1⟩, ⟨%fi2, %hfi2, HI2⟩, ⟨%fo3, %hfo3, HO3⟩, ⟨%fo4, %hfo4, HO4⟩, ⟨%ds0, %fs0, -, HS0⟩, ⟨%ds1, %fs1, -, HS1⟩, Hk⟩
    obtain rfl := harg1.eq_unread hfi0; obtain rfl := harg2.eq_unread hfi1; obtain rfl := harg3.eq_unread hfi2; obtain rfl := harg4.eq_unread hfo3; obtain rfl := harg5.eq_unread hfo4
    sl_exec (disch := first | exact hc0 | exact hc1)
    sl_step
    iapply Hk
    isplitl [HI0]
    · iexists _; isplitr; · ipureintro; exact harg1.read_unread _
      iexact HI0
    isplitl [HI1]
    · iexists _; isplitr; · ipureintro; exact harg2.read_unread _
      iexact HI1
    isplitl [HI2]
    · iexists _; isplitr; · ipureintro; exact harg3.read_unread _
      iexact HI2
    isplitl [HO3]
    · iexists _; isplitr; · ipureintro; exact harg4.read_unread _
      iexact HO3
    isplitl [HO4]
    · iexists _; isplitr; · ipureintro; exact harg5.read_unread _
      iexact HO4
    isplitl [HS0]
    · iexists _; iexact HS0
    iexists _; iexact HS1

end Cert.Kernel.Hand

end
-- ==== Proof.K.R1RunB.lean ====
/-
  Region 1, case B (a middle step: the accumulators are added to): the body's run on
  whole staging buffers. The pieces its stores write are found by running it.
-/
import proofs.«167578_j20134806684259_2_alg».proof.Proof.K.R1Base
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S2x256x1024 .f32) (harg1 : arg1.IsWhole) (arg2 : Memref sig .tc .vmem S256x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S2x256x1024 .f32) (x1 : Vec F S256x1 .f32) (x2 : Vec F S1x1024 .f32) (xs0 : Vec F S1x1 .f32) (xs1 : Vec F S1x1 .f32) :
    Σ' (LS0 : List (View.Piece (Elt F) S1x1 .f32)), { LS1 : List (View.Piece (Elt F) S1x1 .f32) //
      ∀ (xi3 : Vec F S1x1 .f32) (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (arg6.view.loc (c : Thread nD τ) ↦[arg6.view.set]{fullShare} arg6.view.writes (Elt F) (harg6.unread xs0) LS0) ∗ (arg7.view.loc (c : Thread nD τ) ↦[arg7.view.set]{fullShare} arg7.view.writes (Elt F) (harg7.unread xs1) LS1)) -∗ K ⟨⟩))
          ⊢ wp frame (wpE (defs₀ (F := F)) Variants.none c none) E (cc1__epilogue_kernel i arg1 harg1 arg2 harg2 arg3 harg3 arg4 harg4 arg5 harg5 arg6 harg6 arg7 harg7) K } := by
  refine ⟨?_, ?_, fun xi3 xi4 E K => ?run⟩
  case run =>
    simp only [cc1__epilogue_kernel_eq_skeleton]; unfold cc1__epilogue_kernel_skel
    unfold owns
    iintro ⟨⟨%fi0, %hfi0, HI0⟩, ⟨%fi1, %hfi1, HI1⟩, ⟨%fi2, %hfi2, HI2⟩, ⟨%fo3, %hfo3, HO3⟩, ⟨%fo4, %hfo4, HO4⟩, ⟨%fs0, %hfs0, HS0⟩, ⟨%fs1, %hfs1, HS1⟩, Hk⟩
    obtain rfl := harg1.eq_unread hfi0; obtain rfl := harg2.eq_unread hfi1; obtain rfl := harg3.eq_unread hfi2; obtain rfl := harg4.eq_unread hfo3; obtain rfl := harg5.eq_unread hfo4; obtain rfl := harg6.eq_unread hfs0; obtain rfl := harg7.eq_unread hfs1
    sl_exec (disch := first | exact hc0 | exact hc1)
    sl_step
    iapply Hk
    isplitl [HI0]
    · iexists _; isplitr; · ipureintro; exact harg1.read_unread _
      iexact HI0
    isplitl [HI1]
    · iexists _; isplitr; · ipureintro; exact harg2.read_unread _
      iexact HI1
    isplitl [HI2]
    · iexists _; isplitr; · ipureintro; exact harg3.read_unread _
      iexact HI2
    isplitl [HO3]
    · iexists _; isplitr; · ipureintro; exact harg4.read_unread _
      iexact HO3
    isplitl [HO4]
    · iexists _; isplitr; · ipureintro; exact harg5.read_unread _
      iexact HO4
    isplitl [HS0]
    · iexact HS0
    iexact HS1

end Cert.Kernel.Hand

end
-- ==== Proof.K.R1RunC.lean ====
/-
  Region 1, case C (the last step: the accumulators are added to, then copied into the output windows): the body's run on
  whole staging buffers. The pieces its stores write are found by running it.
-/
import proofs.«167578_j20134806684259_2_alg».proof.Proof.K.R1Base
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S2x256x1024 .f32) (harg1 : arg1.IsWhole) (arg2 : Memref sig .tc .vmem S256x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S2x256x1024 .f32) (x1 : Vec F S256x1 .f32) (x2 : Vec F S1x1024 .f32) (xs0 : Vec F S1x1 .f32) (xs1 : Vec F S1x1 .f32) :
    Σ' (L3 : List (View.Piece (Elt F) S1x1 .f32)) (L4 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread xs0) LS0) ∗ (arg7.view.loc (c : Thread nD τ) ↦[arg7.view.set]{fullShare} arg7.view.writes (Elt F) (harg7.unread xs1) LS1)) -∗ K ⟨⟩))
          ⊢ wp frame (wpE (defs₀ (F := F)) Variants.none c none) E (cc1__epilogue_kernel i arg1 harg1 arg2 harg2 arg3 harg3 arg4 harg4 arg5 harg5 arg6 harg6 arg7 harg7) K } := by
  refine ⟨?_, ?_, ?_, ?_, fun E K => ?run⟩
  case run =>
    simp only [cc1__epilogue_kernel_eq_skeleton]; unfold cc1__epilogue_kernel_skel
    unfold owns
    iintro ⟨⟨%fi0, %hfi0, HI0⟩, ⟨%fi1, %hfi1, HI1⟩, ⟨%fi2, %hfi2, HI2⟩, ⟨%do3, %fo3, -, HO3⟩, ⟨%do4, %fo4, -, HO4⟩, ⟨%fs0, %hfs0, HS0⟩, ⟨%fs1, %hfs1, HS1⟩, Hk⟩
    obtain rfl := harg1.eq_unread hfi0; obtain rfl := harg2.eq_unread hfi1; obtain rfl := harg3.eq_unread hfi2; obtain rfl := harg6.eq_unread hfs0; obtain rfl := harg7.eq_unread hfs1
    sl_exec (disch := first | exact hc0 | exact hc1)
    sl_step
    iapply Hk
    isplitl [HI0]
    · iexists _; isplitr; · ipureintro; exact harg1.read_unread _
      iexact HI0
    isplitl [HI1]
    · iexists _; isplitr; · ipureintro; exact harg2.read_unread _
      iexact HI1
    isplitl [HI2]
    · iexists _; isplitr; · ipureintro; exact harg3.read_unread _
      iexact HI2
    isplitl [HO3]
    · iexists _; iexact HO3
    isplitl [HO4]
    · iexists _; iexact HO4
    isplitl [HS0]
    · iexact HS0
    iexact HS1

end Cert.Kernel.Hand

end
-- ==== Proof.K.R1Body.lean ====
/-
  Region 1: what the accumulators and the output windows hold after every grid point (by recursion on the point:
  the first step of a run starts from zero, a later step adds to what the step before left, the last step also fills
  the output windows), the region's proof data, and the body's obligation at every point.
-/
import proofs.«167578_j20134806684259_2_alg».proof.Proof.K.R1RunA
import proofs.«167578_j20134806684259_2_alg».proof.Proof.K.R1RunB
import proofs.«167578_j20134806684259_2_alg».proof.Proof.K.R1RunC
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

abbrev runA1 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 x0 x1 x2
abbrev runB1 (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 : Vec F S1x1 .f32) (xs1 : Vec F S1x1 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 x0 x1 x2 xs0 xs1
abbrev runC1 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 x0 x1 x2 xs0 xs1

/-! ## What each case leaves -/

/-- The first step's stores into accumulator 0 begin with a store of the whole buffer, so they cover it. -/
theorem scoverA1_0 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) (y : S1x1.Idx) :
    ∃ pc ∈ (runA1 c t hc0 hc1 x0 x1 x2).1, y ∈ pc.1.set :=
  View.cover_of_tiledL (runA1 c t hc0 hc1 x0 x1 x2).1 S1x1.size (by sl_kernel_rfl) y
theorem scoverA1_1 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) (y : S1x1.Idx) :
    ∃ pc ∈ (runA1 c t hc0 hc1 x0 x1 x2).2.1, y ∈ pc.1.set :=
  View.cover_of_tiledL (runA1 c t hc0 hc1 x0 x1 x2).2.1 S1x1.size (by sl_kernel_rfl) y
/-- What the first step leaves in the accumulators. -/
def soutA1_0 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) : Vec F S1x1 .f32 :=
  VS1_0.read (Elt F) (VS1_0.writes (Elt F) VS1_0.junk (runA1 c t hc0 hc1 x0 x1 x2).1)
def soutA1_1 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) : Vec F S1x1 .f32 :=
  VS1_1.read (Elt F) (VS1_1.writes (Elt F) VS1_1.junk (runA1 c t hc0 hc1 x0 x1 x2).2.1)
/-- What a middle step leaves in the accumulators: its stores over what the step before left. -/
def soutB1_0 (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VS1_0.read (Elt F) (VS1_0.writes (Elt F) ((Memref.isWhole_whole cc1_scratch0).unread xs0) (runB1 c t hc0 hc1 x0 x1 x2 xs0 xs1).1)
def soutB1_1 (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VS1_1.read (Elt F) (VS1_1.writes (Elt F) ((Memref.isWhole_whole cc1_scratch1).unread xs1) (runB1 c t hc0 hc1 x0 x1 x2 xs0 xs1).2.1)
/-- The last step's store into each output window is of the whole block. -/
theorem coverC1_3 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) (y : S1x1.Idx) :
    ∃ pc ∈ (runC1 c t hc0 hc1 x0 x1 x2 xs0 xs1).1, y ∈ pc.1.set :=
  View.cover_of_tiledL (runC1 c t hc0 hc1 x0 x1 x2 xs0 xs1).1 S1x1.size (by sl_kernel_rfl) y
theorem coverC1_4 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) (y : S1x1.Idx) :
    ∃ pc ∈ (runC1 c t hc0 hc1 x0 x1 x2 xs0 xs1).2.1, y ∈ pc.1.set :=
  View.cover_of_tiledL (runC1 c t hc0 hc1 x0 x1 x2 xs0 xs1).2.1 S1x1.size (by sl_kernel_rfl) y
/-- What the last step leaves in the output windows and in the accumulators. -/
def outC1_3 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VO1_3.read (Elt F) (VO1_3.writes (Elt F) VO1_3.junk (runC1 c t hc0 hc1 x0 x1 x2 xs0 xs1).1)
def outC1_4 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VO1_4.read (Elt F) (VO1_4.writes (Elt F) VO1_4.junk (runC1 c t hc0 hc1 x0 x1 x2 xs0 xs1).2.1)
def soutC1_0 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VS1_0.read (Elt F) (VS1_0.writes (Elt F) ((Memref.isWhole_whole cc1_scratch0).unread xs0) (runC1 c t hc0 hc1 x0 x1 x2 xs0 xs1).2.2.1)
def soutC1_1 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VS1_1.read (Elt F) (VS1_1.writes (Elt F) ((Memref.isWhole_whole cc1_scratch1).unread xs1) (runC1 c t hc0 hc1 x0 x1 x2 xs0 xs1).2.2.2.1)

/-! ## Point by point -/

/-- The output windows' staging buffers and the two accumulators after the body at point `n`
    (windows first, then accumulators). -/
def outsAt1 (c : Dev nD) : (n : ℕ) → n < cfg1.N → Vec F S1x1 .f32 × Vec F S1x1 .f32 × Vec F S1x1 .f32 × Vec F S1x1 .f32
  | 0, hn => ((VO1_3.read (Elt F) VO1_3.junk), (VO1_4.read (Elt F) VO1_4.junk), soutA1_0 c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), soutA1_1 c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        ((VO1_3.read (Elt F) VO1_3.junk), (VO1_4.read (Elt F) VO1_4.junk), soutA1_0 c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), soutA1_1 c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (outC1_3 c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, outC1_4 c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, soutC1_0 c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, soutC1_1 c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2)
      else
        ((VO1_3.read (Elt F) VO1_3.junk), (VO1_4.read (Elt F) VO1_4.junk), soutB1_0 c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, soutB1_1 c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = ((VO1_3.read (Elt F) VO1_3.junk), (VO1_4.read (Elt F) VO1_4.junk), soutA1_0 c t ((hcond1_0 t).mpr h0) (fun h => h1 ((hcond1_1 t).mp h)) (iblk1 V c 0 t) (iblk1 V c 1 t) (iblk1 V c 2 t), soutA1_1 c t ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = ((VO1_3.read (Elt F) VO1_3.junk), (VO1_4.read (Elt F) VO1_4.junk), soutB1_0 c t (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, soutB1_1 c t (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC1_3 c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, outC1_4 c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, soutC1_0 c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, soutC1_1 c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: nothing known of the accumulators before the first point, afterwards
    each accumulator at what the point before left. -/
def PhiS1 (c : Dev nD) : (n : ℕ) → n ≤ cfg1.N → sProp 𝕄
  | 0, _ => Pipeline.ΦA spec1 c
  | n + 1, hn => iprop(rest1 c iprop(owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 c iprop(owns (c : Thread nD τ) scM1_0 fullShare ((outsAt1 V c n hn).2.2.1) ∗ owns (c : Thread nD τ) scM1_1 fullShare ((outsAt1 V c n hn).2.2.2)) ∗ (∃ r, prngReg c r)) := rfl
theorem PhiS1_pos (c : Dev nD) (n : ℕ) (h : n ≤ cfg1.N) (hz : n ≠ 0) :
    PhiS1 V c n h = iprop(rest1 c iprop(owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold soutA1_0 soutA1_1; (try dsimp only)
      by_cases hz : t.val = 0
      · rw [PhiS1_castSucc V c t, PhiS1_zero V c _ _ hz, PhiA1_eq]; unfold rest1
        iintro ⟨⟨⟨R1, R2, R3, R4, R5, R6, R7, R8, HS0, HS1⟩, Hg⟩, Ho, ⟨%d0, H0⟩, ⟨%d1, H1⟩, ⟨%d2, H2⟩, ⟨%d3, H3⟩, ⟨%d4, H4⟩⟩
        iapply ((runA1 c t ((hcond1_0 t).mpr h0) (fun h => h1 ((hcond1_1 t).mp h)) (iblk1 V c 0 t) (iblk1 V c 1 t) (iblk1 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [R1 R2 R3 R4 R5 R6 R7 R8 HS0 HS1 Hg]
        · isplitl [R1 R2 R3 R4 R5 R6 R7 R8 HS0 HS1]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [HS0]
            · unfold owns; iexists _; isplitr
              swap; · iexact HS0
              ipureintro; exact View.read_writes_of_cover _ _ _ _ _ (scoverA1_0 c t _ _ _ _ _)
            unfold owns; iexists _; isplitr
            swap; · iexact HS1
            ipureintro; exact View.read_writes_of_cover _ _ _ _ _ (scoverA1_1 c t _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · rw [PhiS1_castSucc V c t, PhiS1_pos V c _ _ hz]; unfold rest1
        iintro ⟨⟨⟨R1, R2, R3, R4, R5, R6, R7, R8, HS0, HS1⟩, Hg⟩, Ho, ⟨%d0, H0⟩, ⟨%d1, H1⟩, ⟨%d2, H2⟩, ⟨%d3, H3⟩, ⟨%d4, H4⟩⟩
        iapply ((runA1 c t ((hcond1_0 t).mpr h0) (fun h => h1 ((hcond1_1 t).mp h)) (iblk1 V c 0 t) (iblk1 V c 1 t) (iblk1 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [R1 R2 R3 R4 R5 R6 R7 R8 HS0 HS1 Hg]
        · isplitl [R1 R2 R3 R4 R5 R6 R7 R8 HS0 HS1]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [HS0]
            · unfold owns; iexists _; isplitr
              swap; · iexact HS0
              ipureintro; exact View.read_writes_of_cover _ _ _ _ _ (scoverA1_0 c t _ _ _ _ _)
            unfold owns; iexists _; isplitr
            swap; · iexact HS1
            ipureintro; exact View.read_writes_of_cover _ _ _ _ _ (scoverA1_1 c t _ _ _ _ _)
          iexact Hg
        isplitl [Ho]; · iexact Ho
        isplitl [H0]; · iexact H0
        isplitl [H1]; · iexact H1
        isplitl [H2]; · iexact H2
        isplitl [H3]; · iexists _; iexact H3
        iexists _; iexact H4

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold outC1_3 outC1_4 soutC1_0 soutC1_1; (try dsimp only)
      by_cases hz : t.val = 0
      · exfalso; omega
      · rw [PhiS1_castSucc V c t, PhiS1_pos V c _ _ hz]; unfold rest1
        iintro ⟨⟨⟨R1, R2, R3, R4, R5, R6, R7, R8, HS0, HS1⟩, Hg⟩, Ho, ⟨%d0, H0⟩, ⟨%d1, H1⟩, ⟨%d2, H2⟩, ⟨%d3, H3⟩, ⟨%d4, H4⟩⟩
        iapply ((runC1 c t (fun h => h0 ((hcond1_0 t).mp h)) ((hcond1_1 t).mpr h1) (iblk1 V c 0 t) (iblk1 V c 1 t) (iblk1 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, HS0, HS1⟩
        isplitl [R1 R2 R3 R4 R5 R6 R7 R8 HS0 HS1 Hg]
        · isplitl [R1 R2 R3 R4 R5 R6 R7 R8 HS0 HS1]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (coverC1_3 c t _ _ _ _ _ _ _)
        unfold owns; iexists _; isplitr
        swap; · iexact H4
        ipureintro; exact View.read_writes_of_cover _ _ _ _ _ (coverC1_4 c t _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold soutB1_0 soutB1_1; (try dsimp only)
      by_cases hz : t.val = 0
      · exfalso; omega
      · rw [PhiS1_castSucc V c t, PhiS1_pos V c _ _ hz]; unfold rest1
        iintro ⟨⟨⟨R1, R2, R3, R4, R5, R6, R7, R8, HS0, HS1⟩, Hg⟩, Ho, ⟨%d0, H0⟩, ⟨%d1, H1⟩, ⟨%d2, H2⟩, ⟨%d3, H3⟩, ⟨%d4, H4⟩⟩
        iapply ((runB1 c t (fun h => h0 ((hcond1_0 t).mp h)) (fun h => h1 ((hcond1_1 t).mp h)) (iblk1 V c 0 t) (iblk1 V c 1 t) (iblk1 V c 2 t) _ _).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [R1 R2 R3 R4 R5 R6 R7 R8 HS0 HS1 Hg]
        · isplitl [R1 R2 R3 R4 R5 R6 R7 R8 HS0 HS1]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexists _; iexact H3
        iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back the one that knows nothing of the accumulators. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold rest1
  iintro ⟨⟨R1, R2, R3, R4, R5, R6, R7, R8, HS0, HS1⟩, Hg⟩
  isplitl [R1 R2 R3 R4 R5 R6 R7 R8 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [HS0]
    · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 4 := N_1; omega)

end Cert.Kernel.Hand

end
-- ==== Proof.K.Frame.lean ====
/-
  The whole run of @main: a reshape, region 0, six host lines, region 1, ten host lines. The buffers' contents at
  every boundary are a fold from the launch memory; each region's arrays end at what its write-backs leave, every
  other buffer as the region found it. Every weakly fair execution ends with every unscoped buffer at the last
  boundary's contents; in particular the argument array is as launched.
-/
import proofs.«167578_j20134806684259_2_alg».proof.Proof.K.R0Body
import proofs.«167578_j20134806684259_2_alg».proof.Proof.K.R1Body
import proofs.«167578_j20134806684259_2_alg».proof.Proof.Gen.Kernel.Regions
import proofs.«167578_j20134806684259_2_alg».proof.Proof.Gen.Kernel.Launch
import proofs.«167578_j20134806684259_2_alg».proof.Proof.Gen.Kernel.Skeleton
import proofs.«167578_j20134806684259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-- No host line writes the argument and no region may change it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (U1 m ρ) c
    unfold Pipeline.ΦA at h
    rw [show (pdats m ρ 0 c).Φ 0 = (dat0 (U1 m ρ) c).Φ 0 from rfl]
    iintro ⟨Hp, -, Hr⟩
    iapply h
    isplitl [Hr]; · iexact Hr
    iexact Hp
  hout c := by
    rw [Pipeline.ownSems0_none, show (pdats m ρ 0 c).Φ (Fin.last _) = (dat0 (U1 m ρ) c).Φ (Fin.last cfg0.N) from rfl]
    have h := hout0 (U1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U3 m ρ) c
    unfold Pipeline.ΦA at h
    rw [show (pdats m ρ 1 c).Φ 0 = (dat1 (U3 m ρ) c).Φ 0 from rfl]
    iintro ⟨Hp, -, Hr⟩
    iapply h
    isplitl [Hr]; · iexact Hr
    iexact Hp
  hout c := by
    rw [Pipeline.ownSems0_none, show (pdats m ρ 1 c).Φ (Fin.last _) = (dat1 (U3 m ρ) c).Φ (Fin.last cfg1.N) from rfl]
    have h := hout1 (U3 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m ρ c)) (run_all m ρ)

end Cert.Kernel.Hand

end
-- ==== Proof.KI.R0Base.lean ====
/-
  Region 0 (the Gram kernel): what its three control cases share. The grid is 2 shards of 24 reduction steps;
  the first step of a shard (step % 24 = 0) zeroes the two accumulators, every step adds the block's row sums of
  squares and its upper-triangular 256-tile products, the last step (step % 24 = 23) copies the accumulators out.
-/
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The reduction step is the first of its shard. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 24 = 0 :=
  (by decide +kernel : ∀ t : Fin grid0.N, cond0_0 (grid0.coords t) ↔ t.val % 24 = 0)
/-- The reduction step is the last of its shard. -/
abbrev cond0_1 (i : grid0.Coords) : Prop := k0_cond2 i = 1#1
theorem hcond0_1 : ∀ t : Fin cfg0.N, cond0_1 (grid0.coords t) ↔ t.val % 24 = 23 :=
  (by decide +kernel : ∀ t : Fin grid0.N, cond0_1 (grid0.coords t) ↔ t.val % 24 = 23)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev VO0_1 : View sig .tc .vmem S1x1024x1024 .f32 := (Memref.whole cc0_stg1_0 : Memref sig .tc .vmem S1x1024x1024 .f32).view
abbrev VO0_2 : View sig .tc .vmem S1x1024x1 .f32 := (Memref.whole cc0_stg2_0 : Memref sig .tc .vmem S1x1024x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S1024x1024 .f32 := Memref.whole cc0_scratch0
abbrev scM0_1 : Memref sig .tc .vmem S1024x1 .f32 := Memref.whole cc0_scratch1
abbrev VS0_0 : View sig .tc .vmem S1024x1024 .f32 := scM0_0.view
abbrev VS0_1 : View sig .tc .vmem S1024x1 .f32 := scM0_1.view

/-- The scoped buffers region 0 never touches (the other region's), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's invariant when nothing is known of the accumulators. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Hand

end
-- ==== Proof.KI.R0RunA.lean ====
/-
  Region 0, case A (the first step: the accumulators are zeroed, then added to): the body's run on
  whole staging buffers. The pieces its stores write are found by running it.
-/
import proofs.«167578_j20134806684259_2_alg».proof.Proof.KI.R0Base
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : cond0_0 i) (hc1 : ¬cond0_1 i)
    (x0 : Vec F S1024x1024 .f32) :
    Σ' (LS0 : List (View.Piece (Elt F) S1024x1024 .f32)), { LS1 : List (View.Piece (Elt F) S1024x1 .f32) //
      ∀ (xi1 : Vec F S1x1024x1024 .f32) (xi2 : Vec F S1x1024x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, fun xi1 xi2 E K => ?run⟩
  case run =>
    simp only [cc0__gram_kernel_eq_skeleton]; unfold cc0__gram_kernel_skel
    unfold owns
    iintro ⟨⟨%fi0, %hfi0, HI0⟩, ⟨%fo1, %hfo1, HO1⟩, ⟨%fo2, %hfo2, HO2⟩, ⟨%ds0, %fs0, -, HS0⟩, ⟨%ds1, %fs1, -, HS1⟩, Hk⟩
    obtain rfl := harg2.eq_unread hfi0; obtain rfl := harg3.eq_unread hfo1; obtain rfl := harg4.eq_unread hfo2
    sl_exec (disch := first | exact hc0 | exact hc1)
    sl_step
    iapply Hk
    isplitl [HI0]
    · iexists _; isplitr; · ipureintro; exact harg2.read_unread _
      iexact HI0
    isplitl [HO1]
    · iexists _; isplitr; · ipureintro; exact harg3.read_unread _
      iexact HO1
    isplitl [HO2]
    · iexists _; isplitr; · ipureintro; exact harg4.read_unread _
      iexact HO2
    isplitl [HS0]
    · iexists _; iexact HS0
    iexists _; iexact HS1

end Cert.KernelIdeal.Hand

end
-- ==== Proof.KI.R0RunB.lean ====
/-
  Region 0, case B (a middle step: the accumulators are added to): the body's run on
  whole staging buffers. The pieces its stores write are found by running it.
-/
import proofs.«167578_j20134806684259_2_alg».proof.Proof.KI.R0Base
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : ¬cond0_0 i) (hc1 : ¬cond0_1 i)
    (x0 : Vec F S1024x1024 .f32) (xs0 : Vec F S1024x1024 .f32) (xs1 : Vec F S1024x1 .f32) :
    Σ' (LS0 : List (View.Piece (Elt F) S1024x1024 .f32)), { LS1 : List (View.Piece (Elt F) S1024x1 .f32) //
      ∀ (xi1 : Vec F S1x1024x1024 .f32) (xi2 : Vec F S1x1024x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (arg5.view.loc (c : Thread nD τ) ↦[arg5.view.set]{fullShare} arg5.view.writes (Elt F) (harg5.unread xs0) LS0) ∗ (arg6.view.loc (c : Thread nD τ) ↦[arg6.view.set]{fullShare} arg6.view.writes (Elt F) (harg6.unread xs1) LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, fun xi1 xi2 E K => ?run⟩
  case run =>
    simp only [cc0__gram_kernel_eq_skeleton]; unfold cc0__gram_kernel_skel
    unfold owns
    iintro ⟨⟨%fi0, %hfi0, HI0⟩, ⟨%fo1, %hfo1, HO1⟩, ⟨%fo2, %hfo2, HO2⟩, ⟨%fs0, %hfs0, HS0⟩, ⟨%fs1, %hfs1, HS1⟩, Hk⟩
    obtain rfl := harg2.eq_unread hfi0; obtain rfl := harg3.eq_unread hfo1; obtain rfl := harg4.eq_unread hfo2; obtain rfl := harg5.eq_unread hfs0; obtain rfl := harg6.eq_unread hfs1
    sl_exec (disch := first | exact hc0 | exact hc1)
    sl_step
    iapply Hk
    isplitl [HI0]
    · iexists _; isplitr; · ipureintro; exact harg2.read_unread _
      iexact HI0
    isplitl [HO1]
    · iexists _; isplitr; · ipureintro; exact harg3.read_unread _
      iexact HO1
    isplitl [HO2]
    · iexists _; isplitr; · ipureintro; exact harg4.read_unread _
      iexact HO2
    isplitl [HS0]
    · iexact HS0
    iexact HS1

end Cert.KernelIdeal.Hand

end
-- ==== Proof.KI.R0RunC.lean ====
/-
  Region 0, case C (the last step: the accumulators are added to, then copied into the output windows): the body's run on
  whole staging buffers. The pieces its stores write are found by running it.
-/
import proofs.«167578_j20134806684259_2_alg».proof.Proof.KI.R0Base
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : ¬cond0_0 i) (hc1 : cond0_1 i)
    (x0 : Vec F S1024x1024 .f32) (xs0 : Vec F S1024x1024 .f32) (xs1 : Vec F S1024x1 .f32) :
    Σ' (L1 : List (View.Piece (Elt F) S1x1024x1024 .f32)) (L2 : List (View.Piece (Elt F) S1x1024x1 .f32)) (LS0 : List (View.Piece (Elt F) S1024x1024 .f32)), { LS1 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread xs0) LS0) ∗ (arg6.view.loc (c : Thread nD τ) ↦[arg6.view.set]{fullShare} arg6.view.writes (Elt F) (harg6.unread xs1) LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, ?_, ?_, fun E K => ?run⟩
  case run =>
    simp only [cc0__gram_kernel_eq_skeleton]; unfold cc0__gram_kernel_skel
    unfold owns
    iintro ⟨⟨%fi0, %hfi0, HI0⟩, ⟨%do1, %fo1, -, HO1⟩, ⟨%do2, %fo2, -, HO2⟩, ⟨%fs0, %hfs0, HS0⟩, ⟨%fs1, %hfs1, HS1⟩, Hk⟩
    obtain rfl := harg2.eq_unread hfi0; obtain rfl := harg5.eq_unread hfs0; obtain rfl := harg6.eq_unread hfs1
    sl_exec (disch := first | exact hc0 | exact hc1)
    sl_step
    iapply Hk
    isplitl [HI0]
    · iexists _; isplitr; · ipureintro; exact harg2.read_unread _
      iexact HI0
    isplitl [HO1]
    · iexists _; iexact HO1
    isplitl [HO2]
    · iexists _; iexact HO2
    isplitl [HS0]
    · iexact HS0
    iexact HS1

end Cert.KernelIdeal.Hand

end
-- ==== Proof.KI.R0Body.lean ====
/-
  Region 0: what the accumulators and the output windows hold after every grid point (by recursion on the point:
  the first step of a run starts from zero, a later step adds to what the step before left, the last step also fills
  the output windows), the region's proof data, and the body's obligation at every point.
-/
import proofs.«167578_j20134806684259_2_alg».proof.Proof.KI.R0RunA
import proofs.«167578_j20134806684259_2_alg».proof.Proof.KI.R0RunB
import proofs.«167578_j20134806684259_2_alg».proof.Proof.KI.R0RunC
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

abbrev runA0 (c : Dev nD) (t : Fin cfg0.N) (hc0 : cond0_0 (grid0.coords t)) (hc1 : ¬cond0_1 (grid0.coords t)) (x0 : Vec F S1024x1024 .f32) :=
  kernelRun0_A (F := F) c (grid0.coords t) (ms0_0 t) (hs0_0 t) (ms0_1 t) (hs0_1 t) (ms0_2 t) (hs0_2 t) scM0_0 (Memref.isWhole_whole _) scM0_1 (Memref.isWhole_whole _) hc0 hc1 x0
abbrev runB0 (c : Dev nD) (t : Fin cfg0.N) (hc0 : ¬cond0_0 (grid0.coords t)) (hc1 : ¬cond0_1 (grid0.coords t)) (x0 : Vec F S1024x1024 .f32) (xs0 : Vec F S1024x1024 .f32) (xs1 : Vec F S1024x1 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) hc0 hc1 x0 xs0 xs1
abbrev runC0 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) hc0 hc1 x0 xs0 xs1

/-! ## What each case leaves -/

/-- The first step's stores into accumulator 0 begin with a store of the whole buffer, so they cover it. -/
theorem scoverA0_0 (c : Dev nD) (t : Fin cfg0.N) (hc0 : cond0_0 (grid0.coords t)) (hc1 : ¬cond0_1 (grid0.coords t)) (x0 : Vec F S1024x1024 .f32) (y : S1024x1024.Idx) :
    ∃ pc ∈ (runA0 c t hc0 hc1 x0).1, y ∈ pc.1.set :=
  View.cover_of_tiledL (runA0 c t hc0 hc1 x0).1 S1024x1024.size (by sl_kernel_rfl) y
theorem scoverA0_1 (c : Dev nD) (t : Fin cfg0.N) (hc0 : cond0_0 (grid0.coords t)) (hc1 : ¬cond0_1 (grid0.coords t)) (x0 : Vec F S1024x1024 .f32) (y : S1024x1.Idx) :
    ∃ pc ∈ (runA0 c t hc0 hc1 x0).2.1, y ∈ pc.1.set :=
  View.cover_of_tiledL (runA0 c t hc0 hc1 x0).2.1 S1024x1.size (by sl_kernel_rfl) y
/-- What the first step leaves in the accumulators. -/
def soutA0_0 (c : Dev nD) (t : Fin cfg0.N) (hc0 : cond0_0 (grid0.coords t)) (hc1 : ¬cond0_1 (grid0.coords t)) (x0 : Vec F S1024x1024 .f32) : Vec F S1024x1024 .f32 :=
  VS0_0.read (Elt F) (VS0_0.writes (Elt F) VS0_0.junk (runA0 c t hc0 hc1 x0).1)
def soutA0_1 (c : Dev nD) (t : Fin cfg0.N) (hc0 : cond0_0 (grid0.coords t)) (hc1 : ¬cond0_1 (grid0.coords t)) (x0 : Vec F S1024x1024 .f32) : Vec F S1024x1 .f32 :=
  VS0_1.read (Elt F) (VS0_1.writes (Elt F) VS0_1.junk (runA0 c t hc0 hc1 x0).2.1)
/-- What a middle step leaves in the accumulators: its stores over what the step before left. -/
def soutB0_0 (c : Dev nD) (t : Fin cfg0.N) (hc0 : ¬cond0_0 (grid0.coords t)) (hc1 : ¬cond0_1 (grid0.coords t)) (x0 : Vec F S1024x1024 .f32) (xs0 : Vec F S1024x1024 .f32) (xs1 : Vec F S1024x1 .f32) : Vec F S1024x1024 .f32 :=
  VS0_0.read (Elt F) (VS0_0.writes (Elt F) ((Memref.isWhole_whole cc0_scratch0).unread xs0) (runB0 c t hc0 hc1 x0 xs0 xs1).1)
def soutB0_1 (c : Dev nD) (t : Fin cfg0.N) (hc0 : ¬cond0_0 (grid0.coords t)) (hc1 : ¬cond0_1 (grid0.coords t)) (x0 : Vec F S1024x1024 .f32) (xs0 : Vec F S1024x1024 .f32) (xs1 : Vec F S1024x1 .f32) : Vec F S1024x1 .f32 :=
  VS0_1.read (Elt F) (VS0_1.writes (Elt F) ((Memref.isWhole_whole cc0_scratch1).unread xs1) (runB0 c t hc0 hc1 x0 xs0 xs1).2.1)
/-- The last step's store into each output window is of the whole block. -/
theorem coverC0_1 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) (y : S1x1024x1024.Idx) :
    ∃ pc ∈ (runC0 c t hc0 hc1 x0 xs0 xs1).1, y ∈ pc.1.set :=
  View.cover_of_tiledL (runC0 c t hc0 hc1 x0 xs0 xs1).1 S1x1024x1024.size (by sl_kernel_rfl) y
theorem coverC0_2 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) (y : S1x1024x1.Idx) :
    ∃ pc ∈ (runC0 c t hc0 hc1 x0 xs0 xs1).2.1, y ∈ pc.1.set :=
  View.cover_of_tiledL (runC0 c t hc0 hc1 x0 xs0 xs1).2.1 S1x1024x1.size (by sl_kernel_rfl) y
/-- What the last step leaves in the output windows and in the accumulators. -/
def outC0_1 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) : Vec F S1x1024x1024 .f32 :=
  VO0_1.read (Elt F) (VO0_1.writes (Elt F) VO0_1.junk (runC0 c t hc0 hc1 x0 xs0 xs1).1)
def outC0_2 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) : Vec F S1x1024x1 .f32 :=
  VO0_2.read (Elt F) (VO0_2.writes (Elt F) VO0_2.junk (runC0 c t hc0 hc1 x0 xs0 xs1).2.1)
def soutC0_0 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) : Vec F S1024x1024 .f32 :=
  VS0_0.read (Elt F) (VS0_0.writes (Elt F) ((Memref.isWhole_whole cc0_scratch0).unread xs0) (runC0 c t hc0 hc1 x0 xs0 xs1).2.2.1)
def soutC0_1 (c : Dev nD) (t : Fin cfg0.N) (hc0 : ¬cond0_0 (grid0.coords t)) (hc1 : cond0_1 (grid0.coords t)) (x0 : Vec F S1024x1024 .f32) (xs0 : Vec F S1024x1024 .f32) (xs1 : Vec F S1024x1 .f32) : Vec F S1024x1 .f32 :=
  VS0_1.read (Elt F) (VS0_1.writes (Elt F) ((Memref.isWhole_whole cc0_scratch1).unread xs1) (runC0 c t hc0 hc1 x0 xs0 xs1).2.2.2.1)

/-! ## Point by point -/

/-- The output windows' staging buffers and the two accumulators after the body at point `n`
    (windows first, then accumulators). -/
def outsAt0 (c : Dev nD) : (n : ℕ) → n < cfg0.N → Vec F S1x1024x1024 .f32 × Vec F S1x1024x1 .f32 × Vec F S1024x1024 .f32 × Vec F S1024x1 .f32
  | 0, hn => ((VO0_1.read (Elt F) VO0_1.junk), (VO0_2.read (Elt F) VO0_2.junk), soutA0_0 c ⟨0, hn⟩ ((hcond0_0 ⟨0, hn⟩).mpr (Nat.zero_mod _)) (fun h => (fun h => by (try dsimp only at h); omega) ((hcond0_1 ⟨0, hn⟩).mp h)) (iblk0 V c 0 ⟨0, hn⟩), soutA0_1 c ⟨0, hn⟩ ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 24 = 0 then
      if h1 : (n + 1) % 24 = 23 then
        False.elim (by omega)
      else
        ((VO0_1.read (Elt F) VO0_1.junk), (VO0_2.read (Elt F) VO0_2.junk), soutA0_0 c ⟨n + 1, hn⟩ ((hcond0_0 ⟨n + 1, hn⟩).mpr h0) (fun h => h1 ((hcond0_1 ⟨n + 1, hn⟩).mp h)) (iblk0 V c 0 ⟨n + 1, hn⟩), soutA0_1 c ⟨n + 1, hn⟩ ((hcond0_0 ⟨n + 1, hn⟩).mpr h0) (fun h => h1 ((hcond0_1 ⟨n + 1, hn⟩).mp h)) (iblk0 V c 0 ⟨n + 1, hn⟩))
    else
      if h1 : (n + 1) % 24 = 23 then
        (outC0_1 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, outC0_2 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, soutC0_0 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, soutC0_1 c ⟨n + 1, hn⟩ (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        ((VO0_1.read (Elt F) VO0_1.junk), (VO0_2.read (Elt F) VO0_2.junk), soutB0_0 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, soutB0_1 c ⟨n + 1, hn⟩ (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 24 = 0) (h1 : ¬t.val % 24 = 23) :
    outsAt0 V c t.val t.isLt = ((VO0_1.read (Elt F) VO0_1.junk), (VO0_2.read (Elt F) VO0_2.junk), soutA0_0 c t ((hcond0_0 t).mpr h0) (fun h => h1 ((hcond0_1 t).mp h)) (iblk0 V c 0 t), soutA0_1 c t ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 24 = 0) (h1 : ¬t.val % 24 = 23) :
    outsAt0 V c t.val t.isLt = ((VO0_1.read (Elt F) VO0_1.junk), (VO0_2.read (Elt F) VO0_2.junk), soutB0_0 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, soutB0_1 c t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 24 = 0) (h1 : t.val % 24 = 23) :
    outsAt0 V c t.val t.isLt = (outC0_1 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, outC0_2 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, soutC0_0 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, soutC0_1 c t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: nothing known of the accumulators before the first point, afterwards
    each accumulator at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body's obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 48 := lt_of_lt_of_eq t.isLt (show cfg0.N = 48 from N_0)
  by_cases h0 : t.val % 24 = 0
  · by_cases h1 : t.val % 24 = 23
    · exfalso; omega
    ·
      rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold soutA0_0 soutA0_1; (try dsimp only)
      by_cases hz : t.val = 0
      · rw [PhiS0_castSucc V c t, PhiS0_zero V c _ _ hz, PhiA0_eq]
        iintro ⟨⟨⟨HS0, HS1, Hr⟩, Hg⟩, Ho, ⟨%d0, H0⟩, ⟨%d1, H1⟩, ⟨%d2, H2⟩⟩
        iapply ((runA0 c t ((hcond0_0 t).mpr h0) (fun h => h1 ((hcond0_1 t).mp h)) (iblk0 V c 0 t)).2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scoverA0_0 c t _ _ _)
            isplitl [HS1]
            · unfold owns; iexists _; isplitr
              swap; · iexact HS1
              ipureintro; exact View.read_writes_of_cover _ _ _ _ _ (scoverA0_1 c t _ _ _)
            iexact Hr
          iexact Hg
        isplitl [Ho]; · iexact Ho
        isplitl [H0]; · iexact H0
        isplitl [H1]; · iexists _; iexact H1
        iexists _; iexact H2
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((runA0 c t ((hcond0_0 t).mpr h0) (fun h => h1 ((hcond0_1 t).mp h)) (iblk0 V c 0 t)).2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scoverA0_0 c t _ _ _)
            isplitl [HS1]
            · unfold owns; iexists _; isplitr
              swap; · iexact HS1
              ipureintro; exact View.read_writes_of_cover _ _ _ _ _ (scoverA0_1 c t _ _ _)
            iexact Hr
          iexact Hg
        isplitl [Ho]; · iexact Ho
        isplitl [H0]; · iexact H0
        isplitl [H1]; · iexists _; iexact H1
        iexists _; iexact H2

  · by_cases h1 : t.val % 24 = 23
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t ((hcond0_1 t).mpr h1)], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold outC0_1 outC0_2 soutC0_0 soutC0_1; (try dsimp only)
      by_cases hz : t.val = 0
      · exfalso; omega
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((runC0 c t (fun h => h0 ((hcond0_0 t).mp h)) ((hcond0_1 t).mpr h1) (iblk0 V c 0 t) _ _).2.2.2.2 Set.univ _)
        isplitl [H0]; · iexact H0
        isplitl [H1]; · iexists _; iexact H1
        isplitl [H2]; · iexists _; iexact H2
        isplitl [HS0]; · iexact HS0
        isplitl [HS1]; · iexact HS1
        iintro ⟨H0, ⟨%e1, H1⟩, ⟨%e2, H2⟩, HS0, HS1⟩
        isplitl [HS0 HS1 Hr Hg]
        · isplitl [HS0 HS1 Hr]
          · isplitl [HS0]
            · unfold owns; iexists _; isplitr
              swap; · iexact HS0
              ipureintro; rfl
            isplitl [HS1]
            · unfold owns; iexists _; isplitr
              swap; · iexact HS1
              ipureintro; rfl
            iexact Hr
          iexact Hg
        isplitl [Ho]; · iexact Ho
        isplitl [H0]; · iexact H0
        isplitl [H1]
        · unfold owns; iexists _; isplitr
          swap; · iexact H1
          ipureintro; exact View.read_writes_of_cover _ _ _ _ _ (coverC0_1 c t _ _ _ _ _)
        unfold owns; iexists _; isplitr
        swap; · iexact H2
        ipureintro; exact View.read_writes_of_cover _ _ _ _ _ (coverC0_2 c t _ _ _ _ _)

    ·
      rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold soutB0_0 soutB0_1; (try dsimp only)
      by_cases hz : t.val = 0
      · exfalso; omega
      · rw [PhiS0_castSucc V c t, PhiS0_pos V c _ _ hz]
        iintro ⟨⟨⟨HS0, HS1, Hr⟩, Hg⟩, Ho, ⟨%d0, H0⟩, ⟨%d1, H1⟩, ⟨%d2, H2⟩⟩
        iapply ((runB0 c t (fun h => h0 ((hcond0_0 t).mp h)) (fun h => h1 ((hcond0_1 t).mp h)) (iblk0 V c 0 t) _ _).2.2 _ _ Set.univ _)
        isplitl [H0]; · iexact H0
        isplitl [H1]; · iexact H1
        isplitl [H2]; · iexact H2
        isplitl [HS0]; · iexact HS0
        isplitl [HS1]; · iexact HS1
        iintro ⟨H0, H1, H2, HS0, HS1⟩
        isplitl [HS0 HS1 Hr Hg]
        · isplitl [HS0 HS1 Hr]
          · isplitl [HS0]
            · unfold owns; iexists _; isplitr
              swap; · iexact HS0
              ipureintro; rfl
            isplitl [HS1]
            · unfold owns; iexists _; isplitr
              swap; · iexact HS1
              ipureintro; rfl
            iexact Hr
          iexact Hg
        isplitl [Ho]; · iexact Ho
        isplitl [H0]; · iexact H0
        isplitl [H1]; · iexists _; iexact H1
        iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back the one that knows nothing of the accumulators. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  isplitl [HS0 HS1 Hr]
  · isplitl [HS0]
    · iexists _; iexact HS0
    isplitl [HS1]
    · iexists _; iexact HS1
    iexact Hr
  iexact Hg

theorem hout0 (c : Dev nD) : (dat0 V c).Φ (Fin.last cfg0.N) ⊢ Pipeline.ΦA spec0 c :=
  Phi_out0 V c _ (by rw [Fin.val_last]; have : cfg0.N = 48 := N_0; omega)

end Cert.KernelIdeal.Hand

end
-- ==== Proof.KI.R1Base.lean ====
/-
  Region 1 (the epilogue kernel): what its three control cases share. The grid is 4 row tiles of 256; the first
  tile zeroes the two scalar accumulators, every tile adds its masked sums, the last tile copies them out.
-/
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The row tile is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The row tile is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev VO1_3 : View sig .tc .vmem S1x1 .f32 := (Memref.whole cc1_stg3_0 : Memref sig .tc .vmem S1x1 .f32).view
abbrev VO1_4 : View sig .tc .vmem S1x1 .f32 := (Memref.whole cc1_stg4_0 : Memref sig .tc .vmem S1x1 .f32).view
abbrev ms1_0 (t : Fin cfg1.N) : Memref sig .tc .vmem S2x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The two scalar accumulators: whole scoped buffers of the kernel's own. -/
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view

/-- The scoped buffers region 1 never touches (the other region's), each whole at some contents, beside a
    description `P` of the two accumulators. -/
def rest1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P)

/-- The region's invariant when nothing is known of the accumulators. -/
theorem PhiA1_eq (c : Dev nD) :
    (Pipeline.ΦA spec1 c : sProp 𝕄)
      = iprop(rest1 c iprop((∃ d, owns (c : Thread nD τ) scM1_0 fullShare d) ∗ (∃ d, owns (c : Thread nD τ) scM1_1 fullShare d)) ∗ (∃ r, prngReg c r)) := by
  unfold Pipeline.ΦA rest1; rw [scopedRest1_eq]; simp only [scM1_0, scM1_1, owns_whole]; try rfl

end Cert.KernelIdeal.Hand

end
-- ==== Proof.KI.R1RunA.lean ====
/-
  Region 1, case A (the first step: the accumulators are zeroed, then added to): the body's run on
  whole staging buffers. The pieces its stores write are found by running it.
-/
import proofs.«167578_j20134806684259_2_alg».proof.Proof.KI.R1Base
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S2x256x1024 .f32) (harg1 : arg1.IsWhole) (arg2 : Memref sig .tc .vmem S256x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S2x256x1024 .f32) (x1 : Vec F S256x1 .f32) (x2 : Vec F S1x1024 .f32) :
    Σ' (LS0 : List (View.Piece (Elt F) S1x1 .f32)), { LS1 : List (View.Piece (Elt F) S1x1 .f32) //
      ∀ (xi3 : Vec F S1x1 .f32) (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__epilogue_kernel i arg1 harg1 arg2 harg2 arg3 harg3 arg4 harg4 arg5 harg5 arg6 harg6 arg7 harg7) K } := by
  refine ⟨?_, ?_, fun xi3 xi4 E K => ?run⟩
  case run =>
    simp only [cc1__epilogue_kernel_eq_skeleton]; unfold cc1__epilogue_kernel_skel
    unfold owns
    iintro ⟨⟨%fi0, %hfi0, HI0⟩, ⟨%fi1, %hfi1, HI1⟩, ⟨%fi2, %hfi2, HI2⟩, ⟨%fo3, %hfo3, HO3⟩, ⟨%fo4, %hfo4, HO4⟩, ⟨%ds0, %fs0, -, HS0⟩, ⟨%ds1, %fs1, -, HS1⟩, Hk⟩
    obtain rfl := harg1.eq_unread hfi0; obtain rfl := harg2.eq_unread hfi1; obtain rfl := harg3.eq_unread hfi2; obtain rfl := harg4.eq_unread hfo3; obtain rfl := harg5.eq_unread hfo4
    sl_exec (disch := first | exact hc0 | exact hc1)
    sl_step
    iapply Hk
    isplitl [HI0]
    · iexists _; isplitr; · ipureintro; exact harg1.read_unread _
      iexact HI0
    isplitl [HI1]
    · iexists _; isplitr; · ipureintro; exact harg2.read_unread _
      iexact HI1
    isplitl [HI2]
    · iexists _; isplitr; · ipureintro; exact harg3.read_unread _
      iexact HI2
    isplitl [HO3]
    · iexists _; isplitr; · ipureintro; exact harg4.read_unread _
      iexact HO3
    isplitl [HO4]
    · iexists _; isplitr; · ipureintro; exact harg5.read_unread _
      iexact HO4
    isplitl [HS0]
    · iexists _; iexact HS0
    iexists _; iexact HS1

end Cert.KernelIdeal.Hand

end
-- ==== Proof.KI.R1RunB.lean ====
/-
  Region 1, case B (a middle step: the accumulators are added to): the body's run on
  whole staging buffers. The pieces its stores write are found by running it.
-/
import proofs.«167578_j20134806684259_2_alg».proof.Proof.KI.R1Base
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S2x256x1024 .f32) (harg1 : arg1.IsWhole) (arg2 : Memref sig .tc .vmem S256x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S2x256x1024 .f32) (x1 : Vec F S256x1 .f32) (x2 : Vec F S1x1024 .f32) (xs0 : Vec F S1x1 .f32) (xs1 : Vec F S1x1 .f32) :
    Σ' (LS0 : List (View.Piece (Elt F) S1x1 .f32)), { LS1 : List (View.Piece (Elt F) S1x1 .f32) //
      ∀ (xi3 : Vec F S1x1 .f32) (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (arg6.view.loc (c : Thread nD τ) ↦[arg6.view.set]{fullShare} arg6.view.writes (Elt F) (harg6.unread xs0) LS0) ∗ (arg7.view.loc (c : Thread nD τ) ↦[arg7.view.set]{fullShare} arg7.view.writes (Elt F) (harg7.unread xs1) LS1)) -∗ K ⟨⟩))
          ⊢ wp frame (wpE (defs₀ (F := F)) Variants.none c none) E (cc1__epilogue_kernel i arg1 harg1 arg2 harg2 arg3 harg3 arg4 harg4 arg5 harg5 arg6 harg6 arg7 harg7) K } := by
  refine ⟨?_, ?_, fun xi3 xi4 E K => ?run⟩
  case run =>
    simp only [cc1__epilogue_kernel_eq_skeleton]; unfold cc1__epilogue_kernel_skel
    unfold owns
    iintro ⟨⟨%fi0, %hfi0, HI0⟩, ⟨%fi1, %hfi1, HI1⟩, ⟨%fi2, %hfi2, HI2⟩, ⟨%fo3, %hfo3, HO3⟩, ⟨%fo4, %hfo4, HO4⟩, ⟨%fs0, %hfs0, HS0⟩, ⟨%fs1, %hfs1, HS1⟩, Hk⟩
    obtain rfl := harg1.eq_unread hfi0; obtain rfl := harg2.eq_unread hfi1; obtain rfl := harg3.eq_unread hfi2; obtain rfl := harg4.eq_unread hfo3; obtain rfl := harg5.eq_unread hfo4; obtain rfl := harg6.eq_unread hfs0; obtain rfl := harg7.eq_unread hfs1
    sl_exec (disch := first | exact hc0 | exact hc1)
    sl_step
    iapply Hk
    isplitl [HI0]
    · iexists _; isplitr; · ipureintro; exact harg1.read_unread _
      iexact HI0
    isplitl [HI1]
    · iexists _; isplitr; · ipureintro; exact harg2.read_unread _
      iexact HI1
    isplitl [HI2]
    · iexists _; isplitr; · ipureintro; exact harg3.read_unread _
      iexact HI2
    isplitl [HO3]
    · iexists _; isplitr; · ipureintro; exact harg4.read_unread _
      iexact HO3
    isplitl [HO4]
    · iexists _; isplitr; · ipureintro; exact harg5.read_unread _
      iexact HO4
    isplitl [HS0]
    · iexact HS0
    iexact HS1

end Cert.KernelIdeal.Hand

end
-- ==== Proof.KI.R1RunC.lean ====
/-
  Region 1, case C (the last step: the accumulators are added to, then copied into the output windows): the body's run on
  whole staging buffers. The pieces its stores write are found by running it.
-/
import proofs.«167578_j20134806684259_2_alg».proof.Proof.KI.R1Base
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S2x256x1024 .f32) (harg1 : arg1.IsWhole) (arg2 : Memref sig .tc .vmem S256x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S2x256x1024 .f32) (x1 : Vec F S256x1 .f32) (x2 : Vec F S1x1024 .f32) (xs0 : Vec F S1x1 .f32) (xs1 : Vec F S1x1 .f32) :
    Σ' (L3 : List (View.Piece (Elt F) S1x1 .f32)) (L4 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread xs0) LS0) ∗ (arg7.view.loc (c : Thread nD τ) ↦[arg7.view.set]{fullShare} arg7.view.writes (Elt F) (harg7.unread xs1) LS1)) -∗ K ⟨⟩))
          ⊢ wp frame (wpE (defs₀ (F := F)) Variants.none c none) E (cc1__epilogue_kernel i arg1 harg1 arg2 harg2 arg3 harg3 arg4 harg4 arg5 harg5 arg6 harg6 arg7 harg7) K } := by
  refine ⟨?_, ?_, ?_, ?_, fun E K => ?run⟩
  case run =>
    simp only [cc1__epilogue_kernel_eq_skeleton]; unfold cc1__epilogue_kernel_skel
    unfold owns
    iintro ⟨⟨%fi0, %hfi0, HI0⟩, ⟨%fi1, %hfi1, HI1⟩, ⟨%fi2, %hfi2, HI2⟩, ⟨%do3, %fo3, -, HO3⟩, ⟨%do4, %fo4, -, HO4⟩, ⟨%fs0, %hfs0, HS0⟩, ⟨%fs1, %hfs1, HS1⟩, Hk⟩
    obtain rfl := harg1.eq_unread hfi0; obtain rfl := harg2.eq_unread hfi1; obtain rfl := harg3.eq_unread hfi2; obtain rfl := harg6.eq_unread hfs0; obtain rfl := harg7.eq_unread hfs1
    sl_exec (disch := first | exact hc0 | exact hc1)
    sl_step
    iapply Hk
    isplitl [HI0]
    · iexists _; isplitr; · ipureintro; exact harg1.read_unread _
      iexact HI0
    isplitl [HI1]
    · iexists _; isplitr; · ipureintro; exact harg2.read_unread _
      iexact HI1
    isplitl [HI2]
    · iexists _; isplitr; · ipureintro; exact harg3.read_unread _
      iexact HI2
    isplitl [HO3]
    · iexists _; iexact HO3
    isplitl [HO4]
    · iexists _; iexact HO4
    isplitl [HS0]
    · iexact HS0
    iexact HS1

end Cert.KernelIdeal.Hand

end
-- ==== Proof.KI.R1Body.lean ====
/-
  Region 1: what the accumulators and the output windows hold after every grid point (by recursion on the point:
  the first step of a run starts from zero, a later step adds to what the step before left, the last step also fills
  the output windows), the region's proof data, and the body's obligation at every point.
-/
import proofs.«167578_j20134806684259_2_alg».proof.Proof.KI.R1RunA
import proofs.«167578_j20134806684259_2_alg».proof.Proof.KI.R1RunB
import proofs.«167578_j20134806684259_2_alg».proof.Proof.KI.R1RunC
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

abbrev runA1 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 x0 x1 x2
abbrev runB1 (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 : Vec F S1x1 .f32) (xs1 : Vec F S1x1 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 x0 x1 x2 xs0 xs1
abbrev runC1 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) hc0 hc1 x0 x1 x2 xs0 xs1

/-! ## What each case leaves -/

/-- The first step's stores into accumulator 0 begin with a store of the whole buffer, so they cover it. -/
theorem scoverA1_0 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) (y : S1x1.Idx) :
    ∃ pc ∈ (runA1 c t hc0 hc1 x0 x1 x2).1, y ∈ pc.1.set :=
  View.cover_of_tiledL (runA1 c t hc0 hc1 x0 x1 x2).1 S1x1.size (by sl_kernel_rfl) y
theorem scoverA1_1 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) (y : S1x1.Idx) :
    ∃ pc ∈ (runA1 c t hc0 hc1 x0 x1 x2).2.1, y ∈ pc.1.set :=
  View.cover_of_tiledL (runA1 c t hc0 hc1 x0 x1 x2).2.1 S1x1.size (by sl_kernel_rfl) y
/-- What the first step leaves in the accumulators. -/
def soutA1_0 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) : Vec F S1x1 .f32 :=
  VS1_0.read (Elt F) (VS1_0.writes (Elt F) VS1_0.junk (runA1 c t hc0 hc1 x0 x1 x2).1)
def soutA1_1 (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) : Vec F S1x1 .f32 :=
  VS1_1.read (Elt F) (VS1_1.writes (Elt F) VS1_1.junk (runA1 c t hc0 hc1 x0 x1 x2).2.1)
/-- What a middle step leaves in the accumulators: its stores over what the step before left. -/
def soutB1_0 (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VS1_0.read (Elt F) (VS1_0.writes (Elt F) ((Memref.isWhole_whole cc1_scratch0).unread xs0) (runB1 c t hc0 hc1 x0 x1 x2 xs0 xs1).1)
def soutB1_1 (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VS1_1.read (Elt F) (VS1_1.writes (Elt F) ((Memref.isWhole_whole cc1_scratch1).unread xs1) (runB1 c t hc0 hc1 x0 x1 x2 xs0 xs1).2.1)
/-- The last step's store into each output window is of the whole block. -/
theorem coverC1_3 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) (y : S1x1.Idx) :
    ∃ pc ∈ (runC1 c t hc0 hc1 x0 x1 x2 xs0 xs1).1, y ∈ pc.1.set :=
  View.cover_of_tiledL (runC1 c t hc0 hc1 x0 x1 x2 xs0 xs1).1 S1x1.size (by sl_kernel_rfl) y
theorem coverC1_4 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) (y : S1x1.Idx) :
    ∃ pc ∈ (runC1 c t hc0 hc1 x0 x1 x2 xs0 xs1).2.1, y ∈ pc.1.set :=
  View.cover_of_tiledL (runC1 c t hc0 hc1 x0 x1 x2 xs0 xs1).2.1 S1x1.size (by sl_kernel_rfl) y
/-- What the last step leaves in the output windows and in the accumulators. -/
def outC1_3 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VO1_3.read (Elt F) (VO1_3.writes (Elt F) VO1_3.junk (runC1 c t hc0 hc1 x0 x1 x2 xs0 xs1).1)
def outC1_4 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VO1_4.read (Elt F) (VO1_4.writes (Elt F) VO1_4.junk (runC1 c t hc0 hc1 x0 x1 x2 xs0 xs1).2.1)
def soutC1_0 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VS1_0.read (Elt F) (VS1_0.writes (Elt F) ((Memref.isWhole_whole cc1_scratch0).unread xs0) (runC1 c t hc0 hc1 x0 x1 x2 xs0 xs1).2.2.1)
def soutC1_1 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 : Vec F S1x1 .f32) (xs1 : Vec F S1x1 .f32) : Vec F S1x1 .f32 :=
  VS1_1.read (Elt F) (VS1_1.writes (Elt F) ((Memref.isWhole_whole cc1_scratch1).unread xs1) (runC1 c t hc0 hc1 x0 x1 x2 xs0 xs1).2.2.2.1)

/-! ## Point by point -/

/-- The output windows' staging buffers and the two accumulators after the body at point `n`
    (windows first, then accumulators). -/
def outsAt1 (c : Dev nD) : (n : ℕ) → n < cfg1.N → Vec F S1x1 .f32 × Vec F S1x1 .f32 × Vec F S1x1 .f32 × Vec F S1x1 .f32
  | 0, hn => ((VO1_3.read (Elt F) VO1_3.junk), (VO1_4.read (Elt F) VO1_4.junk), soutA1_0 c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), soutA1_1 c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        ((VO1_3.read (Elt F) VO1_3.junk), (VO1_4.read (Elt F) VO1_4.junk), soutA1_0 c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), soutA1_1 c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (outC1_3 c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, outC1_4 c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, soutC1_0 c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, soutC1_1 c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2)
      else
        ((VO1_3.read (Elt F) VO1_3.junk), (VO1_4.read (Elt F) VO1_4.junk), soutB1_0 c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, soutB1_1 c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = ((VO1_3.read (Elt F) VO1_3.junk), (VO1_4.read (Elt F) VO1_4.junk), soutA1_0 c t ((hcond1_0 t).mpr h0) (fun h => h1 ((hcond1_1 t).mp h)) (iblk1 V c 0 t) (iblk1 V c 1 t) (iblk1 V c 2 t), soutA1_1 c t ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = ((VO1_3.read (Elt F) VO1_3.junk), (VO1_4.read (Elt F) VO1_4.junk), soutB1_0 c t (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, soutB1_1 c t (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC1_3 c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, outC1_4 c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, soutC1_0 c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, soutC1_1 c t (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: nothing known of the accumulators before the first point, afterwards
    each accumulator at what the point before left. -/
def PhiS1 (c : Dev nD) : (n : ℕ) → n ≤ cfg1.N → sProp 𝕄
  | 0, _ => Pipeline.ΦA spec1 c
  | n + 1, hn => iprop(rest1 c iprop(owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 c iprop(owns (c : Thread nD τ) scM1_0 fullShare ((outsAt1 V c n hn).2.2.1) ∗ owns (c : Thread nD τ) scM1_1 fullShare ((outsAt1 V c n hn).2.2.2)) ∗ (∃ r, prngReg c r)) := rfl
theorem PhiS1_pos (c : Dev nD) (n : ℕ) (h : n ≤ cfg1.N) (hz : n ≠ 0) :
    PhiS1 V c n h = iprop(rest1 c iprop(owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold soutA1_0 soutA1_1; (try dsimp only)
      by_cases hz : t.val = 0
      · rw [PhiS1_castSucc V c t, PhiS1_zero V c _ _ hz, PhiA1_eq]; unfold rest1
        iintro ⟨⟨⟨R1, R2, R3, R4, R5, R6, R7, R8, HS0, HS1⟩, Hg⟩, Ho, ⟨%d0, H0⟩, ⟨%d1, H1⟩, ⟨%d2, H2⟩, ⟨%d3, H3⟩, ⟨%d4, H4⟩⟩
        iapply ((runA1 c t ((hcond1_0 t).mpr h0) (fun h => h1 ((hcond1_1 t).mp h)) (iblk1 V c 0 t) (iblk1 V c 1 t) (iblk1 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [R1 R2 R3 R4 R5 R6 R7 R8 HS0 HS1 Hg]
        · isplitl [R1 R2 R3 R4 R5 R6 R7 R8 HS0 HS1]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [HS0]
            · unfold owns; iexists _; isplitr
              swap; · iexact HS0
              ipureintro; exact View.read_writes_of_cover _ _ _ _ _ (scoverA1_0 c t _ _ _ _ _)
            unfold owns; iexists _; isplitr
            swap; · iexact HS1
            ipureintro; exact View.read_writes_of_cover _ _ _ _ _ (scoverA1_1 c t _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · rw [PhiS1_castSucc V c t, PhiS1_pos V c _ _ hz]; unfold rest1
        iintro ⟨⟨⟨R1, R2, R3, R4, R5, R6, R7, R8, HS0, HS1⟩, Hg⟩, Ho, ⟨%d0, H0⟩, ⟨%d1, H1⟩, ⟨%d2, H2⟩, ⟨%d3, H3⟩, ⟨%d4, H4⟩⟩
        iapply ((runA1 c t ((hcond1_0 t).mpr h0) (fun h => h1 ((hcond1_1 t).mp h)) (iblk1 V c 0 t) (iblk1 V c 1 t) (iblk1 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [R1 R2 R3 R4 R5 R6 R7 R8 HS0 HS1 Hg]
        · isplitl [R1 R2 R3 R4 R5 R6 R7 R8 HS0 HS1]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [HS0]
            · unfold owns; iexists _; isplitr
              swap; · iexact HS0
              ipureintro; exact View.read_writes_of_cover _ _ _ _ _ (scoverA1_0 c t _ _ _ _ _)
            unfold owns; iexists _; isplitr
            swap; · iexact HS1
            ipureintro; exact View.read_writes_of_cover _ _ _ _ _ (scoverA1_1 c t _ _ _ _ _)
          iexact Hg
        isplitl [Ho]; · iexact Ho
        isplitl [H0]; · iexact H0
        isplitl [H1]; · iexact H1
        isplitl [H2]; · iexact H2
        isplitl [H3]; · iexists _; iexact H3
        iexists _; iexact H4

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold outC1_3 outC1_4 soutC1_0 soutC1_1; (try dsimp only)
      by_cases hz : t.val = 0
      · exfalso; omega
      · rw [PhiS1_castSucc V c t, PhiS1_pos V c _ _ hz]; unfold rest1
        iintro ⟨⟨⟨R1, R2, R3, R4, R5, R6, R7, R8, HS0, HS1⟩, Hg⟩, Ho, ⟨%d0, H0⟩, ⟨%d1, H1⟩, ⟨%d2, H2⟩, ⟨%d3, H3⟩, ⟨%d4, H4⟩⟩
        iapply ((runC1 c t (fun h => h0 ((hcond1_0 t).mp h)) ((hcond1_1 t).mpr h1) (iblk1 V c 0 t) (iblk1 V c 1 t) (iblk1 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, HS0, HS1⟩
        isplitl [R1 R2 R3 R4 R5 R6 R7 R8 HS0 HS1 Hg]
        · isplitl [R1 R2 R3 R4 R5 R6 R7 R8 HS0 HS1]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (coverC1_3 c t _ _ _ _ _ _ _)
        unfold owns; iexists _; isplitr
        swap; · iexact H4
        ipureintro; exact View.read_writes_of_cover _ _ _ _ _ (coverC1_4 c t _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold soutB1_0 soutB1_1; (try dsimp only)
      by_cases hz : t.val = 0
      · exfalso; omega
      · rw [PhiS1_castSucc V c t, PhiS1_pos V c _ _ hz]; unfold rest1
        iintro ⟨⟨⟨R1, R2, R3, R4, R5, R6, R7, R8, HS0, HS1⟩, Hg⟩, Ho, ⟨%d0, H0⟩, ⟨%d1, H1⟩, ⟨%d2, H2⟩, ⟨%d3, H3⟩, ⟨%d4, H4⟩⟩
        iapply ((runB1 c t (fun h => h0 ((hcond1_0 t).mp h)) (fun h => h1 ((hcond1_1 t).mp h)) (iblk1 V c 0 t) (iblk1 V c 1 t) (iblk1 V c 2 t) _ _).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [R1 R2 R3 R4 R5 R6 R7 R8 HS0 HS1 Hg]
        · isplitl [R1 R2 R3 R4 R5 R6 R7 R8 HS0 HS1]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexists _; iexact H3
        iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back the one that knows nothing of the accumulators. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold rest1
  iintro ⟨⟨R1, R2, R3, R4, R5, R6, R7, R8, HS0, HS1⟩, Hg⟩
  isplitl [R1 R2 R3 R4 R5 R6 R7 R8 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [HS0]
    · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 4 := N_1; omega)

end Cert.KernelIdeal.Hand

end
-- ==== Proof.KI.Frame.lean ====
/-
  The whole run of @main: a reshape, region 0, six host lines, region 1, ten host lines. The buffers' contents at
  every boundary are a fold from the launch memory; each region's arrays end at what its write-backs leave, every
  other buffer as the region found it. Every weakly fair execution ends with every unscoped buffer at the last
  boundary's contents; in particular the argument array is as launched.
-/
import proofs.«167578_j20134806684259_2_alg».proof.Proof.KI.R0Body
import proofs.«167578_j20134806684259_2_alg».proof.Proof.KI.R1Body
import proofs.«167578_j20134806684259_2_alg».proof.Proof.Gen.KernelIdeal.Regions
import proofs.«167578_j20134806684259_2_alg».proof.Proof.Gen.KernelIdeal.Launch
import proofs.«167578_j20134806684259_2_alg».proof.Proof.Gen.KernelIdeal.Skeleton
import proofs.«167578_j20134806684259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-- No host line writes the argument and no region may change it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (U1 m ρ) c
    unfold Pipeline.ΦA at h
    rw [show (pdats m ρ 0 c).Φ 0 = (dat0 (U1 m ρ) c).Φ 0 from rfl]
    iintro ⟨Hp, -, Hr⟩
    iapply h
    isplitl [Hr]; · iexact Hr
    iexact Hp
  hout c := by
    rw [Pipeline.ownSems0_none, show (pdats m ρ 0 c).Φ (Fin.last _) = (dat0 (U1 m ρ) c).Φ (Fin.last cfg0.N) from rfl]
    have h := hout0 (U1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U3 m ρ) c
    unfold Pipeline.ΦA at h
    rw [show (pdats m ρ 1 c).Φ 0 = (dat1 (U3 m ρ) c).Φ 0 from rfl]
    iintro ⟨Hp, -, Hr⟩
    iapply h
    isplitl [Hr]; · iexact Hr
    iexact Hp
  hout c := by
    rw [Pipeline.ownSems0_none, show (pdats m ρ 1 c).Φ (Fin.last _) = (dat1 (U3 m ρ) c).Φ (Fin.last cfg1.N) from rfl]
    have h := hout1 (U3 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m ρ c)) (run_all m ρ)

end Cert.KernelIdeal.Hand

end
-- ==== Proof.KI.Consts.lean ====
/-
  The float constants of the idealized kernel's host lines as the extended reals they denote, and the host's division
  by a non-zero real as the extended reals' division.
-/
import Idealize.ShloMosaic.PureOps.Ideal

noncomputable section

namespace Cert.KernelIdeal.Hand.Consts

open Idealize.ShloMosaic

theorem ofBits_two : Ideal.ofBits .f32 0x40000000#32 = (2 : EReal) := by
  simp [Ideal.ofBits, Ideal.ieee, -EReal.coe_mul]; norm_num; norm_cast
theorem ofBits_four : Ideal.ofBits .f32 0x40800000#32 = (4 : EReal) := by
  simp [Ideal.ofBits, Ideal.ieee, -EReal.coe_mul]; norm_num; norm_cast
theorem ofBits_7168 : Ideal.ofBits .f32 0x45E00000#32 = ((7168 : ℝ) : EReal) := by
  simp [Ideal.ofBits, Ideal.ieee, -EReal.coe_mul]; norm_num
theorem ofBits_130048 : Ideal.ofBits .f32 0x47FE0000#32 = ((130048 : ℝ) : EReal) := by
  simp [Ideal.ofBits, Ideal.ieee, -EReal.coe_mul]; norm_num
theorem div_real {y : ℝ} (h : y ≠ 0) (x : EReal) : Ideal.div x (y : EReal) = x / (y : EReal) := by
  rw [Ideal.div, if_neg (by exact_mod_cast h), div_eq_mul_inv]

end Cert.KernelIdeal.Hand.Consts

end
-- ==== Proof.Spec.lean ====
/-
  The two results as functions of the flattened features f : 1024 rows × 49152 columns over the extended reals,
  in the two arrangements the programs compute them in.

  The kernel's arrangement: the 49152 columns are cut into 2 shards of 24 blocks of 1024; each shard accumulates a
  row sum of squares and, on the 256-tiles on or above the diagonal only, a Gram product (zero below); the shards are
  added; squared distances are clamped at 0; and only pairs (row, col) with col > row are summed, tile of 256 rows by
  tile, same-group pairs (row / 8 = col / 8) into the first result and the hinge max(1 - d, 0) of different-group
  pairs into the second; the results are 2·S/7168 and 4·T/130048.

  The reference's arrangement: whole row sums and whole Gram products, all ordered pairs off the diagonal for the
  first result (halved), all ordered pairs of different groups for the second; 2·(S'/2)/7168 and 2·T'/130048.

  Both agree when every entry of f is a real number: the squared distance is symmetric in its two rows, so the sum
  over ordered pairs is twice the sum over pairs with col > row.
-/
import Idealize.ShloMosaic.PureOps.Ideal
import Idealize.ShloMosaic.Lib.ValueIdx

noncomputable section

namespace Cert.Spec

open Finset

/-- Column `l` of block `kk` of shard `s`. -/
def kidx (s : Fin 2) (kk : Fin 24) (l : Fin 1024) : Fin 49152 :=
  ⟨(s.val * 24 + kk.val) * 1024 + l.val, by have := s.isLt; have := kk.isLt; have := l.isLt; omega⟩

/-- Row `r` of row tile `ti`. -/
def rowOf (ti : Fin 4) (r : Fin 256) : Fin 1024 := ⟨ti.val * 256 + r.val, by have := ti.isLt; have := r.isLt; omega⟩

/-- The argument array (1024 samples × 64 parts × 768 features) by coordinates, and flattened per sample: column k is
    part k / 768, feature k % 768. -/
def feat (X : (⟨3, ![1024, 64, 768]⟩ : Idealize.ShloMosaic.Shape).Idx → EReal) : Fin 1024 → Fin 49152 → EReal :=
  fun i k => X (Idealize.ShloMosaic.ValueIdx.ix3 i (⟨k.val / 768, by have := k.isLt; omega⟩ : Fin 64) (⟨k.val % 768, Nat.mod_lt _ (by norm_num)⟩ : Fin 768))

variable (f : Fin 1024 → Fin 49152 → EReal)

/-! ## The kernel's arrangement -/

def sqP (s : Fin 2) (i : Fin 1024) : EReal := ∑ kk : Fin 24, ∑ l : Fin 1024, f i (kidx s kk l) * f i (kidx s kk l)
def gramP (s : Fin 2) (i j : Fin 1024) : EReal :=
  if i.val / 256 ≤ j.val / 256 then ∑ kk : Fin 24, ∑ l : Fin 1024, f i (kidx s kk l) * f j (kidx s kk l) else 0
def sqK (i : Fin 1024) : EReal := sqP f 0 i + sqP f 1 i
def gramK (i j : Fin 1024) : EReal := gramP f 0 i j + gramP f 1 i j
def distK (i j : Fin 1024) : EReal := max ((sqK f i + sqK f j) - 2 * gramK f i j) 0
def homoK : EReal := ∑ ti : Fin 4, ∑ r : Fin 256, ∑ cc : Fin 1024,
  if (rowOf ti r).val < cc.val ∧ (rowOf ti r).val / 8 = cc.val / 8 then distK f (rowOf ti r) cc else 0
def heterK : EReal := ∑ ti : Fin 4, ∑ r : Fin 256, ∑ cc : Fin 1024,
  if (rowOf ti r).val < cc.val ∧ (rowOf ti r).val / 8 ≠ cc.val / 8 then max (1 - distK f (rowOf ti r) cc) 0 else 0
def out0K : EReal := (2 * homoK f) / ((7168 : ℝ) : EReal)
def out1K : EReal := (4 * heterK f) / ((130048 : ℝ) : EReal)

/-! ## The reference's arrangement -/

def sqR (i : Fin 1024) : EReal := ∑ k : Fin 49152, f i k * f i k
def gramR (i j : Fin 1024) : EReal := ∑ k : Fin 49152, f i k * f j k
def distR (i j : Fin 1024) : EReal := max ((sqR f i + sqR f j) - 2 * gramR f i j) 0
def homoR : EReal := ∑ i : Fin 1024, ∑ j : Fin 1024,
  if i.val / 8 = j.val / 8 ∧ i ≠ j then distR f i j else 0
def heterR : EReal := ∑ i : Fin 1024, ∑ j : Fin 1024,
  if i.val / 8 ≠ j.val / 8 then max (1 - distR f i j) 0 else 0
def out0R : EReal := (2 * (((1 / 2 : ℝ) : EReal) * homoR f)) / ((7168 : ℝ) : EReal)
def out1R : EReal := (2 * heterR f) / ((130048 : ℝ) : EReal)

end Cert.Spec

end
-- ==== Proof.KI.GlueHost.lean ====
/-
  The host lines of the idealized kernel read at an index: the flattening of the argument, the two shards' row norms
  added and laid out as a column and as a row, and the two scalar tails 2·h/7168 and 4·e/130048.
-/
import proofs.«167578_j20134806684259_2_alg».proof.Proof.Gen.KernelIdeal.Launch
import proofs.«167578_j20134806684259_2_alg».proof.Proof.KI.Consts
import proofs.«167578_j20134806684259_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.ValueIdx

/-! ## The layout operations on arrays of the literal shapes -/

/-- The flattened argument at (i, k) is the argument at (i, k / 768, k % 768). -/
theorem flat_apply (X : S1024x64x768.Idx → EReal) (i : Fin 1024) (k : Fin 49152) :
    shapeCast S1024x49152 X shapeCasts_S1024x64x768_S1024x49152 (ix2 i k) = Cert.Spec.feat X i k := by
  unfold Cert.Spec.feat
  refine shapeCast_apply _ _ _ _ ?_
  rw [Shape.rowMajor_val_three, Shape.rowMajor_val_two]
  show ((i.val * 64 + k.val / 768) * 768 + k.val % 768) = i.val * 49152 + k.val
  omega

/-- Shard `s` of the [2,1024,1] array as a column. -/
theorem shard_col_apply (X : S2x1024x1.Idx → EReal) (i : Fin 1024) :
    shapeCast S1024x1 (extractStridedSlice S1x1024x1 ![0, 0, 0] X slices_S2x1024x1_S1x1024x1_0_0_0) shapeCasts_S1x1024x1_S1024x1 (ix2 i (0 : Fin 1))
      = X (ix3 (0 : Fin 2) i (0 : Fin 1))
    ∧ shapeCast S1024x1 (extractStridedSlice S1x1024x1 ![1, 0, 0] X slices_S2x1024x1_S1x1024x1_1_0_0) shapeCasts_S1x1024x1_S1024x1 (ix2 i (0 : Fin 1))
      = X (ix3 (1 : Fin 2) i (0 : Fin 1)) := by
  constructor
  · refine (shapeCast_apply _ _ (ix2 i (0 : Fin 1)) (ix3 (0 : Fin 1) i (0 : Fin 1)) ?_).trans ?_
    · rw [Shape.rowMajor_val_three, Shape.rowMajor_val_two]; show (0 * 1024 + i.val) * 1 + 0 = i.val * 1 + 0; omega
    · exact extractStridedSlice_apply _ _ _ _ (ix3 (0 : Fin 2) i (0 : Fin 1)) (fun a => by
        match a with | ⟨0, _⟩ => rfl | ⟨1, _⟩ => (show i.val = 0 + i.val; omega) | ⟨2, _⟩ => rfl)
  · refine (shapeCast_apply _ _ (ix2 i (0 : Fin 1)) (ix3 (0 : Fin 1) i (0 : Fin 1)) ?_).trans ?_
    · rw [Shape.rowMajor_val_three, Shape.rowMajor_val_two]; show (0 * 1024 + i.val) * 1 + 0 = i.val * 1 + 0; omega
    · exact extractStridedSlice_apply _ _ _ _ (ix3 (1 : Fin 2) i (0 : Fin 1)) (fun a => by
        match a with | ⟨0, _⟩ => rfl | ⟨1, _⟩ => (show i.val = 0 + i.val; omega) | ⟨2, _⟩ => rfl)

/-- A column laid flat as a row. -/
theorem col_row_apply (X : S1024x1.Idx → EReal) (j : Fin 1024) :
    shapeCast S1x1024 X shapeCasts_S1024x1_S1x1024 (ix2 (0 : Fin 1) j) = X (ix2 j (0 : Fin 1)) := by
  refine shapeCast_apply _ _ _ _ ?_
  rw [Shape.rowMajor_val_two, Shape.rowMajor_val_two]
  show j.val * 1 + 0 = 0 * 1024 + j.val
  omega

/-- A [1,1] array as a scalar. -/
theorem scalar_apply (X : S1x1.Idx → EReal) (j : S_.Idx) :
    shapeCast S_ X shapeCasts_S1x1_S_ j = X (ix2 (0 : Fin 1) (0 : Fin 1)) := by
  refine shapeCast_apply _ _ _ _ ?_
  rw [Shape.rowMajor_val_two]
  have := (S_.rowMajor j).isLt
  show 0 * 1 + 0 = (S_.rowMajor j).val
  have h1 : S_.numel = 1 := by decide
  omega

/-! ## The host stretches -/

variable (W : Valuation τ sig (Elt Ideal))

/-- The buffers the host lines read, at their array types. -/
abbrev arg0At : S1024x64x768.Idx → EReal := W (Proc.devRef .tc main_arg0)
abbrev v0At : S1024x49152.Idx → EReal := W (Proc.devRef .tc main_v0)
abbrev v1_0At : S2x1024x1024.Idx → EReal := W (Proc.devRef .tc main_v1_0)
abbrev v1_1At : S2x1024x1.Idx → EReal := W (Proc.devRef .tc main_v1_1)
abbrev v6At : S1024x1.Idx → EReal := W (Proc.devRef .tc main_v6)
abbrev v7At : S1x1024.Idx → EReal := W (Proc.devRef .tc main_v7)
abbrev v8_0At : S1x1.Idx → EReal := W (Proc.devRef .tc main_v8_0)
abbrev v8_1At : S1x1.Idx → EReal := W (Proc.devRef .tc main_v8_1)
abbrev v11At : S_.Idx → EReal := W (Proc.devRef .tc main_v11)
abbrev v14At : S_.Idx → EReal := W (Proc.devRef .tc main_v14)

theorem flat_at (i : Fin 1024) (k : Fin 49152) :
    v0At (StableHlo.after (hostOps0 (F := Ideal)) W) (ix2 i k) = Cert.Spec.feat (arg0At W) i k := by
  have e : StableHlo.after (hostOps0 (F := Ideal)) W (Proc.devRef .tc main_v0)
      = fun j => shapeCast S1024x49152 (W (Proc.devRef .tc main_arg0)) shapeCasts_S1024x64x768_S1024x49152 j := by
    after_results; rfl
  unfold v0At; rw [e]
  exact flat_apply _ i k

/-- The six lines between the regions do not touch the Gram shards. -/
theorem mid_v1_0 : StableHlo.after (hostOps1 (F := Ideal)) W (Proc.devRef .tc main_v1_0) = W (Proc.devRef .tc main_v1_0) := by
  after_results

/-- The column of row norms: the two shards' columns added. -/
theorem mid_v6_at (i : Fin 1024) :
    v6At (StableHlo.after (hostOps1 (F := Ideal)) W) (ix2 i (0 : Fin 1))
      = v1_1At W (ix3 (0 : Fin 2) i (0 : Fin 1)) + v1_1At W (ix3 (1 : Fin 2) i (0 : Fin 1)) := by
  have e : StableHlo.after (hostOps1 (F := Ideal)) W (Proc.devRef .tc main_v6)
      = addf (F := Ideal) (φ := .f32) (fun j => shapeCast S1024x1 (extractStridedSlice S1x1024x1 ![0, 0, 0] (v1_1At W) slices_S2x1024x1_S1x1024x1_0_0_0) shapeCasts_S1x1024x1_S1024x1 j)
          (fun j => shapeCast S1024x1 (extractStridedSlice S1x1024x1 ![1, 0, 0] (v1_1At W) slices_S2x1024x1_S1x1024x1_1_0_0) shapeCasts_S1x1024x1_S1024x1 j) := by
    after_results; rfl
  unfold v6At; rw [e]
  have h := shard_col_apply (v1_1At W) i
  exact congrArg₂ (· + ·) h.1 h.2

/-- The row of row norms is the column laid flat. -/
theorem mid_v7_at (j : Fin 1024) :
    v7At (StableHlo.after (hostOps1 (F := Ideal)) W) (ix2 (0 : Fin 1) j)
      = v6At (StableHlo.after (hostOps1 (F := Ideal)) W) (ix2 j (0 : Fin 1)) := by
  have e : StableHlo.after (hostOps1 (F := Ideal)) W (Proc.devRef .tc main_v7)
      = fun k => shapeCast S1x1024 (StableHlo.after (hostOps1 (F := Ideal)) W (Proc.devRef .tc main_v6)) shapeCasts_S1024x1_S1x1024 k := by
    after_results; rfl
  unfold v7At; rw [e]
  exact col_row_apply _ j

/-- The first result: 2·h/7168 of the first region-1 scalar. -/
theorem tail_v11 :
    v11At (StableHlo.after (hostOps2 (F := Ideal)) W)
      = fun _ => (2 * v8_0At W (ix2 (0 : Fin 1) (0 : Fin 1))) / ((7168 : ℝ) : EReal) := by
  have e : StableHlo.after (hostOps2 (F := Ideal)) W (Proc.devRef .tc main_v11)
      = Host.divf (F := Ideal) (mulf (F := Ideal) (constant (F := Ideal) S_ .f32 0x40000000#32) (fun j => shapeCast S_ (W (Proc.devRef .tc main_v8_0)) shapeCasts_S1x1_S_ j))
          (constant (F := Ideal) S_ .f32 0x45E00000#32) := by
    after_results; rfl
  unfold v11At; rw [e]
  funext j
  show Ideal.div (Ideal.ofBits .f32 0x40000000#32 * shapeCast S_ (v8_0At W) shapeCasts_S1x1_S_ j) (Ideal.ofBits .f32 0x45E00000#32) = _
  rw [Consts.ofBits_two, Consts.ofBits_7168, Consts.div_real (by norm_num), scalar_apply]

/-- The second result: 4·e/130048 of the second region-1 scalar. -/
theorem tail_v14 :
    v14At (StableHlo.after (hostOps2 (F := Ideal)) W)
      = fun _ => (4 * v8_1At W (ix2 (0 : Fin 1) (0 : Fin 1))) / ((130048 : ℝ) : EReal) := by
  have e : StableHlo.after (hostOps2 (F := Ideal)) W (Proc.devRef .tc main_v14)
      = Host.divf (F := Ideal) (mulf (F := Ideal) (constant (F := Ideal) S_ .f32 0x40800000#32) (fun j => shapeCast S_ (W (Proc.devRef .tc main_v8_1)) shapeCasts_S1x1_S_ j))
          (constant (F := Ideal) S_ .f32 0x47FE0000#32) := by
    after_results; rfl
  unfold v14At; rw [e]
  funext j
  show Ideal.div (Ideal.ofBits .f32 0x40800000#32 * shapeCast S_ (v8_1At W) shapeCasts_S1x1_S_ j) (Ideal.ofBits .f32 0x47FE0000#32) = _
  rw [Consts.ofBits_four, Consts.ofBits_130048, Consts.div_real (by norm_num), scalar_apply]

end Cert.KernelIdeal.Hand

end
-- ==== Proof.SpecG.lean ====
/-
  The epilogue's two sums as functions of what it is handed: a column of row norms, a row of row norms and the two
  shards' Gram matrices (added entrywise). With the kernel's own row norms and Gram shards these are the kernel's
  arrangement of the two sums.
-/
import proofs.«167578_j20134806684259_2_alg».proof.Proof.Spec

noncomputable section

namespace Cert.Spec

open Finset

variable (sqc sqr : Fin 1024 → EReal) (g0 g1 : Fin 1024 → Fin 1024 → EReal)

def distG (i j : Fin 1024) : EReal := max ((sqc i + sqr j) - 2 * (g0 i j + g1 i j)) 0
def homoG : EReal := ∑ ti : Fin 4, ∑ r : Fin 256, ∑ cc : Fin 1024,
  if (rowOf ti r).val < cc.val ∧ (rowOf ti r).val / 8 = cc.val / 8 then distG sqc sqr g0 g1 (rowOf ti r) cc else 0
def heterG : EReal := ∑ ti : Fin 4, ∑ r : Fin 256, ∑ cc : Fin 1024,
  if (rowOf ti r).val < cc.val ∧ (rowOf ti r).val / 8 ≠ cc.val / 8 then max (1 - distG sqc sqr g0 g1 (rowOf ti r) cc) 0 else 0

theorem homoK_eq_homoG (f : Fin 1024 → Fin 49152 → EReal) :
    homoK f = homoG (sqK f) (sqK f) (gramP f 0) (gramP f 1) := rfl
theorem heterK_eq_heterG (f : Fin 1024 → Fin 49152 → EReal) :
    heterK f = heterG (sqK f) (sqK f) (gramP f 0) (gramP f 1) := rfl

end Cert.Spec

end
-- ==== Proof.KI.Glue.lean ====
/-
  The two results of the idealized kernel as the specification's kernel-side arrangement of the argument: the host
  lines carry the two regions' arrays — the Gram shards and row norms region 0 leaves, the two scalars region 1
  leaves — from the flattened argument to the results.
-/
import proofs.«167578_j20134806684259_2_alg».proof.Proof.KI.Frame
import proofs.«167578_j20134806684259_2_alg».proof.Proof.KI.GlueHost
import proofs.«167578_j20134806684259_2_alg».proof.Proof.SpecG

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The flattened argument on core `c`. -/
abbrev featOf : Fin 1024 → Fin 49152 → EReal := Cert.Spec.feat (m ((c : Thread nD τ).loc main_arg0))

/-- Region 0 finds the flattened argument in its input array. -/
theorem U1_feat : (fun a k => (U1 m ρ c main_v0 : S1024x49152.Idx → EReal) (ix2 a k)) = featOf m c := by
  funext a k; exact flat_at (W0 m ρ c) a k

/-- The arrays region 0 leaves, as region 1's entry contents hold them. -/
abbrev arrGram : S2x1024x1024.Idx → EReal := (dat0 (F := Ideal) (U1 m ρ) c).arrAt 1 cfg0.N
abbrev arrSq : S2x1024x1.Idx → EReal := (dat0 (F := Ideal) (U1 m ρ) c).arrAt 2 cfg0.N
abbrev arrHomo : S1x1.Idx → EReal := (dat1 (F := Ideal) (U3 m ρ) c).arrAt 3 cfg1.N
abbrev arrHeter : S1x1.Idx → EReal := (dat1 (F := Ideal) (U3 m ρ) c).arrAt 4 cfg1.N

theorem U3_v1_0 : (U3 m ρ c main_v1_0 : S2x1024x1024.Idx → EReal) = arrGram m ρ c :=
  (mid_v1_0 (W2 m ρ c)).trans (W2_arr m ρ c 1)

theorem W2_v1_1 : (v1_1At (W2 m ρ c)) = arrSq m ρ c := W2_arr m ρ c 2

theorem U3_v6 (i : Fin 1024) :
    (U3 m ρ c main_v6 : S1024x1.Idx → EReal) (ix2 i (0 : Fin 1))
      = arrSq m ρ c (ix3 (0 : Fin 2) i (0 : Fin 1)) + arrSq m ρ c (ix3 (1 : Fin 2) i (0 : Fin 1)) := by
  have h := mid_v6_at (W2 m ρ c) i
  rw [W2_v1_1] at h
  exact h

theorem U3_v7 (j : Fin 1024) :
    (U3 m ρ c main_v7 : S1x1024.Idx → EReal) (ix2 (0 : Fin 1) j) = (U3 m ρ c main_v6 : S1024x1.Idx → EReal) (ix2 j (0 : Fin 1)) :=
  mid_v7_at (W2 m ρ c) j

section
variable
  (hG : ∀ (s : Fin 2) (i j : Fin 1024), arrGram m ρ c (ix3 s i j)
      = Cert.Spec.gramP (fun a k => (U1 m ρ c main_v0 : S1024x49152.Idx → EReal) (ix2 a k)) s i j)
  (hS : ∀ (s : Fin 2) (i : Fin 1024), arrSq m ρ c (ix3 s i (0 : Fin 1))
      = Cert.Spec.sqP (fun a k => (U1 m ρ c main_v0 : S1024x49152.Idx → EReal) (ix2 a k)) s i)

include hS in
theorem sqc_eq : (fun i => (U3 m ρ c main_v6 : S1024x1.Idx → EReal) (ix2 i (0 : Fin 1))) = Cert.Spec.sqK (featOf m c) := by
  funext i
  rw [U3_v6, hS, hS, U1_feat]
  rfl

include hS in
theorem sqr_eq : (fun j => (U3 m ρ c main_v7 : S1x1024.Idx → EReal) (ix2 (0 : Fin 1) j)) = Cert.Spec.sqK (featOf m c) := by
  funext j
  rw [U3_v7]
  exact congrFun (sqc_eq m ρ c hS) j

include hG in
theorem g_eq (s : Fin 2) : (fun i j => (U3 m ρ c main_v1_0 : S2x1024x1024.Idx → EReal) (ix3 s i j)) = Cert.Spec.gramP (featOf m c) s := by
  funext i j
  rw [U3_v1_0, hG, U1_feat]

include hG hS in
/-- The first result. -/
theorem out0_of
    (hH : arrHomo m ρ c (ix2 (0 : Fin 1) (0 : Fin 1))
      = Cert.Spec.homoG (fun i => (U3 m ρ c main_v6 : S1024x1.Idx → EReal) (ix2 i (0 : Fin 1)))
          (fun j => (U3 m ρ c main_v7 : S1x1024.Idx → EReal) (ix2 (0 : Fin 1) j))
          (fun i j => (U3 m ρ c main_v1_0 : S2x1024x1024.Idx → EReal) (ix3 (0 : Fin 2) i j))
          (fun i j => (U3 m ρ c main_v1_0 : S2x1024x1024.Idx → EReal) (ix3 (1 : Fin 2) i j))) :
    v11At (W5 m ρ c) = fun _ => Cert.Spec.out0K (featOf m c) := by
  have h := tail_v11 (W4 m ρ c)
  have h4 : v8_0At (W4 m ρ c) = arrHomo m ρ c := W4_arr m ρ c 3
  rw [h4, hH, sqc_eq m ρ c hS, sqr_eq m ρ c hS, g_eq m ρ c hG 0, g_eq m ρ c hG 1, ← Cert.Spec.homoK_eq_homoG] at h
  exact h

include hG hS in
/-- The second result. -/
theorem out1_of
    (hE : arrHeter m ρ c (ix2 (0 : Fin 1) (0 : Fin 1))
      = Cert.Spec.heterG (fun i => (U3 m ρ c main_v6 : S1024x1.Idx → EReal) (ix2 i (0 : Fin 1)))
          (fun j => (U3 m ρ c main_v7 : S1x1024.Idx → EReal) (ix2 (0 : Fin 1) j))
          (fun i j => (U3 m ρ c main_v1_0 : S2x1024x1024.Idx → EReal) (ix3 (0 : Fin 2) i j))
          (fun i j => (U3 m ρ c main_v1_0 : S2x1024x1024.Idx → EReal) (ix3 (1 : Fin 2) i j))) :
    v14At (W5 m ρ c) = fun _ => Cert.Spec.out1K (featOf m c) := by
  have h := tail_v14 (W4 m ρ c)
  have h4 : v8_1At (W4 m ρ c) = arrHeter m ρ c := W4_arr m ρ c 4
  rw [h4, hE, sqc_eq m ρ c hS, sqr_eq m ρ c hS, g_eq m ρ c hG 0, g_eq m ρ c hG 1, ← Cert.Spec.heterK_eq_heterG] at h
  exact h

end

end Cert.KernelIdeal.Hand

end
-- ==== Proof.KI.R0ValPay.lean ====
/-
  The Gram kernel's payloads read at an index, over the extended reals: the column of row sums of squares
  (a lane sum of the squared block added to the previous column) and a 256-tile of the Gram product (the product of
  two row slabs of the block, contracted over the 1024 lanes, added to the previous tile).
-/
import proofs.«167578_j20134806684259_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

/-- The source index over row r with lane l. -/
theorem lift_row (r : Fin 1024) (l : Fin 1024) :
    reduces_S1024x1024_S1024.lift (ix1 r) l = (ix2 r l : S1024x1024.Idx) := by
  funext c
  match c with
  | ⟨0, _⟩ => rfl
  | ⟨1, _⟩ => rfl

/-- The lane sum at row r. -/
theorem laneSum_apply (src : FVec Ideal S1024x1024 .f32) (hφ : FKind.Formats .f32)
    (hacc : (0x00000000#32 : BitVec 32) = 0x00000000#32) (r : Fin 1024) :
    multiReduction .add [1] S1024 src 0x00000000#32 reduces_S1024x1024_S1024 hφ hacc (ix1 r)
      = ∑ l : Fin 1024, src (ix2 r l) := by
  refine (Ideal.multiReduction_add_single src 0x00000000#32 reduces_S1024x1024_S1024 hφ hacc (ix1 r)).trans ?_
  refine Finset.sum_congr rfl (fun l _ => ?_)
  exact congrArg src (lift_row r l)

/-- The column of row sums of squares: the previous column plus the lane sum of the squared block. -/
theorem pay10_apply (X : Vec Ideal S1024x1024 .f32) (v5 : Vec Ideal S1024x1 .f32) (r : Fin 1024) (z : Fin 1) :
    k0_pay10 (F := Ideal) X v5 (ix2 r z) = v5 (ix2 r z) + ∑ l : Fin 1024, X (ix2 r l) * X (ix2 r l) := by
  unfold k0_pay10 k0_pay9
  simp only [shapeCast_self]
  refine congrArg (v5 (ix2 r z) + ·) ?_
  refine (shapeCast_apply _ shapeCasts_S1024_S1024x1 (ix2 r z) (ix1 r) ?_).trans ?_
  · rw [Shape.rowMajor_val_one, Shape.rowMajor_val_two]
    have := z.isLt
    show r.val = r.val * 1 + z.val
    omega
  · exact laneSum_apply _ _ _ r

/-- The contraction of two row slabs at rows p and q of the slabs: the sum over the 1024 lanes. -/
theorem slabDot_apply (A B : FVec Ideal S256x1024 .bf16) (p q : Fin 256) :
    matmul dot_S256x1024_S256x1024_S256x256_1_1_0_0_n_n none A B (constant (F := Ideal) S256x256 .f32 0x00000000#32) (ix2 p q)
      = ∑ l : Fin 1024, A (ix2 p l) * B (ix2 q l) := by
  show FloatOps.matmul _ none A B (constant (F := Ideal) S256x256 .f32 0x00000000#32) (ix2 p q) = _
  rw [Ideal.matmul_constant_zero_apply,
    ← Equiv.sum_comp (contrEquiv1 dot_S256x1024_S256x1024_S256x256_1_1_0_0_n_n 1024 rfl rfl).symm]
  refine Finset.sum_congr rfl fun l _ => ?_
  have c2 := contrEquiv1_symm_val dot_S256x1024_S256x1024_S256x256_1_1_0_0_n_n 1024 rfl rfl l
  have l2 : dot_S256x1024_S256x1024_S256x256_1_1_0_0_n_n.lhsIdx (ix2 p q)
      ((contrEquiv1 _ 1024 rfl rfl).symm l) = ix2 p l := by
    funext ax; apply Fin.ext
    match ax with
    | ⟨0, _⟩ => simp [DotDims.lhsIdx, dot_S256x1024_S256x1024_S256x256_1_1_0_0_n_n]; rfl
    | ⟨1, _⟩ => simp [DotDims.lhsIdx, dot_S256x1024_S256x1024_S256x256_1_1_0_0_n_n]; exact c2
  have r2 : dot_S256x1024_S256x1024_S256x256_1_1_0_0_n_n.rhsIdx (ix2 p q)
      ((contrEquiv1 _ 1024 rfl rfl).symm l) = ix2 q l := by
    funext ax; apply Fin.ext
    match ax with
    | ⟨0, _⟩ => simp [DotDims.rhsIdx, dot_S256x1024_S256x1024_S256x256_1_1_0_0_n_n]; rfl
    | ⟨1, _⟩ => simp [DotDims.rhsIdx, dot_S256x1024_S256x1024_S256x256_1_1_0_0_n_n]; exact c2
  rw [l2, r2]

/-- A row slab of the block at offset o, read at (p, l): the block at (o + p, l). -/
theorem slab_apply (X : FVec Ideal S1024x1024 .bf16) (o : Nat) (h : S1024x1024.Slices ![o, 0] S256x1024)
    (p : Fin 256) (l : Fin 1024) (ho : o + 256 ≤ 1024) :
    extractStridedSlice S256x1024 ![o, 0] X h (ix2 p l) = X (ix2 ⟨o + p.val, by have := p.isLt; omega⟩ l) := by
  refine extractStridedSlice_apply ![o, 0] X h (ix2 p l) _ fun a => ?_
  match a with
  | ⟨0, _⟩ => rfl
  | ⟨1, _⟩ => show l.val = 0 + l.val; omega

/-- A 256-tile of the Gram product: the previous tile plus the contraction of the two row slabs. -/
theorem tile_apply (X : FVec Ideal S1024x1024 .bf16) (v : Vec Ideal S256x256 .f32) (oa ob : Nat)
    (ha : S1024x1024.Slices ![oa, 0] S256x1024) (hb : S1024x1024.Slices ![ob, 0] S256x1024)
    (hoa : oa + 256 ≤ 1024) (hob : ob + 256 ≤ 1024) (p q : Fin 256) :
    addf v (matmul dot_S256x1024_S256x1024_S256x256_1_1_0_0_n_n none (extractStridedSlice S256x1024 ![oa, 0] X ha)
        (extractStridedSlice S256x1024 ![ob, 0] X hb) (constant (F := Ideal) S256x256 .f32 0x00000000#32)) (ix2 p q)
      = v (ix2 p q) + ∑ l : Fin 1024, X (ix2 ⟨oa + p.val, by have := p.isLt; omega⟩ l)
          * X (ix2 ⟨ob + q.val, by have := q.isLt; omega⟩ l) := by
  rw [addf_apply, slabDot_apply]
  refine congrArg (v (ix2 p q) + ·) (Finset.sum_congr rfl fun l _ => ?_)
  rw [slab_apply X oa ha p l hoa, slab_apply X ob hb q l hob]

end Cert.KernelIdeal.Hand

end
-- ==== Proof.KI.R0ValB.lean ====
/-
  The Gram kernel's middle and last steps as values, over the extended reals: the step adds to the column of row
  sums of squares the lane sums of the squared block, and to each 256-tile on or above the diagonal of the Gram
  accumulator the product of the block's two row slabs; the six tiles below the diagonal keep what they held.
-/
import proofs.«167578_j20134806684259_2_alg».proof.Proof.KI.R0Body
import proofs.«167578_j20134806684259_2_alg».proof.Proof.KI.R0ValPay
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

theorem hz2 : (![0, 0] : Fin 2 → Nat) = fun _ => 0 := funext fun a => by fin_cases a <;> rfl

/-- The row and the column of an index of the 1024 × 1024 accumulator. -/
def row0 (y : S1024x1024.Idx) : Fin 1024 := ⟨(y 0).val, idx2_lt0 y⟩
def row1 (y : S1024x1024.Idx) : Fin 1024 := ⟨(y 1).val, idx2_lt1 y⟩

/-- The column of row sums of squares after a step: the previous column plus the block's lane sums of squares. -/
def sqAcc (x0 : Vec Ideal S1024x1024 .f32) (xs1 : Vec Ideal S1024x1 .f32) : Vec Ideal S1024x1 .f32 :=
  fun y => xs1 y + ∑ l : Fin 1024, x0 (ix2 (⟨(y 0).val, idx2_lt0 y⟩ : Fin 1024) l) * x0 (ix2 (⟨(y 0).val, idx2_lt0 y⟩ : Fin 1024) l)

/-- The block's Gram product at an entry. -/
def gramOf (x0 : Vec Ideal S1024x1024 .f32) (i j : Fin 1024) : EReal := ∑ l : Fin 1024, x0 (ix2 i l) * x0 (ix2 j l)

/-- The Gram accumulator after a step, where the step stores: the previous entry plus the block's Gram product. -/
def gramAcc (x0 xs0 : Vec Ideal S1024x1024 .f32) : Vec Ideal S1024x1024 .f32 :=
  fun y => xs0 y + gramOf x0 (row0 y) (row1 y)

/-- The bf16 copy of the block is the block, over the extended reals. -/
theorem pay11_apply (x0 : Vec Ideal S1024x1024 .f32) (y : S1024x1024.Idx) : k0_pay11 (F := Ideal) x0 y = x0 y := by
  unfold k0_pay11 k0_pay9
  rw [shapeCast_self]
  rfl

/-- One tile store's payload is the new accumulator on its tile. -/
theorem tilePiece (x0 xs0 : Vec Ideal S1024x1024 .f32) (oa ob : Nat)
    (ha : S1024x1024.Slices ![oa, 0] S256x1024) (hb : S1024x1024.Slices ![ob, 0] S256x1024)
    (hoa : oa + 256 ≤ 1024) (hob : ob + 256 ≤ 1024)
    (inb : ∀ a, (![oa, ob] : Fin 2 → Nat) a + S256x256.size a ≤ S1024x1024.size a) (x : S256x256.Idx) :
    addf (View.ld xs0 (Rect.unit (s := S1024x1024) ![oa, ob] S256x256.size inb))
        (matmul dot_S256x1024_S256x1024_S256x256_1_1_0_0_n_n none
          (extractStridedSlice S256x1024 ![oa, 0] (k0_pay11 (F := Ideal) x0) ha)
          (extractStridedSlice S256x1024 ![ob, 0] (k0_pay11 (F := Ideal) x0) hb)
          (constant (F := Ideal) S256x256 .f32 0x00000000#32)) x
      = gramAcc x0 xs0 ((Rect.unit (s := S1024x1024) ![oa, ob] S256x256.size inb).emb x) := by
  obtain ⟨p, q, rfl⟩ : ∃ (p : Fin 256) (q : Fin 256), x = ix2 p q := ⟨x 0, x 1, eq_ix2 x⟩
  refine (tile_apply (k0_pay11 (F := Ideal) x0) _ oa ob ha hb hoa hob p q).trans ?_
  have e0 : row0 ((Rect.unit (s := S1024x1024) ![oa, ob] S256x256.size inb).emb (ix2 p q)) = ⟨oa + p.val, by have := p.isLt; omega⟩ :=
    Fin.ext (by show oa + 1 * p.val = oa + p.val; omega)
  have e1 : row1 ((Rect.unit (s := S1024x1024) ![oa, ob] S256x256.size inb).emb (ix2 p q)) = ⟨ob + q.val, by have := q.isLt; omega⟩ :=
    Fin.ext (by show ob + 1 * q.val = ob + q.val; omega)
  unfold gramAcc gramOf
  rw [e0, e1]
  refine congrArg (_ + ·) (Finset.sum_congr rfl fun l _ => ?_)
  rw [pay11_apply, pay11_apply]

variable (c : Dev nD) (t : Fin cfg0.N)

/-- A middle step's column of row sums of squares. -/
theorem soutB0_1_eq (hc0 : ¬cond0_0 (grid0.coords t)) (hc1 : ¬cond0_1 (grid0.coords t))
    (x0 xs0 : Vec Ideal S1024x1024 .f32) (xs1 : Vec Ideal S1024x1 .f32) :
    soutB0_1 (F := Ideal) c t hc0 hc1 x0 xs0 xs1 = sqAcc x0 xs1 := by
  funext y
  unfold soutB0_1 runB0 kernelRun0_B
  dsimp only
  refine (View.read_writes_cons_unit_of_mem _ _ _ _ _ y y rfl (fun a => ?_)).trans ?_
  · match a with
    | ⟨0, _⟩ => exact (Nat.zero_add _).symm
    | ⟨1, _⟩ => exact (Nat.zero_add _).symm
  · simp only [View.readAt_eq_ld, (hs0_0 t).read_unread, (Memref.isWhole_whole cc0_scratch1).read_unread,
      View.ld_unit_zero (S := S1024x1024) hz2, View.ld_unit_zero (S := S1024x1) hz2]
    obtain ⟨r, z, rfl⟩ : ∃ (r : Fin 1024) (z : Fin 1), y = ix2 r z := ⟨y 0, y 1, eq_ix2 y⟩
    exact pay10_apply x0 xs1 r z

end Cert.KernelIdeal.Hand

end
-- ==== Proof.KI.R0ValSq1.lean ====
/-
  The column of row sums of squares through the three kinds of step: the first step of a shard starts it from
  zero, every later step adds the block's lane sums of squares, and the last step also copies it, under a leading
  unit axis, into the output window.
-/
import proofs.«167578_j20134806684259_2_alg».proof.Proof.KI.R0ValB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

variable (c : Dev nD) (t : Fin cfg0.N)

/-- The zero column. -/
theorem pay8_apply (y : S1024x1.Idx) : k0_pay8 (F := Ideal) y = 0 := by
  unfold k0_pay8
  rw [shapeCast_self]
  show Ideal.ofBits .f32 0x00000000#32 = 0
  exact Ideal.ofBits_zero_f32

/-- The first step's column of row sums of squares: the block's lane sums of squares added to zero. -/
theorem soutA0_1_eq (hc0 : cond0_0 (grid0.coords t)) (hc1 : ¬cond0_1 (grid0.coords t))
    (x0 : Vec Ideal S1024x1024 .f32) :
    soutA0_1 (F := Ideal) c t hc0 hc1 x0 = sqAcc x0 (fun _ => 0) := by
  funext y
  unfold soutA0_1 runA0 kernelRun0_A
  dsimp only
  sl_unfold_words
  refine (View.read_writes_cons_unit_of_mem _ _ _ _ _ y y rfl (fun a => ?_)).trans ?_
  · match a with
    | ⟨0, _⟩ => exact (Nat.zero_add _).symm
    | ⟨1, _⟩ => exact (Nat.zero_add _).symm
  · simp only [View.readAt_eq_ld, (hs0_0 t).read_unread, View.readCov_unit_zero (S := S1024x1) _ hz2,
      View.ld_unit_zero (S := S1024x1024) hz2]
    obtain ⟨r, z, rfl⟩ : ∃ (r : Fin 1024) (z : Fin 1), y = ix2 r z := ⟨y 0, y 1, eq_ix2 y⟩
    refine (pay10_apply x0 _ r z).trans ?_
    unfold sqAcc
    rw [pay8_apply]

/-- The last step's column of row sums of squares. -/
theorem soutC0_1_eq (hc0 : ¬cond0_0 (grid0.coords t)) (hc1 : cond0_1 (grid0.coords t))
    (x0 xs0 : Vec Ideal S1024x1024 .f32) (xs1 : Vec Ideal S1024x1 .f32) :
    soutC0_1 (F := Ideal) c t hc0 hc1 x0 xs0 xs1 = sqAcc x0 xs1 := by
  funext y
  unfold soutC0_1 runC0 kernelRun0_C
  dsimp only
  sl_unfold_words
  refine (View.read_writes_cons_unit_of_mem _ _ _ _ _ y y rfl (fun a => ?_)).trans ?_
  · match a with
    | ⟨0, _⟩ => exact (Nat.zero_add _).symm
    | ⟨1, _⟩ => exact (Nat.zero_add _).symm
  · simp only [View.readAt_eq_ld, (hs0_0 t).read_unread, (Memref.isWhole_whole cc0_scratch1).read_unread,
      View.ld_unit_zero (S := S1024x1024) hz2, View.ld_unit_zero (S := S1024x1) hz2]
    obtain ⟨r, z, rfl⟩ : ∃ (r : Fin 1024) (z : Fin 1), y = ix2 r z := ⟨y 0, y 1, eq_ix2 y⟩
    exact pay10_apply x0 xs1 r z

theorem hz3 : (![0, 0, 0] : Fin 3 → Nat) = fun _ => 0 := funext fun a => by fin_cases a <;> rfl

/-- The last step's output window for the column: the new column under a leading unit axis. -/
theorem outC0_2_apply (hc0 : ¬cond0_0 (grid0.coords t)) (hc1 : cond0_1 (grid0.coords t))
    (x0 xs0 : Vec Ideal S1024x1024 .f32) (xs1 : Vec Ideal S1024x1 .f32) (u : Fin 1) (r : Fin 1024) (z : Fin 1) :
    outC0_2 (F := Ideal) c t hc0 hc1 x0 xs0 xs1 (ix3 u r z) = sqAcc x0 xs1 (ix2 r z) := by
  unfold outC0_2 runC0 kernelRun0_C
  dsimp only
  sl_unfold_words
  refine (View.read_writes_cons_unit_of_mem _ _ _ _ _ (ix3 u r z) (ix3 u r z) rfl (fun a => ?_)).trans ?_
  · match a with
    | ⟨0, _⟩ => exact (Nat.zero_add _).symm
    | ⟨1, _⟩ => exact (Nat.zero_add _).symm
    | ⟨2, _⟩ => exact (Nat.zero_add _).symm
  · simp only [View.readAt_eq_ld, (hs0_0 t).read_unread, (Memref.isWhole_whole cc0_scratch1).read_unread,
      View.readCov_unit_zero (S := S1024x1) _ hz2,
      View.ld_unit_zero (S := S1024x1024) hz2, View.ld_unit_zero (S := S1024x1) hz2]
    unfold k0_pay6
    refine (shapeCast_addUnit_apply ![1024, 1] _ _ (ix3 u r z)).trans ?_
    have e : (fun a : Fin 2 => (ix3 u r z : S1x1024x1.Idx) a.succ) = (ix2 r z : S1024x1.Idx) := by
      funext a
      match a with
      | ⟨0, _⟩ => rfl
      | ⟨1, _⟩ => rfl
    refine (congrArg _ e).trans ?_
    exact pay10_apply x0 xs1 r z

end Cert.KernelIdeal.Hand

end
-- ==== Proof.KI.R0ValSq2.lean ====
/-
  The row sums of squares over a whole shard: by induction on the reduction step the column accumulator holds the
  sum over the steps so far of the block's lane sums of squares; a block at step (s, kk) is the columns
  (s·24 + kk)·1024 + l of the features; the last step of shard s writes the column into block s of the result array,
  so the array at (s, i, 0) is the shard's sum of squares of row i.
-/
import proofs.«167578_j20134806684259_2_alg».proof.Proof.KI.R0ValSq1
import proofs.«167578_j20134806684259_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

open Finset

variable (V : (c : Dev nD) → (b : Ref sig .tc) → Buf (Elt Ideal) ((c : Thread nD τ).loc b)) (c : Dev nD)

/-- The features as the region finds them. -/
def feat0 : Fin 1024 → Fin 49152 → EReal := fun a k => (V c main_v0 : S1024x49152.Idx → EReal) (ix2 a k)

theorem N48 : cfg0.N = 48 := N_0

/-- The input window's block index: all rows, column block t. -/
theorem idx_in : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The input block at point t, read at (r, l): the features at row r, column t·1024 + l. -/
theorem iblk_apply (t : Fin cfg0.N) (r : Fin 1024) (l : Fin 1024) :
    (iblk0 V c 0 t : Vec Ideal S1024x1024 .f32) (ix2 r l)
      = feat0 V c r ⟨t.val * 1024 + l.val, by have := t.isLt; have := N48; have := l.isLt; omega⟩ := by
  unfold iblk0 feat0
  rw [View.read_apply]
  show V c main_v0 (((cfg0.win 0).blk t).view.emb (ix2 r l)) = V c main_v0 _
  refine congrArg (V c main_v0) (funext fun a => Fin.ext ?_)
  obtain ⟨e0, e1⟩ := idx_in t
  match a with
  | ⟨0, _⟩ => show win0_0.index t (0 : Fin 2) * 1024 + 1 * r.val = r.val; rw [e0]; omega
  | ⟨1, _⟩ => show win0_0.index t (1 : Fin 2) * 1024 + 1 * l.val = t.val * 1024 + l.val; rw [e1]; omega

/-- One step's contribution to row r's sum of squares (zero past the grid). -/
def sqStep (f : Fin 1024 → Fin 49152 → EReal) (r : Fin 1024) (m : ℕ) : EReal :=
  if h : m < 48 then ∑ l : Fin 1024, f r ⟨m * 1024 + l.val, by have := l.isLt; omega⟩ * f r ⟨m * 1024 + l.val, by have := l.isLt; omega⟩
  else 0

/-- The input block at point t, as a function of the literal index type. -/
abbrev blk (t : Fin cfg0.N) : S1024x1024.Idx → EReal := iblk0 V c 0 t

theorem blk_apply (t : Fin cfg0.N) (r : Fin 1024) (l : Fin 1024) :
    blk V c t (ix2 r l)
      = feat0 V c r ⟨t.val * 1024 + l.val, by have := t.isLt; have := N48; have := l.isLt; omega⟩ :=
  iblk_apply V c t r l

theorem blockSq (t : Fin cfg0.N) (r : Fin 1024) :
    ∑ l : Fin 1024, blk V c t (ix2 r l) * blk V c t (ix2 r l) = sqStep (feat0 V c) r t.val := by
  have hN : t.val < 48 := lt_of_lt_of_eq t.isLt N48
  unfold sqStep
  rw [dif_pos hN]
  refine Finset.sum_congr rfl fun l _ => ?_
  rw [blk_apply V c t r l]

/-- The column accumulator after point t, from what the point before left. -/
theorem acc1_step (t : Fin cfg0.N) :
    (outsAt0 V c t.val t.isLt).2.2.2
      = if t.val % 24 = 0 then sqAcc (blk V c t) (fun _ => 0)
        else sqAcc (blk V c t) (outsAt0 V c (t.val - 1) (Nat.lt_of_le_of_lt (Nat.sub_le _ _) t.isLt)).2.2.2 := by
  by_cases h0 : t.val % 24 = 0
  · have h1 : ¬ t.val % 24 = 23 := by omega
    rw [if_pos h0]
    have e := congrArg (fun p => p.2.2.2) (outsAt0_A V c t h0 h1)
    dsimp only at e
    exact e.trans (soutA0_1_eq c t ((hcond0_0 t).mpr h0) (fun h => h1 ((hcond0_1 t).mp h)) (iblk0 V c 0 t))
  · rw [if_neg h0]
    by_cases h1 : t.val % 24 = 23
    · have e := congrArg (fun p => p.2.2.2) (outsAt0_C V c t h0 h1)
      dsimp only at e
      exact e.trans (soutC0_1_eq c t (fun h => h0 ((hcond0_0 t).mp h)) ((hcond0_1 t).mpr h1) (iblk0 V c 0 t) _ _)
    · have e := congrArg (fun p => p.2.2.2) (outsAt0_B V c t h0 h1)
      dsimp only at e
      exact e.trans (soutB0_1_eq c t (fun h => h0 ((hcond0_0 t).mp h)) (fun h => h1 ((hcond0_1 t).mp h)) (iblk0 V c 0 t) _ _)

theorem sqAcc_apply (x0 : Vec Ideal S1024x1024 .f32) (xs1 : Vec Ideal S1024x1 .f32) (r : Fin 1024) (z : Fin 1) :
    sqAcc x0 xs1 (ix2 r z) = xs1 (ix2 r z) + ∑ l : Fin 1024, x0 (ix2 r l) * x0 (ix2 r l) := rfl

/-- The column accumulator after point n: the sum over the shard's steps so far. -/
theorem acc1_closed (r : Fin 1024) (z : Fin 1) : ∀ (n : ℕ) (hn : n < cfg0.N),
    (outsAt0 V c n hn).2.2.2 (ix2 r z) = ∑ k ∈ range (n % 24 + 1), sqStep (feat0 V c) r (n - n % 24 + k)
  | n, hn => by
    have st : (outsAt0 V c n hn).2.2.2 (ix2 r z)
        = (if n % 24 = 0 then sqAcc (blk V c ⟨n, hn⟩) (fun _ => 0)
            else sqAcc (blk V c ⟨n, hn⟩) (outsAt0 V c (n - 1) (Nat.lt_of_le_of_lt (Nat.sub_le _ _) hn)).2.2.2) (ix2 r z) :=
      congrFun (acc1_step V c ⟨n, hn⟩) (ix2 r z)
    by_cases h0 : n % 24 = 0
    · rw [if_pos h0] at st
      rw [st, sqAcc_apply, blockSq V c ⟨n, hn⟩ r, h0, Finset.sum_range_one]
      show (0 : EReal) + sqStep (feat0 V c) r n = sqStep (feat0 V c) r (n - 0 + 0)
      rw [zero_add]; rfl
    · rw [if_neg h0] at st
      have ih := acc1_closed r z (n - 1) (Nat.lt_of_le_of_lt (Nat.sub_le _ _) hn)
      rw [st, sqAcc_apply, blockSq V c ⟨n, hn⟩ r, ih]
      have e1 : (n - 1) % 24 + 1 = n % 24 := by omega
      have e2 : n - 1 - (n - 1) % 24 = n - n % 24 := by omega
      have e3 : n - n % 24 + n % 24 = n := by omega
      rw [e1, e2, Finset.sum_range_succ, e3]
  termination_by n => n
  decreasing_by omega

end Cert.KernelIdeal.Hand

end
-- ==== Proof.KI.R0ValB0.lean ====
/-
  The Gram accumulator through a middle or a last step: the ten 256-tiles on or above the diagonal each gain the
  product of the block's two row slabs, the six tiles below the diagonal are not stored and keep what they held;
  the last step also copies the accumulator, under a leading unit axis, into the output window.
-/
import proofs.«167578_j20134806684259_2_alg».proof.Proof.KI.R0ValB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

variable (c : Dev nD) (t : Fin cfg0.N)

set_option maxHeartbeats 4000000 in
/-- A middle step's Gram accumulator. -/
theorem soutB0_0_apply (hc0 : ¬cond0_0 (grid0.coords t)) (hc1 : ¬cond0_1 (grid0.coords t))
    (x0 xs0 : Vec Ideal S1024x1024 .f32) (xs1 : Vec Ideal S1024x1 .f32) (y : S1024x1024.Idx) :
    soutB0_0 (F := Ideal) c t hc0 hc1 x0 xs0 xs1 y
      = if (y 0).val / 256 ≤ (y 1).val / 256 then gramAcc x0 xs0 y else xs0 y := by
  unfold soutB0_0 runB0 kernelRun0_B
  dsimp only
  sl_unfold_words
  simp only [View.readAt_eq_ld, (hs0_0 t).read_unread, (Memref.isWhole_whole cc0_scratch0).read_unread,
    View.ld_unit_zero (S := S1024x1024) hz2]
  have hi : (y 0).val < 1024 := idx2_lt0 y
  have hj : (y 1).val < 1024 := idx2_lt1 y
  by_cases hu : (y 0).val / 256 ≤ (y 1).val / 256
  · rw [if_pos hu]
    refine View.read_writes_apply_of_pieces _ _ (gramAcc x0 xs0) _ ?_ y ?_
    · intro p hp
      simp only [List.mem_cons, List.not_mem_nil, or_false] at hp
      rcases hp with rfl | rfl | rfl | rfl | rfl | rfl | rfl | rfl | rfl | rfl
      · intro x
        unfold k0_pay4
        simp only [shapeCast_self]
        exact tilePiece x0 xs0 768 768 _ _ (by omega) (by omega) _ x
      · intro x
        unfold k0_pay3 k0_pay1
        simp only [shapeCast_self]
        exact tilePiece x0 xs0 512 768 _ _ (by omega) (by omega) _ x
      · intro x
        unfold k0_pay2 k0_pay1
        simp only [shapeCast_self]
        exact tilePiece x0 xs0 512 512 _ _ (by omega) (by omega) _ x
      · intro x
        unfold k0_pay21 k0_pay18
        simp only [shapeCast_self]
        exact tilePiece x0 xs0 256 768 _ _ (by omega) (by omega) _ x
      · intro x
        unfold k0_pay20 k0_pay18
        simp only [shapeCast_self]
        exact tilePiece x0 xs0 256 512 _ _ (by omega) (by omega) _ x
      · intro x
        unfold k0_pay19 k0_pay18
        simp only [shapeCast_self]
        exact tilePiece x0 xs0 256 256 _ _ (by omega) (by omega) _ x
      · intro x
        unfold k0_pay17 k0_pay12
        simp only [shapeCast_self]
        exact tilePiece x0 xs0 0 768 _ _ (by omega) (by omega) _ x
      · intro x
        unfold k0_pay16 k0_pay15 k0_pay12
        simp only [shapeCast_self]
        exact tilePiece x0 xs0 0 512 _ _ (by omega) (by omega) _ x
      · intro x
        unfold k0_pay14 k0_pay12
        simp only [shapeCast_self]
        exact tilePiece x0 xs0 0 256 _ _ (by omega) (by omega) _ x
      · intro x
        unfold k0_pay13 k0_pay12
        simp only [shapeCast_self]
        exact tilePiece x0 xs0 0 0 _ _ (by omega) (by omega) _ x
    · have hd : ((y 0).val / 256 = 3 ∧ (y 1).val / 256 = 3) ∨ ((y 0).val / 256 = 2 ∧ (y 1).val / 256 = 3) ∨ ((y 0).val / 256 = 2 ∧ (y 1).val / 256 = 2) ∨ ((y 0).val / 256 = 1 ∧ (y 1).val / 256 = 3) ∨ ((y 0).val / 256 = 1 ∧ (y 1).val / 256 = 2) ∨ ((y 0).val / 256 = 1 ∧ (y 1).val / 256 = 1) ∨ ((y 0).val / 256 = 0 ∧ (y 1).val / 256 = 3) ∨ ((y 0).val / 256 = 0 ∧ (y 1).val / 256 = 2) ∨ ((y 0).val / 256 = 0 ∧ (y 1).val / 256 = 1) ∨ ((y 0).val / 256 = 0 ∧ (y 1).val / 256 = 0) := by omega
      rcases hd with h | h | h | h | h | h | h | h | h | h
      · refine ⟨_, List.mem_cons_self, ?_⟩
        rw [Rect.mem_set_unit]
        intro a
        match a with
        | ⟨0, _⟩ => show 768 ≤ (y 0).val ∧ (y 0).val < 768 + 256; omega
        | ⟨1, _⟩ => show 768 ≤ (y 1).val ∧ (y 1).val < 768 + 256; omega
      · refine ⟨_, List.mem_cons_of_mem _ (List.mem_cons_self), ?_⟩
        rw [Rect.mem_set_unit]
        intro a
        match a with
        | ⟨0, _⟩ => show 512 ≤ (y 0).val ∧ (y 0).val < 512 + 256; omega
        | ⟨1, _⟩ => show 768 ≤ (y 1).val ∧ (y 1).val < 768 + 256; omega
      · refine ⟨_, List.mem_cons_of_mem _ (List.mem_cons_of_mem _ (List.mem_cons_self)), ?_⟩
        rw [Rect.mem_set_unit]
        intro a
        match a with
        | ⟨0, _⟩ => show 512 ≤ (y 0).val ∧ (y 0).val < 512 + 256; omega
        | ⟨1, _⟩ => show 512 ≤ (y 1).val ∧ (y 1).val < 512 + 256; omega
      · refine ⟨_, List.mem_cons_of_mem _ (List.mem_cons_of_mem _ (List.mem_cons_of_mem _ (List.mem_cons_self))), ?_⟩
        rw [Rect.mem_set_unit]
        intro a
        match a with
        | ⟨0, _⟩ => show 256 ≤ (y 0).val ∧ (y 0).val < 256 + 256; omega
        | ⟨1, _⟩ => show 768 ≤ (y 1).val ∧ (y 1).val < 768 + 256; omega
      · refine ⟨_, List.mem_cons_of_mem _ (List.mem_cons_of_mem _ (List.mem_cons_of_mem _ (List.mem_cons_of_mem _ (List.mem_cons_self)))), ?_⟩
        rw [Rect.mem_set_unit]
        intro a
        match a with
        | ⟨0, _⟩ => show 256 ≤ (y 0).val ∧ (y 0).val < 256 + 256; omega
        | ⟨1, _⟩ => show 512 ≤ (y 1).val ∧ (y 1).val < 512 + 256; omega
      · refine ⟨_, List.mem_cons_of_mem _ (List.mem_cons_of_mem _ (List.mem_cons_of_mem _ (List.mem_cons_of_mem _ (List.mem_cons_of_mem _ (List.mem_cons_self))))), ?_⟩
        rw [Rect.mem_set_unit]
        intro a
        match a with
        | ⟨0, _⟩ => show 256 ≤ (y 0).val ∧ (y 0).val < 256 + 256; omega
        | ⟨1, _⟩ => show 256 ≤ (y 1).val ∧ (y 1).val < 256 + 256; omega
      · refine ⟨_, List.mem_cons_of_mem _ (List.mem_cons_of_mem _ (List.mem_cons_of_mem _ (List.mem_cons_of_mem _ (List.mem_cons_of_mem _ (List.mem_cons_of_mem _ (List.mem_cons_self)))))), ?_⟩
        rw [Rect.mem_set_unit]
        intro a
        match a with
        | ⟨0, _⟩ => show 0 ≤ (y 0).val ∧ (y 0).val < 0 + 256; omega
        | ⟨1, _⟩ => show 768 ≤ (y 1).val ∧ (y 1).val < 768 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        rw [Rect.mem_set_unit]
        intro a
        match a with
        | ⟨0, _⟩ => show 0 ≤ (y 0).val ∧ (y 0).val < 0 + 256; omega
        | ⟨1, _⟩ => show 512 ≤ (y 1).val ∧ (y 1).val < 512 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
        rw [Rect.mem_set_unit]
        intro a
        match a with
        | ⟨0, _⟩ => show 0 ≤ (y 0).val ∧ (y 0).val < 0 + 256; omega
        | ⟨1, _⟩ => show 256 ≤ (y 1).val ∧ (y 1).val < 256 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
        rw [Rect.mem_set_unit]
        intro a
        match a with
        | ⟨0, _⟩ => show 0 ≤ (y 0).val ∧ (y 0).val < 0 + 256; omega
        | ⟨1, _⟩ => show 0 ≤ (y 1).val ∧ (y 1).val < 0 + 256; omega
  · rw [if_neg hu]
    refine (View.read_writes_apply_of_forall_not_mem _ _ y _ ?_).trans ?_
    · intro p hp
      simp only [List.mem_cons, List.not_mem_nil, or_false] at hp
      rcases hp with rfl | rfl | rfl | rfl | rfl | rfl | rfl | rfl | rfl | rfl
      · rw [Rect.mem_set_unit]
        intro h
        have h0 : 768 ≤ (y 0).val ∧ (y 0).val < 768 + 256 := h 0
        have h1 : 768 ≤ (y 1).val ∧ (y 1).val < 768 + 256 := h 1
        omega
      · rw [Rect.mem_set_unit]
        intro h
        have h0 : 512 ≤ (y 0).val ∧ (y 0).val < 512 + 256 := h 0
        have h1 : 768 ≤ (y 1).val ∧ (y 1).val < 768 + 256 := h 1
        omega
      · rw [Rect.mem_set_unit]
        intro h
        have h0 : 512 ≤ (y 0).val ∧ (y 0).val < 512 + 256 := h 0
        have h1 : 512 ≤ (y 1).val ∧ (y 1).val < 512 + 256 := h 1
        omega
      · rw [Rect.mem_set_unit]
        intro h
        have h0 : 256 ≤ (y 0).val ∧ (y 0).val < 256 + 256 := h 0
        have h1 : 768 ≤ (y 1).val ∧ (y 1).val < 768 + 256 := h 1
        omega
      · rw [Rect.mem_set_unit]
        intro h
        have h0 : 256 ≤ (y 0).val ∧ (y 0).val < 256 + 256 := h 0
        have h1 : 512 ≤ (y 1).val ∧ (y 1).val < 512 + 256 := h 1
        omega
      · rw [Rect.mem_set_unit]
        intro h
        have h0 : 256 ≤ (y 0).val ∧ (y 0).val < 256 + 256 := h 0
        have h1 : 256 ≤ (y 1).val ∧ (y 1).val < 256 + 256 := h 1
        omega
      · rw [Rect.mem_set_unit]
        intro h
        have h0 : 0 ≤ (y 0).val ∧ (y 0).val < 0 + 256 := h 0
        have h1 : 768 ≤ (y 1).val ∧ (y 1).val < 768 + 256 := h 1
        omega
      · rw [Rect.mem_set_unit]
        intro h
        have h0 : 0 ≤ (y 0).val ∧ (y 0).val < 0 + 256 := h 0
        have h1 : 512 ≤ (y 1).val ∧ (y 1).val < 512 + 256 := h 1
        omega
      · rw [Rect.mem_set_unit]
        intro h
        have h0 : 0 ≤ (y 0).val ∧ (y 0).val < 0 + 256 := h 0
        have h1 : 256 ≤ (y 1).val ∧ (y 1).val < 256 + 256 := h 1
        omega
      · rw [Rect.mem_set_unit]
        intro h
        have h0 : 0 ≤ (y 0).val ∧ (y 0).val < 0 + 256 := h 0
        have h1 : 0 ≤ (y 1).val ∧ (y 1).val < 0 + 256 := h 1
        omega
    · exact congrFun ((Memref.isWhole_whole cc0_scratch0).read_unread xs0) y

set_option maxHeartbeats 4000000 in
/-- The last step's Gram accumulator. -/
theorem soutC0_0_apply (hc0 : ¬cond0_0 (grid0.coords t)) (hc1 : cond0_1 (grid0.coords t))
    (x0 xs0 : Vec Ideal S1024x1024 .f32) (xs1 : Vec Ideal S1024x1 .f32) (y : S1024x1024.Idx) :
    soutC0_0 (F := Ideal) c t hc0 hc1 x0 xs0 xs1 y
      = if (y 0).val / 256 ≤ (y 1).val / 256 then gramAcc x0 xs0 y else xs0 y := by
  unfold soutC0_0 runC0 kernelRun0_C
  dsimp only
  sl_unfold_words
  simp only [View.readAt_eq_ld, (hs0_0 t).read_unread, (Memref.isWhole_whole cc0_scratch0).read_unread,
    View.ld_unit_zero (S := S1024x1024) hz2]
  have hi : (y 0).val < 1024 := idx2_lt0 y
  have hj : (y 1).val < 1024 := idx2_lt1 y
  by_cases hu : (y 0).val / 256 ≤ (y 1).val / 256
  · rw [if_pos hu]
    refine View.read_writes_apply_of_pieces _ _ (gramAcc x0 xs0) _ ?_ y ?_
    · intro p hp
      simp only [List.mem_cons, List.not_mem_nil, or_false] at hp
      rcases hp with rfl | rfl | rfl | rfl | rfl | rfl | rfl | rfl | rfl | rfl
      · intro x
        unfold k0_pay4
        simp only [shapeCast_self]
        exact tilePiece x0 xs0 768 768 _ _ (by omega) (by omega) _ x
      · intro x
        unfold k0_pay3 k0_pay1
        simp only [shapeCast_self]
        exact tilePiece x0 xs0 512 768 _ _ (by omega) (by omega) _ x
      · intro x
        unfold k0_pay2 k0_pay1
        simp only [shapeCast_self]
        exact tilePiece x0 xs0 512 512 _ _ (by omega) (by omega) _ x
      · intro x
        unfold k0_pay21 k0_pay18
        simp only [shapeCast_self]
        exact tilePiece x0 xs0 256 768 _ _ (by omega) (by omega) _ x
      · intro x
        unfold k0_pay20 k0_pay18
        simp only [shapeCast_self]
        exact tilePiece x0 xs0 256 512 _ _ (by omega) (by omega) _ x
      · intro x
        unfold k0_pay19 k0_pay18
        simp only [shapeCast_self]
        exact tilePiece x0 xs0 256 256 _ _ (by omega) (by omega) _ x
      · intro x
        unfold k0_pay17 k0_pay12
        simp only [shapeCast_self]
        exact tilePiece x0 xs0 0 768 _ _ (by omega) (by omega) _ x
      · intro x
        unfold k0_pay16 k0_pay15 k0_pay12
        simp only [shapeCast_self]
        exact tilePiece x0 xs0 0 512 _ _ (by omega) (by omega) _ x
      · intro x
        unfold k0_pay14 k0_pay12
        simp only [shapeCast_self]
        exact tilePiece x0 xs0 0 256 _ _ (by omega) (by omega) _ x
      · intro x
        unfold k0_pay13 k0_pay12
        simp only [shapeCast_self]
        exact tilePiece x0 xs0 0 0 _ _ (by omega) (by omega) _ x
    · have hd : ((y 0).val / 256 = 3 ∧ (y 1).val / 256 = 3) ∨ ((y 0).val / 256 = 2 ∧ (y 1).val / 256 = 3) ∨ ((y 0).val / 256 = 2 ∧ (y 1).val / 256 = 2) ∨ ((y 0).val / 256 = 1 ∧ (y 1).val / 256 = 3) ∨ ((y 0).val / 256 = 1 ∧ (y 1).val / 256 = 2) ∨ ((y 0).val / 256 = 1 ∧ (y 1).val / 256 = 1) ∨ ((y 0).val / 256 = 0 ∧ (y 1).val / 256 = 3) ∨ ((y 0).val / 256 = 0 ∧ (y 1).val / 256 = 2) ∨ ((y 0).val / 256 = 0 ∧ (y 1).val / 256 = 1) ∨ ((y 0).val / 256 = 0 ∧ (y 1).val / 256 = 0) := by omega
      rcases hd with h | h | h | h | h | h | h | h | h | h
      · refine ⟨_, List.mem_cons_self, ?_⟩
        rw [Rect.mem_set_unit]
        intro a
        match a with
        | ⟨0, _⟩ => show 768 ≤ (y 0).val ∧ (y 0).val < 768 + 256; omega
        | ⟨1, _⟩ => show 768 ≤ (y 1).val ∧ (y 1).val < 768 + 256; omega
      · refine ⟨_, List.mem_cons_of_mem _ (List.mem_cons_self), ?_⟩
        rw [Rect.mem_set_unit]
        intro a
        match a with
        | ⟨0, _⟩ => show 512 ≤ (y 0).val ∧ (y 0).val < 512 + 256; omega
        | ⟨1, _⟩ => show 768 ≤ (y 1).val ∧ (y 1).val < 768 + 256; omega
      · refine ⟨_, List.mem_cons_of_mem _ (List.mem_cons_of_mem _ (List.mem_cons_self)), ?_⟩
        rw [Rect.mem_set_unit]
        intro a
        match a with
        | ⟨0, _⟩ => show 512 ≤ (y 0).val ∧ (y 0).val < 512 + 256; omega
        | ⟨1, _⟩ => show 512 ≤ (y 1).val ∧ (y 1).val < 512 + 256; omega
      · refine ⟨_, List.mem_cons_of_mem _ (List.mem_cons_of_mem _ (List.mem_cons_of_mem _ (List.mem_cons_self))), ?_⟩
        rw [Rect.mem_set_unit]
        intro a
        match a with
        | ⟨0, _⟩ => show 256 ≤ (y 0).val ∧ (y 0).val < 256 + 256; omega
        | ⟨1, _⟩ => show 768 ≤ (y 1).val ∧ (y 1).val < 768 + 256; omega
      · refine ⟨_, List.mem_cons_of_mem _ (List.mem_cons_of_mem _ (List.mem_cons_of_mem _ (List.mem_cons_of_mem _ (List.mem_cons_self)))), ?_⟩
        rw [Rect.mem_set_unit]
        intro a
        match a with
        | ⟨0, _⟩ => show 256 ≤ (y 0).val ∧ (y 0).val < 256 + 256; omega
        | ⟨1, _⟩ => show 512 ≤ (y 1).val ∧ (y 1).val < 512 + 256; omega
      · refine ⟨_, List.mem_cons_of_mem _ (List.mem_cons_of_mem _ (List.mem_cons_of_mem _ (List.mem_cons_of_mem _ (List.mem_cons_of_mem _ (List.mem_cons_self))))), ?_⟩
        rw [Rect.mem_set_unit]
        intro a
        match a with
        | ⟨0, _⟩ => show 256 ≤ (y 0).val ∧ (y 0).val < 256 + 256; omega
        | ⟨1, _⟩ => show 256 ≤ (y 1).val ∧ (y 1).val < 256 + 256; omega
      · refine ⟨_, List.mem_cons_of_mem _ (List.mem_cons_of_mem _ (List.mem_cons_of_mem _ (List.mem_cons_of_mem _ (List.mem_cons_of_mem _ (List.mem_cons_of_mem _ (List.mem_cons_self)))))), ?_⟩
        rw [Rect.mem_set_unit]
        intro a
        match a with
        | ⟨0, _⟩ => show 0 ≤ (y 0).val ∧ (y 0).val < 0 + 256; omega
        | ⟨1, _⟩ => show 768 ≤ (y 1).val ∧ (y 1).val < 768 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        rw [Rect.mem_set_unit]
        intro a
        match a with
        | ⟨0, _⟩ => show 0 ≤ (y 0).val ∧ (y 0).val < 0 + 256; omega
        | ⟨1, _⟩ => show 512 ≤ (y 1).val ∧ (y 1).val < 512 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
        rw [Rect.mem_set_unit]
        intro a
        match a with
        | ⟨0, _⟩ => show 0 ≤ (y 0).val ∧ (y 0).val < 0 + 256; omega
        | ⟨1, _⟩ => show 256 ≤ (y 1).val ∧ (y 1).val < 256 + 256; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
        rw [Rect.mem_set_unit]
        intro a
        match a with
        | ⟨0, _⟩ => show 0 ≤ (y 0).val ∧ (y 0).val < 0 + 256; omega
        | ⟨1, _⟩ => show 0 ≤ (y 1).val ∧ (y 1).val < 0 + 256; omega
  · rw [if_neg hu]
    refine (View.read_writes_apply_of_forall_not_mem _ _ y _ ?_).trans ?_
    · intro p hp
      simp only [List.mem_cons, List.not_mem_nil, or_false] at hp
      rcases hp with rfl | rfl | rfl | rfl | rfl | rfl | rfl | rfl | rfl | rfl
      · rw [Rect.mem_set_unit]
        intro h
        have h0 : 768 ≤ (y 0).val ∧ (y 0).val < 768 + 256 := h 0
        have h1 : 768 ≤ (y 1).val ∧ (y 1).val < 768 + 256 := h 1
        omega
      · rw [Rect.mem_set_unit]
        intro h
        have h0 : 512 ≤ (y 0).val ∧ (y 0).val < 512 + 256 := h 0
        have h1 : 768 ≤ (y 1).val ∧ (y 1).val < 768 + 256 := h 1
        omega
      · rw [Rect.mem_set_unit]
        intro h
        have h0 : 512 ≤ (y 0).val ∧ (y 0).val < 512 + 256 := h 0
        have h1 : 512 ≤ (y 1).val ∧ (y 1).val < 512 + 256 := h 1
        omega
      · rw [Rect.mem_set_unit]
        intro h
        have h0 : 256 ≤ (y 0).val ∧ (y 0).val < 256 + 256 := h 0
        have h1 : 768 ≤ (y 1).val ∧ (y 1).val < 768 + 256 := h 1
        omega
      · rw [Rect.mem_set_unit]
        intro h
        have h0 : 256 ≤ (y 0).val ∧ (y 0).val < 256 + 256 := h 0
        have h1 : 512 ≤ (y 1).val ∧ (y 1).val < 512 + 256 := h 1
        omega
      · rw [Rect.mem_set_unit]
        intro h
        have h0 : 256 ≤ (y 0).val ∧ (y 0).val < 256 + 256 := h 0
        have h1 : 256 ≤ (y 1).val ∧ (y 1).val < 256 + 256 := h 1
        omega
      · rw [Rect.mem_set_unit]
        intro h
        have h0 : 0 ≤ (y 0).val ∧ (y 0).val < 0 + 256 := h 0
        have h1 : 768 ≤ (y 1).val ∧ (y 1).val < 768 + 256 := h 1
        omega
      · rw [Rect.mem_set_unit]
        intro h
        have h0 : 0 ≤ (y 0).val ∧ (y 0).val < 0 + 256 := h 0
        have h1 : 512 ≤ (y 1).val ∧ (y 1).val < 512 + 256 := h 1
        omega
      · rw [Rect.mem_set_unit]
        intro h
        have h0 : 0 ≤ (y 0).val ∧ (y 0).val < 0 + 256 := h 0
        have h1 : 256 ≤ (y 1).val ∧ (y 1).val < 256 + 256 := h 1
        omega
      · rw [Rect.mem_set_unit]
        intro h
        have h0 : 0 ≤ (y 0).val ∧ (y 0).val < 0 + 256 := h 0
        have h1 : 0 ≤ (y 1).val ∧ (y 1).val < 0 + 256 := h 1
        omega
    · exact congrFun ((Memref.isWhole_whole cc0_scratch0).read_unread xs0) y

/-- The last step's output window for the Gram accumulator: the new accumulator under a leading unit axis. -/
theorem outC0_1_apply (hc0 : ¬cond0_0 (grid0.coords t)) (hc1 : cond0_1 (grid0.coords t))
    (x0 xs0 : Vec Ideal S1024x1024 .f32) (xs1 : Vec Ideal S1024x1 .f32) (u : Fin 1) (i j : Fin 1024) :
    outC0_1 (F := Ideal) c t hc0 hc1 x0 xs0 xs1 (ix3 u i j) = soutC0_0 (F := Ideal) c t hc0 hc1 x0 xs0 xs1 (ix2 i j) := by
  unfold outC0_1 soutC0_0 runC0 kernelRun0_C
  dsimp only
  refine (View.read_writes_cons_unit_of_mem _ _ _ _ _ (ix3 u i j) (ix3 u i j) rfl (fun a => ?_)).trans ?_
  · match a with
    | ⟨0, _⟩ => exact (Nat.zero_add _).symm
    | ⟨1, _⟩ => exact (Nat.zero_add _).symm
    | ⟨2, _⟩ => exact (Nat.zero_add _).symm
  · unfold k0_pay5
    refine (shapeCast_addUnit_apply ![1024, 1024] _ _ (ix3 u i j)).trans ?_
    have e : (fun a : Fin 2 => (ix3 u i j : S1x1024x1024.Idx) a.succ) = (ix2 i j : S1024x1024.Idx) := by
      funext a
      match a with
      | ⟨0, _⟩ => rfl
      | ⟨1, _⟩ => rfl
    refine (congrArg _ e).trans ?_
    rw [View.readAt_eq_ld, View.ld_unit_zero (S := S1024x1024) hz2]

end Cert.KernelIdeal.Hand

end
-- ==== Proof.KI.R0ValGr2.lean ====
/-
  The Gram accumulator over a whole shard: by induction on the reduction step an entry on or above the diagonal
  256-tiles holds the sum over the steps so far of the block's Gram products, an entry below them holds zero.
-/
import proofs.«167578_j20134806684259_2_alg».proof.Proof.KI.R0ValSq2
import proofs.«167578_j20134806684259_2_alg».proof.Proof.KI.R0ValB0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

open Finset

variable (V : (c : Dev nD) → (b : Ref sig .tc) → Buf (Elt Ideal) ((c : Thread nD τ).loc b)) (c : Dev nD)

/-- What the first step of a shard leaves in the Gram accumulator (proved, tile by tile, in a module of its own). -/
def CaseA (c : Dev nD) : Prop :=
  ∀ (t : Fin cfg0.N) (hc0 : cond0_0 (grid0.coords t)) (hc1 : ¬cond0_1 (grid0.coords t))
    (x0 : Vec Ideal S1024x1024 .f32) (y : S1024x1024.Idx),
    soutA0_0 (F := Ideal) c t hc0 hc1 x0 y
      = if (y 0).val / 256 ≤ (y 1).val / 256 then gramAcc x0 (fun _ => 0) y else 0

/-- One step's contribution to the Gram entry (i, j) (zero past the grid). -/
def grStep (f : Fin 1024 → Fin 49152 → EReal) (i j : Fin 1024) (m : ℕ) : EReal :=
  if h : m < 48 then ∑ l : Fin 1024, f i ⟨m * 1024 + l.val, by have := l.isLt; omega⟩ * f j ⟨m * 1024 + l.val, by have := l.isLt; omega⟩
  else 0

theorem blockGr (t : Fin cfg0.N) (i j : Fin 1024) : gramOf (blk V c t) i j = grStep (feat0 V c) i j t.val := by
  have hN : t.val < 48 := lt_of_lt_of_eq t.isLt N48
  unfold gramOf grStep
  rw [dif_pos hN]
  refine Finset.sum_congr rfl fun l _ => ?_
  rw [blk_apply V c t i l, blk_apply V c t j l]

theorem gramAcc_apply (x0 xs0 : Vec Ideal S1024x1024 .f32) (i j : Fin 1024) :
    gramAcc x0 xs0 (ix2 i j) = xs0 (ix2 i j) + gramOf x0 i j := rfl

/-- The Gram accumulator after point t, from what the point before left. -/
theorem acc0_step (hA : CaseA c) (t : Fin cfg0.N) (i j : Fin 1024) :
    (outsAt0 V c t.val t.isLt).2.2.1 (ix2 i j)
      = if t.val % 24 = 0 then (if i.val / 256 ≤ j.val / 256 then (0 : EReal) + gramOf (blk V c t) i j else 0)
        else (if i.val / 256 ≤ j.val / 256
          then (outsAt0 V c (t.val - 1) (Nat.lt_of_le_of_lt (Nat.sub_le _ _) t.isLt)).2.2.1 (ix2 i j) + gramOf (blk V c t) i j
          else (outsAt0 V c (t.val - 1) (Nat.lt_of_le_of_lt (Nat.sub_le _ _) t.isLt)).2.2.1 (ix2 i j)) := by
  by_cases h0 : t.val % 24 = 0
  · have h1 : ¬ t.val % 24 = 23 := by omega
    rw [if_pos h0]
    have e := congrArg (fun p => p.2.2.1) (outsAt0_A V c t h0 h1)
    dsimp only at e
    rw [e]
    exact hA t ((hcond0_0 t).mpr h0) (fun h => h1 ((hcond0_1 t).mp h)) (iblk0 V c 0 t) (ix2 i j)
  · rw [if_neg h0]
    by_cases h1 : t.val % 24 = 23
    · have e := congrArg (fun p => p.2.2.1) (outsAt0_C V c t h0 h1)
      dsimp only at e
      rw [e]
      exact soutC0_0_apply c t (fun h => h0 ((hcond0_0 t).mp h)) ((hcond0_1 t).mpr h1) (iblk0 V c 0 t) _ _ (ix2 i j)
    · have e := congrArg (fun p => p.2.2.1) (outsAt0_B V c t h0 h1)
      dsimp only at e
      rw [e]
      exact soutB0_0_apply c t (fun h => h0 ((hcond0_0 t).mp h)) (fun h => h1 ((hcond0_1 t).mp h)) (iblk0 V c 0 t) _ _ (ix2 i j)

/-- The Gram accumulator after point n: on or above the diagonal tiles the sum over the shard's steps so far, zero below. -/
theorem acc0_closed (hA : CaseA c) (i j : Fin 1024) : ∀ (n : ℕ) (hn : n < cfg0.N),
    (outsAt0 V c n hn).2.2.1 (ix2 i j)
      = if i.val / 256 ≤ j.val / 256 then ∑ k ∈ range (n % 24 + 1), grStep (feat0 V c) i j (n - n % 24 + k) else 0
  | n, hn => by
    have st : (outsAt0 V c n hn).2.2.1 (ix2 i j)
        = if n % 24 = 0 then (if i.val / 256 ≤ j.val / 256 then (0 : EReal) + gramOf (blk V c ⟨n, hn⟩) i j else 0)
          else (if i.val / 256 ≤ j.val / 256
            then (outsAt0 V c (n - 1) (Nat.lt_of_le_of_lt (Nat.sub_le _ _) hn)).2.2.1 (ix2 i j) + gramOf (blk V c ⟨n, hn⟩) i j
            else (outsAt0 V c (n - 1) (Nat.lt_of_le_of_lt (Nat.sub_le _ _) hn)).2.2.1 (ix2 i j)) :=
      acc0_step V c hA ⟨n, hn⟩ i j
    by_cases h0 : n % 24 = 0
    · rw [if_pos h0] at st
      rw [st]
      by_cases hu : i.val / 256 ≤ j.val / 256
      · rw [if_pos hu, if_pos hu, blockGr V c ⟨n, hn⟩ i j, h0, Finset.sum_range_one, zero_add]
        rfl
      · rw [if_neg hu, if_neg hu]
    · rw [if_neg h0] at st
      have ih := acc0_closed hA i j (n - 1) (Nat.lt_of_le_of_lt (Nat.sub_le _ _) hn)
      rw [st, ih]
      by_cases hu : i.val / 256 ≤ j.val / 256
      · rw [if_pos hu, if_pos hu, if_pos hu, blockGr V c ⟨n, hn⟩ i j]
        have e1 : (n - 1) % 24 + 1 = n % 24 := by omega
        have e2 : n - 1 - (n - 1) % 24 = n - n % 24 := by omega
        have e3 : n - n % 24 + n % 24 = n := by omega
        rw [e1, e2, Finset.sum_range_succ, e3]
      · rw [if_neg hu, if_neg hu, if_neg hu]
  termination_by n => n
  decreasing_by omega

end Cert.KernelIdeal.Hand

end
-- ==== Proof.KI.R0ValSq3.lean ====
/-
  The result array of row sums of squares: the last step of shard s (point s·24 + 23) writes the column accumulator,
  which then holds the sum over the shard's 24 steps, into block s of the array; the two blocks cover the array, so
  the array at (s, i, 0) is the shard's sum of squares of row i.
-/
import proofs.«167578_j20134806684259_2_alg».proof.Proof.KI.R0ValSq2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

open Finset

variable (V : (c : Dev nD) → (b : Ref sig .tc) → Buf (Elt Ideal) ((c : Thread nD τ).loc b)) (c : Dev nD)

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The column's output window: block (t / 24, 0, 0). -/
theorem idx_out2 : ∀ t : Fin cfg0.N, win0_2.index t (0 : Fin 3) = t.val / 24 ∧ win0_2.index t (1 : Fin 3) = 0
    ∧ win0_2.index t (2 : Fin 3) = 0 :=
  (by decide +kernel : ∀ t : Fin grid0.N, win0_2.index t (0 : Fin 3) = t.val / 24 ∧ win0_2.index t (1 : Fin 3) = 0
    ∧ win0_2.index t (2 : Fin 3) = 0)

/-- The shard's sum over its 24 steps is the specification's partial sum of squares. -/
theorem shard_sq (f : Fin 1024 → Fin 49152 → EReal) (s : Fin 2) (r : Fin 1024) :
    ∑ k ∈ range 24, sqStep f r (s.val * 24 + k) = Cert.Spec.sqP f s r := by
  unfold Cert.Spec.sqP
  rw [← Fin.sum_univ_eq_sum_range (fun k => sqStep f r (s.val * 24 + k)) 24]
  refine Finset.sum_congr rfl fun kk _ => ?_
  unfold sqStep
  have := s.isLt; have := kk.isLt
  rw [dif_pos (by omega)]
  rfl

/-- The output window at the last step of a shard: the shard's sum of squares. -/
theorem win2_closed (t : Fin cfg0.N) (h23 : t.val % 24 = 23) (u : Fin 1) (r : Fin 1024) (z : Fin 1) :
    (outsAt0 V c t.val t.isLt).2.1 (ix3 u r z) = ∑ k ∈ range 24, sqStep (feat0 V c) r (t.val - 23 + k) := by
  have h0 : ¬ t.val % 24 = 0 := by omega
  have e := congrArg (fun p => p.2.1) (outsAt0_C V c t h0 h23)
  dsimp only at e
  rw [e]
  refine (outC0_2_apply c t (fun h => h0 ((hcond0_0 t).mp h)) ((hcond0_1 t).mpr h23) (iblk0 V c 0 t) _ _ u r z).trans ?_
  show sqAcc (blk V c t) _ (ix2 r z) = _
  rw [sqAcc_apply, blockSq V c t r, acc1_closed V c r z (t.val - 1) _]
  have e1 : (t.val - 1) % 24 + 1 = 23 := by omega
  have e2 : t.val - 1 - (t.val - 1) % 24 = t.val - 23 := by omega
  have e3 : t.val - 23 + 23 = t.val := by omega
  rw [e1, e2, Finset.sum_range_succ _ 23, e3]

/-- The array of row sums of squares: at (s, i, ·) the shard's partial sum for row i. -/
def sqArr : S2x1024x1.Idx → EReal :=
  fun i => Cert.Spec.sqP (feat0 V c) ⟨(i 0).val, idx3_lt0 i⟩ ⟨(i 1).val, idx3_lt1 i⟩

/-- What the last step of a shard writes back is the block of that array. -/
theorem flushed2_eq (t : Fin cfg0.N) (hf : (cfg0.win 2).flush t = true) :
    (dat0 V c).flushed 2 t = ((cfg0.win 2).blk t).view.read (Elt Ideal) (sqArr V c) := by
  have h23 : t.val % 24 = 23 := (flush0_2 t).mp hf
  have hN : t.val < 48 := lt_of_lt_of_eq t.isLt N48
  show (cfg0.win 2).cut (grid0.coords t) ((dat0 V c).after 2 t) = _
  rw [after0_2]
  funext y
  rw [View.read_apply]
  obtain ⟨u, r, z, rfl⟩ : ∃ (u : Fin 1) (r : Fin 1024) (z : Fin 1), y = (ix3 u r z : S1x1024x1.Idx) :=
    ⟨y 0, y 1, y 2, eq_ix3 y⟩
  show (outsAt0 V c t.val t.isLt).2.1 (ix3 u r z) = sqArr V c (((cfg0.win 2).blk t).view.emb (ix3 u r z))
  rw [win2_closed V c t h23 u r z]
  obtain ⟨e0, e1, e2⟩ := idx_out2 t
  have c0 : ((((cfg0.win 2).blk t).view.emb (ix3 u r z) : S2x1024x1.Idx) 0).val = t.val / 24 := by
    show win0_2.index t (0 : Fin 3) * 1 + 1 * u.val = t.val / 24
    have := u.isLt; rw [e0]; omega
  have c1 : ((((cfg0.win 2).blk t).view.emb (ix3 u r z) : S2x1024x1.Idx) 1).val = r.val := by
    show win0_2.index t (1 : Fin 3) * 1024 + 1 * r.val = r.val
    rw [e1]; omega
  unfold sqArr
  have hs : (⟨((((cfg0.win 2).blk t).view.emb (ix3 u r z) : S2x1024x1.Idx) 0).val, idx3_lt0 _⟩ : Fin 2) = ⟨t.val / 24, by omega⟩ :=
    Fin.ext c0
  have hr : (⟨((((cfg0.win 2).blk t).view.emb (ix3 u r z) : S2x1024x1.Idx) 1).val, idx3_lt1 _⟩ : Fin 1024) = r := Fin.ext c1
  rw [hs, hr, ← shard_sq]
  have e4 : t.val - 23 = t.val / 24 * 24 := by omega
  rw [e4]

/-- An index of the array is in point t's block iff each coordinate is in the block's range. -/
theorem mem_blk2 (t : Fin cfg0.N) (i : S2x1024x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v1_1).slice (win0_2.rect t)).set ↔ _
  rw [View.set_slice_whole, Rect.mem_set_unit]
  exact Iff.rfl

/-- The two shards' last steps cover the array. -/
theorem cover2 (i : S2x1024x1.Idx) : ∃ t : Fin cfg0.N, (cfg0.win 2).flush t = true ∧ i ∈ ((cfg0.win 2).blk t).view.set := by
  have h0 : (i 0).val < 2 := idx3_lt0 i
  have h1 : (i 1).val < 1024 := idx3_lt1 i
  have h2 : (i 2).val < 1 := idx3_lt2 i
  refine ⟨⟨(i 0).val * 24 + 23, by rw [N48]; omega⟩, (flush0_2 _).mpr (by show ((i 0).val * 24 + 23) % 24 = 23; omega), ?_⟩
  rw [mem_blk2]
  obtain ⟨e0, e1, e2⟩ := idx_out2 ⟨(i 0).val * 24 + 23, by rw [N48]; omega⟩
  intro a
  match a with
  | ⟨0, _⟩ =>
    show win0_2.index _ (0 : Fin 3) * 1 ≤ (i 0).val ∧ (i 0).val < win0_2.index _ (0 : Fin 3) * 1 + 1
    rw [e0]; show ((i 0).val * 24 + 23) / 24 * 1 ≤ (i 0).val ∧ (i 0).val < ((i 0).val * 24 + 23) / 24 * 1 + 1; omega
  | ⟨1, _⟩ =>
    show win0_2.index _ (1 : Fin 3) * 1024 ≤ (i 1).val ∧ (i 1).val < win0_2.index _ (1 : Fin 3) * 1024 + 1024
    rw [e1]; omega
  | ⟨2, _⟩ =>
    show win0_2.index _ (2 : Fin 3) * 1 ≤ (i 2).val ∧ (i 2).val < win0_2.index _ (2 : Fin 3) * 1 + 1
    rw [e2]; omega

/-- The result array of row sums of squares after the run. -/
theorem sq_final : (dat0 V c).arrAt 2 cfg0.N = sqArr V c :=
  (dat0 V c).arrAt_eq_of_cover 2 (sqArr V c) (flushed2_eq V c) (cover2)

theorem sqParts_eq (s : Fin 2) (i : Fin 1024) :
    ((dat0 (F := Ideal) V c).arrAt 2 cfg0.N : S2x1024x1.Idx → EReal) (ix3 s i (0 : Fin 1))
      = Cert.Spec.sqP (fun a k => (V c main_v0 : S1024x49152.Idx → EReal) (ix2 a k)) s i :=
  congrFun (sq_final V c) (ix3 s i (0 : Fin 1))

end Cert.KernelIdeal.Hand

end
-- ==== Proof.KI.R0ValGr3.lean ====
/-
  The result array of Gram products: the last step of shard s (point s·24 + 23) writes the Gram accumulator, which
  then holds on and above the diagonal 256-tiles the sum over the shard's 24 steps and zero below them, into block s
  of the array; the two blocks cover the array, so the array at (s, i, j) is the shard's partial Gram product of rows
  i and j when i / 256 ≤ j / 256, and zero otherwise.
-/
import proofs.«167578_j20134806684259_2_alg».proof.Proof.KI.R0ValGr2
import proofs.«167578_j20134806684259_2_alg».proof.Proof.KI.R0ValSq3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

open Finset

variable (V : (c : Dev nD) → (b : Ref sig .tc) → Buf (Elt Ideal) ((c : Thread nD τ).loc b)) (c : Dev nD)

/-- The Gram output window: block (t / 24, 0, 0). -/
theorem idx_out1 : ∀ t : Fin cfg0.N, win0_1.index t (0 : Fin 3) = t.val / 24 ∧ win0_1.index t (1 : Fin 3) = 0
    ∧ win0_1.index t (2 : Fin 3) = 0 :=
  (by decide +kernel : ∀ t : Fin grid0.N, win0_1.index t (0 : Fin 3) = t.val / 24 ∧ win0_1.index t (1 : Fin 3) = 0
    ∧ win0_1.index t (2 : Fin 3) = 0)

/-- The shard's sum over its 24 steps, guarded by the tile condition, is the specification's partial Gram product. -/
theorem shard_gr (f : Fin 1024 → Fin 49152 → EReal) (s : Fin 2) (i j : Fin 1024) :
    (if i.val / 256 ≤ j.val / 256 then ∑ k ∈ range 24, grStep f i j (s.val * 24 + k) else 0) = Cert.Spec.gramP f s i j := by
  unfold Cert.Spec.gramP
  refine if_congr Iff.rfl ?_ rfl
  rw [← Fin.sum_univ_eq_sum_range (fun k => grStep f i j (s.val * 24 + k)) 24]
  refine Finset.sum_congr rfl fun kk _ => ?_
  unfold grStep
  have := s.isLt; have := kk.isLt
  rw [dif_pos (by omega)]
  rfl

/-- The output window at the last step of a shard. -/
theorem win1_closed (hA : CaseA c) (t : Fin cfg0.N) (h23 : t.val % 24 = 23) (u : Fin 1) (i j : Fin 1024) :
    (outsAt0 V c t.val t.isLt).1 (ix3 u i j)
      = if i.val / 256 ≤ j.val / 256 then ∑ k ∈ range 24, grStep (feat0 V c) i j (t.val - 23 + k) else 0 := by
  have h0 : ¬ t.val % 24 = 0 := by omega
  have e := congrArg (fun p => p.1) (outsAt0_C V c t h0 h23)
  dsimp only at e
  rw [e]
  refine (outC0_1_apply c t (fun h => h0 ((hcond0_0 t).mp h)) ((hcond0_1 t).mpr h23) (iblk0 V c 0 t) _ _ u i j).trans ?_
  refine (soutC0_0_apply c t (fun h => h0 ((hcond0_0 t).mp h)) ((hcond0_1 t).mpr h23) (iblk0 V c 0 t) _ _ (ix2 i j)).trans ?_
  show (if i.val / 256 ≤ j.val / 256 then gramAcc (blk V c t) _ (ix2 i j) else _) = _
  rw [gramAcc_apply, blockGr V c t i j, acc0_closed V c hA i j (t.val - 1) _]
  by_cases hu : i.val / 256 ≤ j.val / 256
  · rw [if_pos hu, if_pos hu, if_pos hu]
    have e1 : (t.val - 1) % 24 + 1 = 23 := by omega
    have e2 : t.val - 1 - (t.val - 1) % 24 = t.val - 23 := by omega
    have e3 : t.val - 23 + 23 = t.val := by omega
    rw [e1, e2, Finset.sum_range_succ _ 23, e3]
  · rw [if_neg hu, if_neg hu, if_neg hu]

/-- The array of Gram products: at (s, i, j) the shard's partial Gram product. -/
def grArr : S2x1024x1024.Idx → EReal :=
  fun x => Cert.Spec.gramP (feat0 V c) ⟨(x 0).val, idx3_lt0 x⟩ ⟨(x 1).val, idx3_lt1 x⟩ ⟨(x 2).val, idx3_lt2 x⟩

/-- What the last step of a shard writes back is the block of that array. -/
theorem flushed1_eq (hA : CaseA c) (t : Fin cfg0.N) (hf : (cfg0.win 1).flush t = true) :
    (dat0 V c).flushed 1 t = ((cfg0.win 1).blk t).view.read (Elt Ideal) (grArr V c) := by
  have h23 : t.val % 24 = 23 := (flush0_1 t).mp hf
  have hN : t.val < 48 := lt_of_lt_of_eq t.isLt N48
  show (cfg0.win 1).cut (grid0.coords t) ((dat0 V c).after 1 t) = _
  rw [after0_1]
  funext y
  rw [View.read_apply]
  obtain ⟨u, i, j, rfl⟩ : ∃ (u : Fin 1) (i : Fin 1024) (j : Fin 1024), y = (ix3 u i j : S1x1024x1024.Idx) :=
    ⟨y 0, y 1, y 2, eq_ix3 y⟩
  show (outsAt0 V c t.val t.isLt).1 (ix3 u i j) = grArr V c (((cfg0.win 1).blk t).view.emb (ix3 u i j))
  rw [win1_closed V c hA t h23 u i j]
  obtain ⟨e0, e1, e2⟩ := idx_out1 t
  have c0 : ((((cfg0.win 1).blk t).view.emb (ix3 u i j) : S2x1024x1024.Idx) 0).val = t.val / 24 := by
    show win0_1.index t (0 : Fin 3) * 1 + 1 * u.val = t.val / 24
    have := u.isLt; rw [e0]; omega
  have c1 : ((((cfg0.win 1).blk t).view.emb (ix3 u i j) : S2x1024x1024.Idx) 1).val = i.val := by
    show win0_1.index t (1 : Fin 3) * 1024 + 1 * i.val = i.val
    rw [e1]; omega
  have c2 : ((((cfg0.win 1).blk t).view.emb (ix3 u i j) : S2x1024x1024.Idx) 2).val = j.val := by
    show win0_1.index t (2 : Fin 3) * 1024 + 1 * j.val = j.val
    rw [e2]; omega
  unfold grArr
  have hs : (⟨((((cfg0.win 1).blk t).view.emb (ix3 u i j) : S2x1024x1024.Idx) 0).val, idx3_lt0 _⟩ : Fin 2) = ⟨t.val / 24, by omega⟩ :=
    Fin.ext c0
  have hi : (⟨((((cfg0.win 1).blk t).view.emb (ix3 u i j) : S2x1024x1024.Idx) 1).val, idx3_lt1 _⟩ : Fin 1024) = i := Fin.ext c1
  have hj : (⟨((((cfg0.win 1).blk t).view.emb (ix3 u i j) : S2x1024x1024.Idx) 2).val, idx3_lt2 _⟩ : Fin 1024) = j := Fin.ext c2
  rw [hs, hi, hj, ← shard_gr]
  have e4 : t.val - 23 = t.val / 24 * 24 := by omega
  rw [e4]

/-- An index of the array is in point t's block iff each coordinate is in the block's range. -/
theorem mem_blk1 (t : Fin cfg0.N) (x : S2x1024x1024.Idx) :
    x ∈ ((cfg0.win 1).blk t).view.set ↔ ∀ a : Fin 3, win0_1.index t a * S1x1024x1024.size a ≤ (x a).val
      ∧ (x a).val < win0_1.index t a * S1x1024x1024.size a + S1x1024x1024.size a := by
  show x ∈ ((View.whole main_v1_0).slice (win0_1.rect t)).set ↔ _
  rw [View.set_slice_whole, Rect.mem_set_unit]
  exact Iff.rfl

/-- The two shards' last steps cover the array. -/
theorem cover1 (x : S2x1024x1024.Idx) : ∃ t : Fin cfg0.N, (cfg0.win 1).flush t = true ∧ x ∈ ((cfg0.win 1).blk t).view.set := by
  have h0 : (x 0).val < 2 := idx3_lt0 x
  have h1 : (x 1).val < 1024 := idx3_lt1 x
  have h2 : (x 2).val < 1024 := idx3_lt2 x
  refine ⟨⟨(x 0).val * 24 + 23, by rw [N48]; omega⟩, (flush0_1 _).mpr (by show ((x 0).val * 24 + 23) % 24 = 23; omega), ?_⟩
  rw [mem_blk1]
  obtain ⟨e0, e1, e2⟩ := idx_out1 ⟨(x 0).val * 24 + 23, by rw [N48]; omega⟩
  intro a
  match a with
  | ⟨0, _⟩ =>
    show win0_1.index _ (0 : Fin 3) * 1 ≤ (x 0).val ∧ (x 0).val < win0_1.index _ (0 : Fin 3) * 1 + 1
    rw [e0]; show ((x 0).val * 24 + 23) / 24 * 1 ≤ (x 0).val ∧ (x 0).val < ((x 0).val * 24 + 23) / 24 * 1 + 1; omega
  | ⟨1, _⟩ =>
    show win0_1.index _ (1 : Fin 3) * 1024 ≤ (x 1).val ∧ (x 1).val < win0_1.index _ (1 : Fin 3) * 1024 + 1024
    rw [e1]; omega
  | ⟨2, _⟩ =>
    show win0_1.index _ (2 : Fin 3) * 1024 ≤ (x 2).val ∧ (x 2).val < win0_1.index _ (2 : Fin 3) * 1024 + 1024
    rw [e2]; omega

/-- The result array of Gram products after the run. -/
theorem gr_final (hA : CaseA c) : (dat0 V c).arrAt 1 cfg0.N = grArr V c :=
  (dat0 V c).arrAt_eq_of_cover 1 (grArr V c) (flushed1_eq V c hA) (cover1)

theorem gramParts_eq_of (hA : CaseA c) (s : Fin 2) (i j : Fin 1024) :
    ((dat0 (F := Ideal) V c).arrAt 1 cfg0.N : S2x1024x1024.Idx → EReal) (ix3 s i j)
      = Cert.Spec.gramP (fun a k => (V c main_v0 : S1024x49152.Idx → EReal) (ix2 a k)) s i j :=
  congrFun (gr_final V c hA) (ix3 s i j)

end Cert.KernelIdeal.Hand

end
-- ==== Proof.KI.R0ValA0.lean ====
/-
  The Gram accumulator through the first step of a shard: the accumulator is filled with zeros, then each of the
  ten 256-tiles on or above the diagonal is loaded back (it still holds zeros: no earlier tile store overlaps it),
  gains the product of the block's two row slabs and is stored; the six tiles below the diagonal keep the zeros.
  Tile by tile, in the order of the stores.
-/
import proofs.«167578_j20134806684259_2_alg».proof.Proof.KI.R0ValB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

variable (c : Dev nD) (t : Fin cfg0.N)

/-- The zero fill. -/
theorem pay7_apply (y : S1024x1024.Idx) : k0_pay7 (F := Ideal) y = 0 := by
  unfold k0_pay7
  rw [shapeCast_self]
  show Ideal.ofBits .f32 0x00000000#32 = 0
  exact Ideal.ofBits_zero_f32

/-- After the zero fill alone every entry is 0. -/
theorem canonA_1 (y : S1024x1024.Idx) : View.canon (kernelRun0_A.sl.HS0_1 (F := Ideal)) y = (0 : EReal) := by
  unfold kernelRun0_A.sl.HS0_1
  rw [View.canon_unit_zero hz2]
  exact pay7_apply y

set_option maxHeartbeats 1000000 in
theorem canonA_2 (x0 : Vec Ideal S1024x1024 .f32) (y : S1024x1024.Idx) :
    View.canon (kernelRun0_A.sl.HS0_2 (F := Ideal) c (ms0_0 t) (hs0_0 t) scM0_0 x0) y
      = if ((y 0).val / 256 = 0 ∧ (y 1).val / 256 = 0) then gramAcc x0 (fun _ => 0) y else 0 := by
  have hi : (y 0).val < 1024 := idx2_lt0 y
  have hj : (y 1).val < 1024 := idx2_lt1 y
  unfold kernelRun0_A.sl.HS0_2
  by_cases hm : (y 0).val / 256 = 0 ∧ (y 1).val / 256 = 0
  · obtain ⟨x, rfl⟩ : ∃ x : S256x256.Idx, y = (Rect.unit (s := S1024x1024) ![0, 0] S256x256.size inb_S1024x1024_S256x256_0_0).emb x :=
      ⟨ix2 ⟨(y 0).val - 0, by omega⟩ ⟨(y 1).val - 0, by omega⟩, funext fun ax => Fin.ext (by
        match ax with
        | ⟨0, _⟩ => show (y 0).val = 0 + 1 * ((y 0).val - 0); omega
        | ⟨1, _⟩ => show (y 1).val = 0 + 1 * ((y 1).val - 0); omega)⟩
    rw [View.canon_cons_emb, if_pos (by omega)]
    have hv : kernelRun0_A.sl.v17 (F := Ideal) c scM0_0 = View.ld (fun _ => (0 : EReal)) (Rect.unit (s := S1024x1024) ![0, 0] S256x256.size inb_S1024x1024_S256x256_0_0) := by
      unfold kernelRun0_A.sl.v17
      rw [View.readCov_eq_canon']
      funext j
      have hj0 : (j 0).val < 256 := idx2_lt0 j
      have hj1 : (j 1).val < 256 := idx2_lt1 j
      have c0 : (((Rect.unit (s := S1024x1024) ![0, 0] S256x256.size inb_S1024x1024_S256x256_0_0).toLoadRect.idx j : S1024x1024.Idx) 0).val = 0 + 1 * (j 0).val := rfl
      have c1 : (((Rect.unit (s := S1024x1024) ![0, 0] S256x256.size inb_S1024x1024_S256x256_0_0).toLoadRect.idx j : S1024x1024.Idx) 1).val = 0 + 1 * (j 1).val := rfl
      exact canonA_1 _
    rw [hv]
    simp only [View.readAt_eq_ld, (hs0_0 t).read_unread, View.ld_unit_zero (S := S1024x1024) hz2]
    unfold k0_pay13 k0_pay12
    simp only [shapeCast_self]
    exact tilePiece x0 (fun _ => 0) 0 0 _ _ (by omega) (by omega) _ x
  · rw [View.canon_cons_of_not_mem _ _ (by
      rw [Rect.mem_set_unit]
      intro h
      have h0 : 0 ≤ (y 0).val ∧ (y 0).val < 0 + 256 := h 0
      have h1 : 0 ≤ (y 1).val ∧ (y 1).val < 0 + 256 := h 1
      omega)]
    refine (canonA_1 y).trans ?_
    exact (if_neg hm).symm

set_option maxHeartbeats 1000000 in
theorem canonA_3 (x0 : Vec Ideal S1024x1024 .f32) (y : S1024x1024.Idx) :
    View.canon (kernelRun0_A.sl.HS0_3 (F := Ideal) c (ms0_0 t) (hs0_0 t) scM0_0 x0) y
      = if ((y 0).val / 256 = 0 ∧ (y 1).val / 256 = 0) ∨ ((y 0).val / 256 = 0 ∧ (y 1).val / 256 = 1) then gramAcc x0 (fun _ => 0) y else 0 := by
  have hi : (y 0).val < 1024 := idx2_lt0 y
  have hj : (y 1).val < 1024 := idx2_lt1 y
  unfold kernelRun0_A.sl.HS0_3
  by_cases hm : (y 0).val / 256 = 0 ∧ (y 1).val / 256 = 1
  · obtain ⟨x, rfl⟩ : ∃ x : S256x256.Idx, y = (Rect.unit (s := S1024x1024) ![0, 256] S256x256.size inb_S1024x1024_S256x256_0_256).emb x :=
      ⟨ix2 ⟨(y 0).val - 0, by omega⟩ ⟨(y 1).val - 256, by omega⟩, funext fun ax => Fin.ext (by
        match ax with
        | ⟨0, _⟩ => show (y 0).val = 0 + 1 * ((y 0).val - 0); omega
        | ⟨1, _⟩ => show (y 1).val = 256 + 1 * ((y 1).val - 256); omega)⟩
    rw [View.canon_cons_emb, if_pos (by omega)]
    have hv : kernelRun0_A.sl.v24 (F := Ideal) c (ms0_0 t) (hs0_0 t) scM0_0 x0 = View.ld (fun _ => (0 : EReal)) (Rect.unit (s := S1024x1024) ![0, 256] S256x256.size inb_S1024x1024_S256x256_0_256) := by
      unfold kernelRun0_A.sl.v24
      rw [View.readCov_eq_canon']
      funext j
      have hj0 : (j 0).val < 256 := idx2_lt0 j
      have hj1 : (j 1).val < 256 := idx2_lt1 j
      have c0 : (((Rect.unit (s := S1024x1024) ![0, 256] S256x256.size inb_S1024x1024_S256x256_0_256).toLoadRect.idx j : S1024x1024.Idx) 0).val = 0 + 1 * (j 0).val := rfl
      have c1 : (((Rect.unit (s := S1024x1024) ![0, 256] S256x256.size inb_S1024x1024_S256x256_0_256).toLoadRect.idx j : S1024x1024.Idx) 1).val = 256 + 1 * (j 1).val := rfl
      refine (canonA_2 c t x0 _).trans ?_
      exact if_neg (by omega)
    rw [hv]
    simp only [View.readAt_eq_ld, (hs0_0 t).read_unread, View.ld_unit_zero (S := S1024x1024) hz2]
    unfold k0_pay14 k0_pay12
    simp only [shapeCast_self]
    exact tilePiece x0 (fun _ => 0) 0 256 _ _ (by omega) (by omega) _ x
  · rw [View.canon_cons_of_not_mem _ _ (by
      rw [Rect.mem_set_unit]
      intro h
      have h0 : 0 ≤ (y 0).val ∧ (y 0).val < 0 + 256 := h 0
      have h1 : 256 ≤ (y 1).val ∧ (y 1).val < 256 + 256 := h 1
      omega)]
    refine (canonA_2 c t x0 y).trans ?_
    exact if_congr (by omega) rfl rfl

set_option maxHeartbeats 1000000 in
theorem canonA_4 (x0 : Vec Ideal S1024x1024 .f32) (y : S1024x1024.Idx) :
    View.canon (kernelRun0_A.sl.HS0_4 (F := Ideal) c (ms0_0 t) (hs0_0 t) scM0_0 x0) y
      = if ((y 0).val / 256 = 0 ∧ (y 1).val / 256 = 0) ∨ ((y 0).val / 256 = 0 ∧ (y 1).val / 256 = 1) ∨ ((y 0).val / 256 = 0 ∧ (y 1).val / 256 = 2) then gramAcc x0 (fun _ => 0) y else 0 := by
  have hi : (y 0).val < 1024 := idx2_lt0 y
  have hj : (y 1).val < 1024 := idx2_lt1 y
  unfold kernelRun0_A.sl.HS0_4
  by_cases hm : (y 0).val / 256 = 0 ∧ (y 1).val / 256 = 2
  · obtain ⟨x, rfl⟩ : ∃ x : S256x256.Idx, y = (Rect.unit (s := S1024x1024) ![0, 512] S256x256.size inb_S1024x1024_S256x256_0_512).emb x :=
      ⟨ix2 ⟨(y 0).val - 0, by omega⟩ ⟨(y 1).val - 512, by omega⟩, funext fun ax => Fin.ext (by
        match ax with
        | ⟨0, _⟩ => show (y 0).val = 0 + 1 * ((y 0).val - 0); omega
        | ⟨1, _⟩ => show (y 1).val = 512 + 1 * ((y 1).val - 512); omega)⟩
    rw [View.canon_cons_emb, if_pos (by omega)]
    have hv : kernelRun0_A.sl.v31 (F := Ideal) c (ms0_0 t) (hs0_0 t) scM0_0 x0 = View.ld (fun _ => (0 : EReal)) (Rect.unit (s := S1024x1024) ![0, 512] S256x256.size inb_S1024x1024_S256x256_0_512) := by
      unfold kernelRun0_A.sl.v31
      rw [View.readCov_eq_canon']
      funext j
      have hj0 : (j 0).val < 256 := idx2_lt0 j
      have hj1 : (j 1).val < 256 := idx2_lt1 j
      have c0 : (((Rect.unit (s := S1024x1024) ![0, 512] S256x256.size inb_S1024x1024_S256x256_0_512).toLoadRect.idx j : S1024x1024.Idx) 0).val = 0 + 1 * (j 0).val := rfl
      have c1 : (((Rect.unit (s := S1024x1024) ![0, 512] S256x256.size inb_S1024x1024_S256x256_0_512).toLoadRect.idx j : S1024x1024.Idx) 1).val = 512 + 1 * (j 1).val := rfl
      refine (canonA_3 c t x0 _).trans ?_
      exact if_neg (by omega)
    rw [hv]
    unfold kernelRun0_A.sl.r_2
    simp only [View.readAt_eq_ld, (hs0_0 t).read_unread, View.ld_unit_zero (S := S1024x1024) hz2]
    unfold k0_pay16 k0_pay15 k0_pay12
    simp only [shapeCast_self]
    exact tilePiece x0 (fun _ => 0) 0 512 _ _ (by omega) (by omega) _ x
  · rw [View.canon_cons_of_not_mem _ _ (by
      rw [Rect.mem_set_unit]
      intro h
      have h0 : 0 ≤ (y 0).val ∧ (y 0).val < 0 + 256 := h 0
      have h1 : 512 ≤ (y 1).val ∧ (y 1).val < 512 + 256 := h 1
      omega)]
    refine (canonA_3 c t x0 y).trans ?_
    exact if_congr (by omega) rfl rfl

set_option maxHeartbeats 1000000 in
theorem canonA_5 (x0 : Vec Ideal S1024x1024 .f32) (y : S1024x1024.Idx) :
    View.canon (kernelRun0_A.sl.HS0_5 (F := Ideal) c (ms0_0 t) (hs0_0 t) scM0_0 x0) y
      = if ((y 0).val / 256 = 0 ∧ (y 1).val / 256 = 0) ∨ ((y 0).val / 256 = 0 ∧ (y 1).val / 256 = 1) ∨ ((y 0).val / 256 = 0 ∧ (y 1).val / 256 = 2) ∨ ((y 0).val / 256 = 0 ∧ (y 1).val / 256 = 3) then gramAcc x0 (fun _ => 0) y else 0 := by
  have hi : (y 0).val < 1024 := idx2_lt0 y
  have hj : (y 1).val < 1024 := idx2_lt1 y
  unfold kernelRun0_A.sl.HS0_5
  by_cases hm : (y 0).val / 256 = 0 ∧ (y 1).val / 256 = 3
  · obtain ⟨x, rfl⟩ : ∃ x : S256x256.Idx, y = (Rect.unit (s := S1024x1024) ![0, 768] S256x256.size inb_S1024x1024_S256x256_0_768).emb x :=
      ⟨ix2 ⟨(y 0).val - 0, by omega⟩ ⟨(y 1).val - 768, by omega⟩, funext fun ax => Fin.ext (by
        match ax with
        | ⟨0, _⟩ => show (y 0).val = 0 + 1 * ((y 0).val - 0); omega
        | ⟨1, _⟩ => show (y 1).val = 768 + 1 * ((y 1).val - 768); omega)⟩
    rw [View.canon_cons_emb, if_pos (by omega)]
    have hv : kernelRun0_A.sl.v38 (F := Ideal) c (ms0_0 t) (hs0_0 t) scM0_0 x0 = View.ld (fun _ => (0 : EReal)) (Rect.unit (s := S1024x1024) ![0, 768] S256x256.size inb_S1024x1024_S256x256_0_768) := by
      unfold kernelRun0_A.sl.v38
      rw [View.readCov_eq_canon']
      funext j
      have hj0 : (j 0).val < 256 := idx2_lt0 j
      have hj1 : (j 1).val < 256 := idx2_lt1 j
      have c0 : (((Rect.unit (s := S1024x1024) ![0, 768] S256x256.size inb_S1024x1024_S256x256_0_768).toLoadRect.idx j : S1024x1024.Idx) 0).val = 0 + 1 * (j 0).val := rfl
      have c1 : (((Rect.unit (s := S1024x1024) ![0, 768] S256x256.size inb_S1024x1024_S256x256_0_768).toLoadRect.idx j : S1024x1024.Idx) 1).val = 768 + 1 * (j 1).val := rfl
      refine (canonA_4 c t x0 _).trans ?_
      exact if_neg (by omega)
    rw [hv]
    unfold kernelRun0_A.sl.r kernelRun0_A.sl.r_1
    simp only [View.readAt_eq_ld, (hs0_0 t).read_unread, View.ld_unit_zero (S := S1024x1024) hz2]
    unfold k0_pay17 k0_pay12
    simp only [shapeCast_self]
    exact tilePiece x0 (fun _ => 0) 0 768 _ _ (by omega) (by omega) _ x
  · rw [View.canon_cons_of_not_mem _ _ (by
      rw [Rect.mem_set_unit]
      intro h
      have h0 : 0 ≤ (y 0).val ∧ (y 0).val < 0 + 256 := h 0
      have h1 : 768 ≤ (y 1).val ∧ (y 1).val < 768 + 256 := h 1
      omega)]
    refine (canonA_4 c t x0 y).trans ?_
    exact if_congr (by omega) rfl rfl

set_option maxHeartbeats 1000000 in
theorem canonA_6 (x0 : Vec Ideal S1024x1024 .f32) (y : S1024x1024.Idx) :
    View.canon (kernelRun0_A.sl.HS0_6 (F := Ideal) c (ms0_0 t) (hs0_0 t) scM0_0 x0) y
      = if ((y 0).val / 256 = 0 ∧ (y 1).val / 256 = 0) ∨ ((y 0).val / 256 = 0 ∧ (y 1).val / 256 = 1) ∨ ((y 0).val / 256 = 0 ∧ (y 1).val / 256 = 2) ∨ ((y 0).val / 256 = 0 ∧ (y 1).val / 256 = 3) ∨ ((y 0).val / 256 = 1 ∧ (y 1).val / 256 = 1) then gramAcc x0 (fun _ => 0) y else 0 := by
  have hi : (y 0).val < 1024 := idx2_lt0 y
  have hj : (y 1).val < 1024 := idx2_lt1 y
  unfold kernelRun0_A.sl.HS0_6
  by_cases hm : (y 0).val / 256 = 1 ∧ (y 1).val / 256 = 1
  · obtain ⟨x, rfl⟩ : ∃ x : S256x256.Idx, y = (Rect.unit (s := S1024x1024) ![256, 256] S256x256.size inb_S1024x1024_S256x256_256_256).emb x :=
      ⟨ix2 ⟨(y 0).val - 256, by omega⟩ ⟨(y 1).val - 256, by omega⟩, funext fun ax => Fin.ext (by
        match ax with
        | ⟨0, _⟩ => show (y 0).val = 256 + 1 * ((y 0).val - 256); omega
        | ⟨1, _⟩ => show (y 1).val = 256 + 1 * ((y 1).val - 256); omega)⟩
    rw [View.canon_cons_emb, if_pos (by omega)]
    have hv : kernelRun0_A.sl.v46 (F := Ideal) c (ms0_0 t) (hs0_0 t) scM0_0 x0 = View.ld (fun _ => (0 : EReal)) (Rect.unit (s := S1024x1024) ![256, 256] S256x256.size inb_S1024x1024_S256x256_256_256) := by
      unfold kernelRun0_A.sl.v46
      rw [View.readCov_eq_canon']
      funext j
      have hj0 : (j 0).val < 256 := idx2_lt0 j
      have hj1 : (j 1).val < 256 := idx2_lt1 j
      have c0 : (((Rect.unit (s := S1024x1024) ![256, 256] S256x256.size inb_S1024x1024_S256x256_256_256).toLoadRect.idx j : S1024x1024.Idx) 0).val = 256 + 1 * (j 0).val := rfl
      have c1 : (((Rect.unit (s := S1024x1024) ![256, 256] S256x256.size inb_S1024x1024_S256x256_256_256).toLoadRect.idx j : S1024x1024.Idx) 1).val = 256 + 1 * (j 1).val := rfl
      refine (canonA_5 c t x0 _).trans ?_
      exact if_neg (by omega)
    rw [hv]
    unfold kernelRun0_A.sl.r
    simp only [View.readAt_eq_ld, (hs0_0 t).read_unread, View.ld_unit_zero (S := S1024x1024) hz2]
    unfold k0_pay19 k0_pay18
    simp only [shapeCast_self]
    exact tilePiece x0 (fun _ => 0) 256 256 _ _ (by omega) (by omega) _ x
  · rw [View.canon_cons_of_not_mem _ _ (by
      rw [Rect.mem_set_unit]
      intro h
      have h0 : 256 ≤ (y 0).val ∧ (y 0).val < 256 + 256 := h 0
      have h1 : 256 ≤ (y 1).val ∧ (y 1).val < 256 + 256 := h 1
      omega)]
    refine (canonA_5 c t x0 y).trans ?_
    exact if_congr (by omega) rfl rfl

set_option maxHeartbeats 1000000 in
theorem canonA_7 (x0 : Vec Ideal S1024x1024 .f32) (y : S1024x1024.Idx) :
    View.canon (kernelRun0_A.sl.HS0_7 (F := Ideal) c (ms0_0 t) (hs0_0 t) scM0_0 x0) y
      = if ((y 0).val / 256 = 0 ∧ (y 1).val / 256 = 0) ∨ ((y 0).val / 256 = 0 ∧ (y 1).val / 256 = 1) ∨ ((y 0).val / 256 = 0 ∧ (y 1).val / 256 = 2) ∨ ((y 0).val / 256 = 0 ∧ (y 1).val / 256 = 3) ∨ ((y 0).val / 256 = 1 ∧ (y 1).val / 256 = 1) ∨ ((y 0).val / 256 = 1 ∧ (y 1).val / 256 = 2) then gramAcc x0 (fun _ => 0) y else 0 := by
  have hi : (y 0).val < 1024 := idx2_lt0 y
  have hj : (y 1).val < 1024 := idx2_lt1 y
  unfold kernelRun0_A.sl.HS0_7
  by_cases hm : (y 0).val / 256 = 1 ∧ (y 1).val / 256 = 2
  · obtain ⟨x, rfl⟩ : ∃ x : S256x256.Idx, y = (Rect.unit (s := S1024x1024) ![256, 512] S256x256.size inb_S1024x1024_S256x256_256_512).emb x :=
      ⟨ix2 ⟨(y 0).val - 256, by omega⟩ ⟨(y 1).val - 512, by omega⟩, funext fun ax => Fin.ext (by
        match ax with
        | ⟨0, _⟩ => show (y 0).val = 256 + 1 * ((y 0).val - 256); omega
        | ⟨1, _⟩ => show (y 1).val = 512 + 1 * ((y 1).val - 512); omega)⟩
    rw [View.canon_cons_emb, if_pos (by omega)]
    have hv : kernelRun0_A.sl.v53 (F := Ideal) c (ms0_0 t) (hs0_0 t) scM0_0 x0 = View.ld (fun _ => (0 : EReal)) (Rect.unit (s := S1024x1024) ![256, 512] S256x256.size inb_S1024x1024_S256x256_256_512) := by
      unfold kernelRun0_A.sl.v53
      rw [View.readCov_eq_canon']
      funext j
      have hj0 : (j 0).val < 256 := idx2_lt0 j
      have hj1 : (j 1).val < 256 := idx2_lt1 j
      have c0 : (((Rect.unit (s := S1024x1024) ![256, 512] S256x256.size inb_S1024x1024_S256x256_256_512).toLoadRect.idx j : S1024x1024.Idx) 0).val = 256 + 1 * (j 0).val := rfl
      have c1 : (((Rect.unit (s := S1024x1024) ![256, 512] S256x256.size inb_S1024x1024_S256x256_256_512).toLoadRect.idx j : S1024x1024.Idx) 1).val = 512 + 1 * (j 1).val := rfl
      refine (canonA_6 c t x0 _).trans ?_
      exact if_neg (by omega)
    rw [hv]
    unfold kernelRun0_A.sl.r
    simp only [View.readAt_eq_ld, (hs0_0 t).read_unread, View.ld_unit_zero (S := S1024x1024) hz2]
    unfold k0_pay20 k0_pay18
    simp only [shapeCast_self]
    exact tilePiece x0 (fun _ => 0) 256 512 _ _ (by omega) (by omega) _ x
  · rw [View.canon_cons_of_not_mem _ _ (by
      rw [Rect.mem_set_unit]
      intro h
      have h0 : 256 ≤ (y 0).val ∧ (y 0).val < 256 + 256 := h 0
      have h1 : 512 ≤ (y 1).val ∧ (y 1).val < 512 + 256 := h 1
      omega)]
    refine (canonA_6 c t x0 y).trans ?_
    exact if_congr (by omega) rfl rfl

set_option maxHeartbeats 1000000 in
theorem canonA_8 (x0 : Vec Ideal S1024x1024 .f32) (y : S1024x1024.Idx) :
    View.canon (kernelRun0_A.sl.HS0_8 (F := Ideal) c (ms0_0 t) (hs0_0 t) scM0_0 x0) y
      = if ((y 0).val / 256 = 0 ∧ (y 1).val / 256 = 0) ∨ ((y 0).val / 256 = 0 ∧ (y 1).val / 256 = 1) ∨ ((y 0).val / 256 = 0 ∧ (y 1).val / 256 = 2) ∨ ((y 0).val / 256 = 0 ∧ (y 1).val / 256 = 3) ∨ ((y 0).val / 256 = 1 ∧ (y 1).val / 256 = 1) ∨ ((y 0).val / 256 = 1 ∧ (y 1).val / 256 = 2) ∨ ((y 0).val / 256 = 1 ∧ (y 1).val / 256 = 3) then gramAcc x0 (fun _ => 0) y else 0 := by
  have hi : (y 0).val < 1024 := idx2_lt0 y
  have hj : (y 1).val < 1024 := idx2_lt1 y
  unfold kernelRun0_A.sl.HS0_8
  by_cases hm : (y 0).val / 256 = 1 ∧ (y 1).val / 256 = 3
  · obtain ⟨x, rfl⟩ : ∃ x : S256x256.Idx, y = (Rect.unit (s := S1024x1024) ![256, 768] S256x256.size inb_S1024x1024_S256x256_256_768).emb x :=
      ⟨ix2 ⟨(y 0).val - 256, by omega⟩ ⟨(y 1).val - 768, by omega⟩, funext fun ax => Fin.ext (by
        match ax with
        | ⟨0, _⟩ => show (y 0).val = 256 + 1 * ((y 0).val - 256); omega
        | ⟨1, _⟩ => show (y 1).val = 768 + 1 * ((y 1).val - 768); omega)⟩
    rw [View.canon_cons_emb, if_pos (by omega)]
    have hv : kernelRun0_A.sl.v60 (F := Ideal) c (ms0_0 t) (hs0_0 t) scM0_0 x0 = View.ld (fun _ => (0 : EReal)) (Rect.unit (s := S1024x1024) ![256, 768] S256x256.size inb_S1024x1024_S256x256_256_768) := by
      unfold kernelRun0_A.sl.v60
      rw [View.readCov_eq_canon']
      funext j
      have hj0 : (j 0).val < 256 := idx2_lt0 j
      have hj1 : (j 1).val < 256 := idx2_lt1 j
      have c0 : (((Rect.unit (s := S1024x1024) ![256, 768] S256x256.size inb_S1024x1024_S256x256_256_768).toLoadRect.idx j : S1024x1024.Idx) 0).val = 256 + 1 * (j 0).val := rfl
      have c1 : (((Rect.unit (s := S1024x1024) ![256, 768] S256x256.size inb_S1024x1024_S256x256_256_768).toLoadRect.idx j : S1024x1024.Idx) 1).val = 768 + 1 * (j 1).val := rfl
      refine (canonA_7 c t x0 _).trans ?_
      exact if_neg (by omega)
    rw [hv]
    unfold kernelRun0_A.sl.r
    simp only [View.readAt_eq_ld, (hs0_0 t).read_unread, View.ld_unit_zero (S := S1024x1024) hz2]
    unfold k0_pay21 k0_pay18
    simp only [shapeCast_self]
    exact tilePiece x0 (fun _ => 0) 256 768 _ _ (by omega) (by omega) _ x
  · rw [View.canon_cons_of_not_mem _ _ (by
      rw [Rect.mem_set_unit]
      intro h
      have h0 : 256 ≤ (y 0).val ∧ (y 0).val < 256 + 256 := h 0
      have h1 : 768 ≤ (y 1).val ∧ (y 1).val < 768 + 256 := h 1
      omega)]
    refine (canonA_7 c t x0 y).trans ?_
    exact if_congr (by omega) rfl rfl

set_option maxHeartbeats 1000000 in
theorem canonA_9 (x0 : Vec Ideal S1024x1024 .f32) (y : S1024x1024.Idx) :
    View.canon (kernelRun0_A.sl.HS0_9 (F := Ideal) c (ms0_0 t) (hs0_0 t) scM0_0 x0) y
      = if ((y 0).val / 256 = 0 ∧ (y 1).val / 256 = 0) ∨ ((y 0).val / 256 = 0 ∧ (y 1).val / 256 = 1) ∨ ((y 0).val / 256 = 0 ∧ (y 1).val / 256 = 2) ∨ ((y 0).val / 256 = 0 ∧ (y 1).val / 256 = 3) ∨ ((y 0).val / 256 = 1 ∧ (y 1).val / 256 = 1) ∨ ((y 0).val / 256 = 1 ∧ (y 1).val / 256 = 2) ∨ ((y 0).val / 256 = 1 ∧ (y 1).val / 256 = 3) ∨ ((y 0).val / 256 = 2 ∧ (y 1).val / 256 = 2) then gramAcc x0 (fun _ => 0) y else 0 := by
  have hi : (y 0).val < 1024 := idx2_lt0 y
  have hj : (y 1).val < 1024 := idx2_lt1 y
  unfold kernelRun0_A.sl.HS0_9
  by_cases hm : (y 0).val / 256 = 2 ∧ (y 1).val / 256 = 2
  · obtain ⟨x, rfl⟩ : ∃ x : S256x256.Idx, y = (Rect.unit (s := S1024x1024) ![512, 512] S256x256.size inb_S1024x1024_S256x256_512_512).emb x :=
      ⟨ix2 ⟨(y 0).val - 512, by omega⟩ ⟨(y 1).val - 512, by omega⟩, funext fun ax => Fin.ext (by
        match ax with
        | ⟨0, _⟩ => show (y 0).val = 512 + 1 * ((y 0).val - 512); omega
        | ⟨1, _⟩ => show (y 1).val = 512 + 1 * ((y 1).val - 512); omega)⟩
    rw [View.canon_cons_emb, if_pos (by omega)]
    have hv : kernelRun0_A.sl.v68 (F := Ideal) c (ms0_0 t) (hs0_0 t) scM0_0 x0 = View.ld (fun _ => (0 : EReal)) (Rect.unit (s := S1024x1024) ![512, 512] S256x256.size inb_S1024x1024_S256x256_512_512) := by
      unfold kernelRun0_A.sl.v68
      rw [View.readCov_eq_canon']
      funext j
      have hj0 : (j 0).val < 256 := idx2_lt0 j
      have hj1 : (j 1).val < 256 := idx2_lt1 j
      have c0 : (((Rect.unit (s := S1024x1024) ![512, 512] S256x256.size inb_S1024x1024_S256x256_512_512).toLoadRect.idx j : S1024x1024.Idx) 0).val = 512 + 1 * (j 0).val := rfl
      have c1 : (((Rect.unit (s := S1024x1024) ![512, 512] S256x256.size inb_S1024x1024_S256x256_512_512).toLoadRect.idx j : S1024x1024.Idx) 1).val = 512 + 1 * (j 1).val := rfl
      refine (canonA_8 c t x0 _).trans ?_
      exact if_neg (by omega)
    rw [hv]
    unfold kernelRun0_A.sl.r
    simp only [View.readAt_eq_ld, (hs0_0 t).read_unread, View.ld_unit_zero (S := S1024x1024) hz2]
    unfold k0_pay2 k0_pay1
    simp only [shapeCast_self]
    exact tilePiece x0 (fun _ => 0) 512 512 _ _ (by omega) (by omega) _ x
  · rw [View.canon_cons_of_not_mem _ _ (by
      rw [Rect.mem_set_unit]
      intro h
      have h0 : 512 ≤ (y 0).val ∧ (y 0).val < 512 + 256 := h 0
      have h1 : 512 ≤ (y 1).val ∧ (y 1).val < 512 + 256 := h 1
      omega)]
    refine (canonA_8 c t x0 y).trans ?_
    exact if_congr (by omega) rfl rfl

set_option maxHeartbeats 1000000 in
theorem canonA_10 (x0 : Vec Ideal S1024x1024 .f32) (y : S1024x1024.Idx) :
    View.canon (kernelRun0_A.sl.HS0_10 (F := Ideal) c (ms0_0 t) (hs0_0 t) scM0_0 x0) y
      = if ((y 0).val / 256 = 0 ∧ (y 1).val / 256 = 0) ∨ ((y 0).val / 256 = 0 ∧ (y 1).val / 256 = 1) ∨ ((y 0).val / 256 = 0 ∧ (y 1).val / 256 = 2) ∨ ((y 0).val / 256 = 0 ∧ (y 1).val / 256 = 3) ∨ ((y 0).val / 256 = 1 ∧ (y 1).val / 256 = 1) ∨ ((y 0).val / 256 = 1 ∧ (y 1).val / 256 = 2) ∨ ((y 0).val / 256 = 1 ∧ (y 1).val / 256 = 3) ∨ ((y 0).val / 256 = 2 ∧ (y 1).val / 256 = 2) ∨ ((y 0).val / 256 = 2 ∧ (y 1).val / 256 = 3) then gramAcc x0 (fun _ => 0) y else 0 := by
  have hi : (y 0).val < 1024 := idx2_lt0 y
  have hj : (y 1).val < 1024 := idx2_lt1 y
  unfold kernelRun0_A.sl.HS0_10
  by_cases hm : (y 0).val / 256 = 2 ∧ (y 1).val / 256 = 3
  · obtain ⟨x, rfl⟩ : ∃ x : S256x256.Idx, y = (Rect.unit (s := S1024x1024) ![512, 768] S256x256.size inb_S1024x1024_S256x256_512_768).emb x :=
      ⟨ix2 ⟨(y 0).val - 512, by omega⟩ ⟨(y 1).val - 768, by omega⟩, funext fun ax => Fin.ext (by
        match ax with
        | ⟨0, _⟩ => show (y 0).val = 512 + 1 * ((y 0).val - 512); omega
        | ⟨1, _⟩ => show (y 1).val = 768 + 1 * ((y 1).val - 768); omega)⟩
    rw [View.canon_cons_emb, if_pos (by omega)]
    have hv : kernelRun0_A.sl.v75 (F := Ideal) c (ms0_0 t) (hs0_0 t) scM0_0 x0 = View.ld (fun _ => (0 : EReal)) (Rect.unit (s := S1024x1024) ![512, 768] S256x256.size inb_S1024x1024_S256x256_512_768) := by
      unfold kernelRun0_A.sl.v75
      rw [View.readCov_eq_canon']
      funext j
      have hj0 : (j 0).val < 256 := idx2_lt0 j
      have hj1 : (j 1).val < 256 := idx2_lt1 j
      have c0 : (((Rect.unit (s := S1024x1024) ![512, 768] S256x256.size inb_S1024x1024_S256x256_512_768).toLoadRect.idx j : S1024x1024.Idx) 0).val = 512 + 1 * (j 0).val := rfl
      have c1 : (((Rect.unit (s := S1024x1024) ![512, 768] S256x256.size inb_S1024x1024_S256x256_512_768).toLoadRect.idx j : S1024x1024.Idx) 1).val = 768 + 1 * (j 1).val := rfl
      refine (canonA_9 c t x0 _).trans ?_
      exact if_neg (by omega)
    rw [hv]
    unfold kernelRun0_A.sl.r
    simp only [View.readAt_eq_ld, (hs0_0 t).read_unread, View.ld_unit_zero (S := S1024x1024) hz2]
    unfold k0_pay3 k0_pay1
    simp only [shapeCast_self]
    exact tilePiece x0 (fun _ => 0) 512 768 _ _ (by omega) (by omega) _ x
  · rw [View.canon_cons_of_not_mem _ _ (by
      rw [Rect.mem_set_unit]
      intro h
      have h0 : 512 ≤ (y 0).val ∧ (y 0).val < 512 + 256 := h 0
      have h1 : 768 ≤ (y 1).val ∧ (y 1).val < 768 + 256 := h 1
      omega)]
    refine (canonA_9 c t x0 y).trans ?_
    exact if_congr (by omega) rfl rfl

set_option maxHeartbeats 1000000 in
/-- The first step's Gram accumulator: the block's Gram product added to zero on and above the diagonal tiles, zero below. -/
theorem soutA0_0_apply (hc0 : cond0_0 (grid0.coords t)) (hc1 : ¬cond0_1 (grid0.coords t))
    (x0 : Vec Ideal S1024x1024 .f32) (y : S1024x1024.Idx) :
    soutA0_0 (F := Ideal) c t hc0 hc1 x0 y
      = if (y 0).val / 256 ≤ (y 1).val / 256 then gramAcc x0 (fun _ => 0) y else 0 := by
  have hi : (y 0).val < 1024 := idx2_lt0 y
  have hj : (y 1).val < 1024 := idx2_lt1 y
  unfold soutA0_0 runA0 kernelRun0_A
  dsimp only
  rw [View.read_writes_junk_apply_eq_canon]
  by_cases hm : (y 0).val / 256 = 3 ∧ (y 1).val / 256 = 3
  · obtain ⟨x, rfl⟩ : ∃ x : S256x256.Idx, y = (Rect.unit (s := S1024x1024) ![768, 768] S256x256.size inb_S1024x1024_S256x256_768_768).emb x :=
      ⟨ix2 ⟨(y 0).val - 768, by omega⟩ ⟨(y 1).val - 768, by omega⟩, funext fun ax => Fin.ext (by
        match ax with
        | ⟨0, _⟩ => show (y 0).val = 768 + 1 * ((y 0).val - 768); omega
        | ⟨1, _⟩ => show (y 1).val = 768 + 1 * ((y 1).val - 768); omega)⟩
    rw [View.canon_cons_emb, if_pos (by omega)]
    have hv : kernelRun0_A.sl.v83 (F := Ideal) c (ms0_0 t) (hs0_0 t) scM0_0 x0 = View.ld (fun _ => (0 : EReal)) (Rect.unit (s := S1024x1024) ![768, 768] S256x256.size inb_S1024x1024_S256x256_768_768) := by
      unfold kernelRun0_A.sl.v83
      rw [View.readCov_eq_canon']
      funext j
      have hj0 : (j 0).val < 256 := idx2_lt0 j
      have hj1 : (j 1).val < 256 := idx2_lt1 j
      have c0 : (((Rect.unit (s := S1024x1024) ![768, 768] S256x256.size inb_S1024x1024_S256x256_768_768).toLoadRect.idx j : S1024x1024.Idx) 0).val = 768 + 1 * (j 0).val := rfl
      have c1 : (((Rect.unit (s := S1024x1024) ![768, 768] S256x256.size inb_S1024x1024_S256x256_768_768).toLoadRect.idx j : S1024x1024.Idx) 1).val = 768 + 1 * (j 1).val := rfl
      refine (canonA_10 c t x0 _).trans ?_
      exact if_neg (by omega)
    rw [hv]
    unfold kernelRun0_A.sl.r
    simp only [View.readAt_eq_ld, (hs0_0 t).read_unread, View.ld_unit_zero (S := S1024x1024) hz2]
    unfold k0_pay4
    simp only [shapeCast_self]
    exact tilePiece x0 (fun _ => 0) 768 768 _ _ (by omega) (by omega) _ x
  · rw [View.canon_cons_of_not_mem _ _ (by
      rw [Rect.mem_set_unit]
      intro h
      have h0 : 768 ≤ (y 0).val ∧ (y 0).val < 768 + 256 := h 0
      have h1 : 768 ≤ (y 1).val ∧ (y 1).val < 768 + 256 := h 1
      omega)]
    refine (canonA_10 c t x0 y).trans ?_
    exact if_congr (by omega) rfl rfl

end Cert.KernelIdeal.Hand

end
-- ==== Proof.KI.R0ValGram.lean ====
/-
  The result array of Gram products, with the first step's value supplied.
-/
import proofs.«167578_j20134806684259_2_alg».proof.Proof.KI.R0ValGr3
import proofs.«167578_j20134806684259_2_alg».proof.Proof.KI.R0ValA0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

theorem caseA : CaseA c := fun t hc0 hc1 x0 y => soutA0_0_apply c t hc0 hc1 x0 y

theorem gramParts_eq (s : Fin 2) (i j : Fin 1024) :
    ((dat0 (F := Ideal) V c).arrAt 1 cfg0.N : S2x1024x1024.Idx → EReal) (ix3 s i j)
      = Cert.Spec.gramP (fun a k => (V c main_v0 : S1024x49152.Idx → EReal) (ix2 a k)) s i j :=
  gramParts_eq_of V c (caseA c) s i j

end Cert.KernelIdeal.Hand

end
-- ==== Proof.KI.R1ValCase.lean ====
/-
  Region 1, the three control cases read as values: what each leaves in the two scalar accumulators and, on the last
  tile, in the two output windows, as the kernel's payloads of the three input blocks and the previous accumulators.

  Every tile stores (accumulator + tile sum) over the whole accumulator; the first tile stores 0 first and reads it
  back; the last tile then copies each accumulator, read back, over its whole output window.
-/
import proofs.«167578_j20134806684259_2_alg».proof.Proof.KI.R1Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The same-group terms of a tile, from its three blocks. -/
def homoPay (i : grid1.Coords) (x0 : Vec F S2x256x1024 .f32) (x1 : Vec F S256x1 .f32) (x2 : Vec F S1x1024 .f32) : FVec F S256x1024 .f32 :=
  k1_pay12 (k1_pay5 x0 x1 x2) (k1_pay6 i) (iota .tc S256x1024 32 [1] iota_S256x1024_d1_w32) (k1_pay7 i) 8#32 (k1_pay8 i) (k1_pay9 i) 1#32 0#32
/-- The different-group terms of a tile, from its three blocks. -/
def heterPay (i : grid1.Coords) (x0 : Vec F S2x256x1024 .f32) (x1 : Vec F S256x1 .f32) (x2 : Vec F S1x1024 .f32) : FVec F S256x1024 .f32 :=
  k1_pay13 (k1_pay5 x0 x1 x2) (k1_pay6 i) (iota .tc S256x1024 32 [1] iota_S256x1024_d1_w32) (k1_pay7 i) 8#32 (k1_pay8 i) (k1_pay9 i) 1#32 0#32

/-! ## A middle tile -/

theorem scoverB1_0 (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 xs1 : Vec F S1x1 .f32) (y : S1x1.Idx) :
    ∃ pc ∈ (runB1 c t hc0 hc1 x0 x1 x2 xs0 xs1).1, y ∈ pc.1.set :=
  View.cover_of_tiledL (runB1 c t hc0 hc1 x0 x1 x2 xs0 xs1).1 S1x1.size (by sl_kernel_rfl) y
theorem scoverB1_1 (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 xs1 : Vec F S1x1 .f32) (y : S1x1.Idx) :
    ∃ pc ∈ (runB1 c t hc0 hc1 x0 x1 x2 xs0 xs1).2.1, y ∈ pc.1.set :=
  View.cover_of_tiledL (runB1 c t hc0 hc1 x0 x1 x2 xs0 xs1).2.1 S1x1.size (by sl_kernel_rfl) y

theorem soutB1_0_eq (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 xs1 : Vec F S1x1 .f32) :
    soutB1_0 c t hc0 hc1 x0 x1 x2 xs0 xs1 = k1_pay1 (homoPay (grid1.coords t) x0 x1 x2) xs0 := by
  unfold soutB1_0
  rw [View.read_writes_eq_canon _ _ _ (scoverB1_0 c t hc0 hc1 x0 x1 x2 xs0 xs1)]
  unfold runB1 kernelRun1_B
  dsimp only
  sl_unfold_words
  rw [View.canon_unit_zero zeros2]
  simp only [View.readAt_eq_ld, (hs1_0 t).read_unread, (hs1_1 t).read_unread, (hs1_2 t).read_unread,
    (Memref.isWhole_whole cc1_scratch0).read_unread, View.ld_unit_zero (S := S2x256x1024) zeros3,
    View.ld_unit_zero (S := S256x1) zeros2, View.ld_unit_zero (S := S1x1024) zeros2, View.ld_unit_zero (S := S1x1) zeros2]
  rfl

theorem soutB1_1_eq (c : Dev nD) (t : Fin cfg1.N) (hc0 : ¬cond1_0 (grid1.coords t)) (hc1 : ¬cond1_1 (grid1.coords t)) (x0 : Vec F S2x256x1024 .f32) (x1 : Vec F S256x1 .f32) (x2 : Vec F S1x1024 .f32) (xs0 xs1 : Vec F S1x1 .f32) :
    soutB1_1 c t hc0 hc1 x0 x1 x2 xs0 xs1 = k1_pay2 (heterPay (grid1.coords t) x0 x1 x2) xs1 := by
  unfold soutB1_1
  rw [View.read_writes_eq_canon _ _ _ (scoverB1_1 c t hc0 hc1 x0 x1 x2 xs0 xs1)]
  unfold runB1 kernelRun1_B
  dsimp only
  sl_unfold_words
  rw [View.canon_unit_zero zeros2]
  simp only [View.readAt_eq_ld, (hs1_0 t).read_unread, (hs1_1 t).read_unread, (hs1_2 t).read_unread,
    (Memref.isWhole_whole cc1_scratch1).read_unread, View.ld_unit_zero (S := S2x256x1024) zeros3,
    View.ld_unit_zero (S := S256x1) zeros2, View.ld_unit_zero (S := S1x1024) zeros2, View.ld_unit_zero (S := S1x1) zeros2]
  rfl

/-! ## The first tile -/

theorem soutA1_0_eq (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) :
    soutA1_0 c t hc0 hc1 x0 x1 x2 = k1_pay1 (homoPay (grid1.coords t) x0 x1 x2) (k1_pay3 (F := F)) := by
  unfold soutA1_0
  rw [View.read_writes_eq_canon _ _ _ (scoverA1_0 c t hc0 hc1 x0 x1 x2)]
  unfold runA1 kernelRun1_A
  dsimp only
  sl_unfold_words
  rw [View.canon_cons_unit_zero (S := S1x1) zeros2, View.readCov_unit_zero (S := S1x1) _ zeros2]
  simp only [View.readAt_eq_ld, (hs1_0 t).read_unread, (hs1_1 t).read_unread, (hs1_2 t).read_unread,
    (Memref.isWhole_whole cc1_scratch0).read_unread, (Memref.isWhole_whole cc1_scratch1).read_unread, View.ld_unit_zero (S := S2x256x1024) zeros3,
    View.ld_unit_zero (S := S256x1) zeros2, View.ld_unit_zero (S := S1x1024) zeros2, View.ld_unit_zero (S := S1x1) zeros2]
  rfl

theorem soutA1_1_eq (c : Dev nD) (t : Fin cfg1.N) (hc0 : cond1_0 (grid1.coords t)) (hc1 : ¬cond1_1 (grid1.coords t)) (x0 : Vec F S2x256x1024 .f32) (x1 : Vec F S256x1 .f32) (x2 : Vec F S1x1024 .f32) :
    soutA1_1 c t hc0 hc1 x0 x1 x2 = k1_pay2 (heterPay (grid1.coords t) x0 x1 x2) (k1_pay4 (F := F)) := by
  unfold soutA1_1
  rw [View.read_writes_eq_canon _ _ _ (scoverA1_1 c t hc0 hc1 x0 x1 x2)]
  unfold runA1 kernelRun1_A
  dsimp only
  sl_unfold_words
  rw [View.canon_cons_unit_zero (S := S1x1) zeros2, View.readCov_unit_zero (S := S1x1) _ zeros2]
  simp only [View.readAt_eq_ld, (hs1_0 t).read_unread, (hs1_1 t).read_unread, (hs1_2 t).read_unread,
    (Memref.isWhole_whole cc1_scratch0).read_unread, (Memref.isWhole_whole cc1_scratch1).read_unread, View.ld_unit_zero (S := S2x256x1024) zeros3,
    View.ld_unit_zero (S := S256x1) zeros2, View.ld_unit_zero (S := S1x1024) zeros2, View.ld_unit_zero (S := S1x1) zeros2]
  rfl

/-! ## The last tile -/

theorem scoverC1_0 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 xs1 : Vec F S1x1 .f32) (y : S1x1.Idx) :
    ∃ pc ∈ (runC1 c t hc0 hc1 x0 x1 x2 xs0 xs1).2.2.1, y ∈ pc.1.set :=
  View.cover_of_tiledL (runC1 c t hc0 hc1 x0 x1 x2 xs0 xs1).2.2.1 S1x1.size (by sl_kernel_rfl) y
theorem scoverC1_1 (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 xs1 : Vec F S1x1 .f32) (y : S1x1.Idx) :
    ∃ pc ∈ (runC1 c t hc0 hc1 x0 x1 x2 xs0 xs1).2.2.2.1, y ∈ pc.1.set :=
  View.cover_of_tiledL (runC1 c t hc0 hc1 x0 x1 x2 xs0 xs1).2.2.2.1 S1x1.size (by sl_kernel_rfl) y

theorem soutC1_0_eq (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 xs1 : Vec F S1x1 .f32) :
    soutC1_0 c t hc0 hc1 x0 x1 x2 xs0 xs1 = k1_pay1 (homoPay (grid1.coords t) x0 x1 x2) xs0 := by
  unfold soutC1_0
  rw [View.read_writes_eq_canon _ _ _ (scoverC1_0 c t hc0 hc1 x0 x1 x2 xs0 xs1)]
  unfold runC1 kernelRun1_C
  dsimp only
  sl_unfold_words
  rw [View.canon_unit_zero zeros2]
  simp only [View.readAt_eq_ld, (hs1_0 t).read_unread, (hs1_1 t).read_unread, (hs1_2 t).read_unread,
    (Memref.isWhole_whole cc1_scratch0).read_unread, (Memref.isWhole_whole cc1_scratch1).read_unread, View.ld_unit_zero (S := S2x256x1024) zeros3,
    View.ld_unit_zero (S := S256x1) zeros2, View.ld_unit_zero (S := S1x1024) zeros2, View.ld_unit_zero (S := S1x1) zeros2]
  rfl

theorem soutC1_1_eq (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 xs1 : Vec F S1x1 .f32) :
    soutC1_1 c t hc0 hc1 x0 x1 x2 xs0 xs1 = k1_pay2 (heterPay (grid1.coords t) x0 x1 x2) xs1 := by
  unfold soutC1_1
  rw [View.read_writes_eq_canon _ _ _ (scoverC1_1 c t hc0 hc1 x0 x1 x2 xs0 xs1)]
  unfold runC1 kernelRun1_C
  dsimp only
  sl_unfold_words
  rw [View.canon_unit_zero zeros2]
  simp only [View.readAt_eq_ld, (hs1_0 t).read_unread, (hs1_1 t).read_unread, (hs1_2 t).read_unread,
    (Memref.isWhole_whole cc1_scratch0).read_unread, (Memref.isWhole_whole cc1_scratch1).read_unread, View.ld_unit_zero (S := S2x256x1024) zeros3,
    View.ld_unit_zero (S := S256x1) zeros2, View.ld_unit_zero (S := S1x1024) zeros2, View.ld_unit_zero (S := S1x1) zeros2]
  rfl

/-- The last tile copies accumulator 0, as just stored, over output window 3; -/
theorem outC1_3_eq (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 xs1 : Vec F S1x1 .f32) :
    outC1_3 c t hc0 hc1 x0 x1 x2 xs0 xs1 = k1_pay1 (homoPay (grid1.coords t) x0 x1 x2) xs0 := by
  unfold outC1_3
  rw [View.read_writes_eq_canon _ _ _ (coverC1_3 c t hc0 hc1 x0 x1 x2 xs0 xs1)]
  unfold runC1 kernelRun1_C
  dsimp only
  sl_unfold_words
  rw [View.canon_unit_zero zeros2, View.readCov_unit_zero (S := S1x1) _ zeros2]
  simp only [View.readAt_eq_ld, (hs1_0 t).read_unread, (hs1_1 t).read_unread, (hs1_2 t).read_unread,
    (Memref.isWhole_whole cc1_scratch0).read_unread, (Memref.isWhole_whole cc1_scratch1).read_unread, View.ld_unit_zero (S := S2x256x1024) zeros3,
    View.ld_unit_zero (S := S256x1) zeros2, View.ld_unit_zero (S := S1x1024) zeros2, View.ld_unit_zero (S := S1x1) zeros2]
  rfl

/-- and accumulator 1 over output window 4. -/
theorem outC1_4_eq (c : Dev nD) (t : Fin cfg1.N) (hc0 : ¬cond1_0 (grid1.coords t)) (hc1 : cond1_1 (grid1.coords t)) (x0 : Vec F S2x256x1024 .f32) (x1 : Vec F S256x1 .f32) (x2 : Vec F S1x1024 .f32) (xs0 xs1 : Vec F S1x1 .f32) :
    outC1_4 c t hc0 hc1 x0 x1 x2 xs0 xs1 = k1_pay2 (heterPay (grid1.coords t) x0 x1 x2) xs1 := by
  unfold outC1_4
  rw [View.read_writes_eq_canon _ _ _ (coverC1_4 c t hc0 hc1 x0 x1 x2 xs0 xs1)]
  unfold runC1 kernelRun1_C
  dsimp only
  sl_unfold_words
  rw [View.canon_unit_zero zeros2, View.readCov_unit_zero (S := S1x1) _ zeros2]
  simp only [View.readAt_eq_ld, (hs1_0 t).read_unread, (hs1_1 t).read_unread, (hs1_2 t).read_unread,
    (Memref.isWhole_whole cc1_scratch0).read_unread, (Memref.isWhole_whole cc1_scratch1).read_unread, View.ld_unit_zero (S := S2x256x1024) zeros3,
    View.ld_unit_zero (S := S256x1) zeros2, View.ld_unit_zero (S := S1x1024) zeros2, View.ld_unit_zero (S := S1x1) zeros2]
  rfl

end Cert.KernelIdeal.Hand

end
-- ==== Proof.KI.R1ValMask.lean ====
/-
  The integer words of the epilogue's masks, read at one index.

  The program computes the group of a row or column number n as a floor division by 8 spelt out for signed words:
  the truncating quotient n /ₛ 8, lowered by one when the signs of n and 8 differ and the remainder is not zero.
  On a word that reads as a natural number below 2^31 the correction never fires: at n = 0 the remainder is 0, and
  at n > 0 the sign of n is the sign of 8. So the group word of n is the word of n / 8, and — words below 2^32 being
  determined by the numbers they read as — two group words agree exactly when the quotients do.
-/
import Idealize.ShloMosaic.Lib.Affine
import Idealize.ShloMosaic.Lib.ValueIdx

namespace Cert.KernelIdeal.Hand

open Idealize.ShloMosaic

/-- The sign of a word read signed, as a word: (a > 0) − (a < 0). -/
def sgnW (a : BitVec 32) : BitVec 32 :=
  IntOp.subi ((IntOp.cmpi .sgt a 0#32).setWidth 32) ((IntOp.cmpi .slt a 0#32).setWidth 32)

/-- Floor division by 8 as the program spells it; `s8` is the sign word of the divisor. -/
def grpW (a s8 : BitVec 32) : BitVec 32 :=
  Scalar.select
    (IntOp.andi (IntOp.cmpi .ne (sgnW a) s8) (IntOp.cmpi .ne (IntOp.remsi .vector a 8#32) 0#32))
    (IntOp.subi (IntOp.divsi .vector a 8#32) 1#32) (IntOp.divsi .vector a 8#32)

/-- The divisor's sign word, as the program computes it from the literal 8. -/
theorem sgn8 : Scalar.subi (Scalar.extui (Scalar.cmpi .sgt 8#32 0#32)) (Scalar.extui (Scalar.cmpi .slt 8#32 0#32)) = 1#32 := by
  decide

private theorem toInt_zero32 : (0#32 : BitVec 32).toInt = 0 := by decide

theorem toInt_ofNat_lt (n : Nat) (hn : n < 2 ^ 31) : (BitVec.ofNat 32 n).toInt = n := by
  have h : (BitVec.ofNat 32 n).toNat = n := by rw [BitVec.toNat_ofNat]; omega
  rw [BitVec.toInt_eq_toNat_of_lt (by omega), h]

theorem sgnW_pos {a : BitVec 32} (h : 0 < a.toInt) : sgnW a = 1#32 := by
  have h1 : IntOp.cmpi .sgt a 0#32 = 1#1 := IntOp.cmpi_sgt.mpr (by rw [toInt_zero32]; exact h)
  have h2 : IntOp.cmpi .slt a 0#32 = 0#1 :=
    ValueIdx.eq_zero_of_ne_one (fun hh => by have := IntOp.cmpi_slt.mp hh; rw [toInt_zero32] at this; omega)
  rw [sgnW, h1, h2]; decide

theorem divsi8_ofNat (n : Nat) (hn : n < 2 ^ 31) :
    IntOp.divsi .vector (BitVec.ofNat 32 n) 8#32 = BitVec.ofNat 32 (n / 8) := by
  have ha : Affine.IsInt (BitVec.ofNat 32 n) n := Affine.ofNat n ⟨rfl, hn⟩
  have h8 : Affine.IsInt (8#32) 8 := Affine.ofNat 8 ⟨rfl, by norm_num⟩
  have hpos8 : 0 < (8#32 : BitVec 32).toInt := by decide
  have hd : Affine.IsInt (Scalar.divsi (BitVec.ofNat 32 n) 8#32) ((n : Int) / 8) :=
    Affine.divsi ha h8 ⟨rfl, by omega, by norm_num⟩
  have hE : IntOp.divsi .vector (BitVec.ofNat 32 n) 8#32 = Scalar.divsi (BitVec.ofNat 32 n) 8#32 := by
    rw [Scalar.divsi, IntOp.divsi, IntOp.divsi, if_neg (IntOp.not_corner_of_pos hpos8),
      if_neg (IntOp.not_corner_of_pos hpos8)]
  rw [hE]
  have := Affine.toNat_of hd (by omega)
  apply BitVec.eq_of_toNat_eq
  rw [BitVec.toNat_ofNat]; omega

/-- The group word of a number below 2^31 is the word of its quotient by 8. -/
theorem grpW_ofNat (n : Nat) (hn : n < 2 ^ 31) : grpW (BitVec.ofNat 32 n) 1#32 = BitVec.ofNat 32 (n / 8) := by
  have hcond : ¬ (IntOp.andi (IntOp.cmpi .ne (sgnW (BitVec.ofNat 32 n)) 1#32)
      (IntOp.cmpi .ne (IntOp.remsi .vector (BitVec.ofNat 32 n) 8#32) 0#32)) = 1#1 := by
    rw [IntOp.andi_eq_one, IntOp.cmpi_ne, IntOp.cmpi_ne]
    rintro ⟨h1, h2⟩
    rcases Nat.eq_zero_or_pos n with rfl | hp
    · exact h2 (by decide)
    · exact h1 (sgnW_pos (by rw [toInt_ofNat_lt n hn]; exact_mod_cast hp))
  rw [grpW, ValueIdx.eq_zero_of_ne_one hcond, ValueIdx.select_zero, divsi8_ofNat n hn]

theorem ofNat32_inj {a b : Nat} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat] at this; omega
  · rintro rfl; rfl

/-- Column after row, same group. -/
theorem sameW_iff (r c : Nat) (hr : r < 2 ^ 31) (hc : c < 2 ^ 31) :
    IntOp.andi (IntOp.cmpi .sgt (BitVec.ofNat 32 c) (BitVec.ofNat 32 r))
      (IntOp.cmpi .eq (grpW (BitVec.ofNat 32 r) 1#32) (grpW (BitVec.ofNat 32 c) 1#32)) = 1#1 ↔ r < c ∧ r / 8 = c / 8 := by
  rw [IntOp.andi_eq_one, IntOp.cmpi_sgt, IntOp.cmpi_eq, grpW_ofNat r hr, grpW_ofNat c hc, toInt_ofNat_lt r hr,
    toInt_ofNat_lt c hc, ofNat32_inj (by omega) (by omega)]
  omega

/-- Column after row, different groups. -/
theorem diffW_iff (r c : Nat) (hr : r < 2 ^ 31) (hc : c < 2 ^ 31) :
    IntOp.andi (IntOp.cmpi .sgt (BitVec.ofNat 32 c) (BitVec.ofNat 32 r))
      (IntOp.cmpi .ne (grpW (BitVec.ofNat 32 r) 1#32) (grpW (BitVec.ofNat 32 c) 1#32)) = 1#1 ↔ r < c ∧ r / 8 ≠ c / 8 := by
  rw [IntOp.andi_eq_one, IntOp.cmpi_sgt, IntOp.cmpi_ne, grpW_ofNat r hr, grpW_ofNat c hc, toInt_ofNat_lt r hr,
    toInt_ofNat_lt c hc, Ne, ofNat32_inj (by omega) (by omega)]
  omega

/-- The row number of row r of tile ti, as the program adds it up. -/
theorem rowWord (ti r : Nat) (h : ti * 256 + r < 2 ^ 32) :
    IntOp.addi (Scalar.muli (BitVec.ofNat 32 ti) 256#32) (BitVec.ofNat 32 r) = BitVec.ofNat 32 (ti * 256 + r) := by
  apply BitVec.eq_of_toNat_eq
  rw [IntOp.addi, Scalar.muli, IntOp.muli, BitVec.toNat_add, BitVec.toNat_mul, BitVec.toNat_ofNat, BitVec.toNat_ofNat,
    BitVec.toNat_ofNat, BitVec.toNat_ofNat]
  have : ti < 2 ^ 32 := by omega
  have : r < 2 ^ 32 := by omega
  rw [Nat.mod_eq_of_lt ‹ti < 2 ^ 32›, Nat.mod_eq_of_lt ‹r < 2 ^ 32›, Nat.mod_eq_of_lt (by norm_num : 256 < 2 ^ 32),
    Nat.mod_eq_of_lt (by omega : ti * 256 < 2 ^ 32), Nat.mod_eq_of_lt h]

end Cert.KernelIdeal.Hand
-- ==== Proof.KI.R1ValPay.lean ====
/-
  The epilogue kernel's payloads read at one index, over the extended reals.

  At row r of its tile and column cc the squared distance is max((sqc r + sqr cc) − 2·(g₀ r cc + g₁ r cc), 0); the
  same-group term keeps it where the column comes after the row in the same group of 8 and is 0 elsewhere; the
  different-group term keeps max(1 − d, 0) where the column comes after the row in another group.
-/
import proofs.«167578_j20134806684259_2_alg».proof.Proof.Gen.KernelIdeal.Skeleton
import proofs.«167578_j20134806684259_2_alg».proof.Proof.KI.R1ValMask
import Idealize.ShloMosaic.PureOps.Ideal.Laws
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx

/-- The bit pattern 0x40000000 is the real number 2. -/
theorem ofBits_two : Ideal.ofBits .f32 0x40000000#32 = 2 := by
  simp [Ideal.ofBits, Ideal.ieee, -EReal.coe_mul]; norm_num; norm_cast

/-- The bit pattern 0x3F800000 is the real number 1. -/
theorem ofBits_one : Ideal.ofBits .f32 0x3F800000#32 = 1 := by
  simp [Ideal.ofBits, Ideal.ieee, -EReal.coe_mul]; norm_num

/-- A column [a,1] broadcast over b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The squared distance at (r, cc) of a tile. -/
theorem pay5_apply (v3 : FVec Ideal S2x256x1024 .f32) (v10 : FVec Ideal S256x1 .f32) (v12 : FVec Ideal S1x1024 .f32)
    (r : Fin 256) (cc : Fin 1024) :
    k1_pay5 (F := Ideal) v3 v10 v12 (ix2 r cc)
      = max ((v10 (ix2 r (0 : Fin 1)) + v12 (ix2 (0 : Fin 1) cc)) - 2 * (v3 (ix3 (0 : Fin 2) r cc) + v3 (ix3 (1 : Fin 2) r cc))) 0 := by
  unfold k1_pay5
  simp only [shapeCast_self]
  rw [maximumf_apply, subf_apply, mulf_apply, addf_apply, addf_apply, broadcast_apply, broadcast_apply]
  rw [shapeCast_1ab_ab_apply, shapeCast_1ab_ab_apply, broadcastTo_a1_ab_apply, broadcastTo_1b_ab_apply]
  rw [extractStridedSlice_apply _ v3 _ (ix3 (0 : Fin 1) r cc) (ix3 (0 : Fin 2) r cc) (fun a => match a with
      | ⟨0, _⟩ => rfl | ⟨1, _⟩ => by show r.val = 0 + r.val; omega | ⟨2, _⟩ => by show cc.val = 0 + cc.val; omega),
    extractStridedSlice_apply _ v3 _ (ix3 (0 : Fin 1) r cc) (ix3 (1 : Fin 2) r cc) (fun a => match a with
      | ⟨0, _⟩ => rfl | ⟨1, _⟩ => by show r.val = 0 + r.val; omega | ⟨2, _⟩ => by show cc.val = 0 + cc.val; omega)]
  show max ((v10 _ + v12 _) - Ideal.ofBits .f32 0x40000000#32 * (v3 _ + v3 _)) (Ideal.ofBits .f32 0x00000000#32) = _
  rw [ofBits_two, Ideal.ofBits_zero_f32]

/-- The row number at (r, cc) of tile i. -/
theorem pay6_apply (i : grid1.Coords) (r : Fin 256) (cc : Fin 1024) :
    k1_pay6 i (ix2 r cc) = BitVec.ofNat 32 ((i 0).val * 256 + r.val) := by
  have hi : (i 0).val < 4 := (i 0).isLt
  have hr := r.isLt
  unfold k1_pay6
  show IntOp.addi (Scalar.muli (BitVec.ofNat 32 (i 0).val) 256#32) (iota .tc S256x1024 32 [0] iota_S256x1024_d0_w32 (ix2 r cc)) = _
  rw [iota_single_apply]
  exact rowWord _ _ (by show (i 0).val * 256 + r.val < 2 ^ 32; omega)

/-- The column number at (r, cc). -/
theorem col_apply (r : Fin 256) (cc : Fin 1024) :
    iota .tc S256x1024 32 [1] iota_S256x1024_d1_w32 (ix2 r cc) = BitVec.ofNat 32 cc.val :=
  iota_single_apply ..

/-- The same-group term at (r, cc) of tile i. -/
theorem pay12_apply (i : grid1.Coords) (v21 : FVec Ideal S256x1024 .f32) (v38 v40 : BitVec 32) (hs : Scalar.subi v38 v40 = 1#32) (r : Fin 256) (cc : Fin 1024) :
    k1_pay12 (F := Ideal) v21 (k1_pay6 i) (iota .tc S256x1024 32 [1] iota_S256x1024_d1_w32) (k1_pay7 i) 8#32 (k1_pay8 i) (k1_pay9 i)
        v38 v40 (ix2 r cc)
      = if (i 0).val * 256 + r.val < cc.val ∧ ((i 0).val * 256 + r.val) / 8 = cc.val / 8 then v21 (ix2 r cc) else 0 := by
  have hi : (i 0).val < 4 := (i 0).isLt
  have hr := r.isLt
  have hc := cc.isLt
  have key : k1_pay12 (F := Ideal) v21 (k1_pay6 i) (iota .tc S256x1024 32 [1] iota_S256x1024_d1_w32) (k1_pay7 i) 8#32 (k1_pay8 i) (k1_pay9 i)
        v38 v40 (ix2 r cc)
      = Scalar.select (IntOp.andi
          (IntOp.cmpi .sgt (iota .tc S256x1024 32 [1] iota_S256x1024_d1_w32 (ix2 r cc)) (k1_pay6 i (ix2 r cc)))
          (IntOp.cmpi .eq
            (grpW (k1_pay6 i (ix2 r cc)) (Scalar.subi v38 v40))
            (grpW (iota .tc S256x1024 32 [1] iota_S256x1024_d1_w32 (ix2 r cc)) (Scalar.subi (Scalar.extui (Scalar.cmpi .sgt 8#32 0#32)) (Scalar.extui (Scalar.cmpi .slt 8#32 0#32))))))
          (v21 (ix2 r cc)) (Ideal.ofBits .f32 0x00000000#32) := rfl
  refine key.trans ?_
  rw [pay6_apply, col_apply, sgn8, hs, Ideal.ofBits_zero_f32]
  by_cases h : (i 0).val * 256 + r.val < cc.val ∧ ((i 0).val * 256 + r.val) / 8 = cc.val / 8
  · rw [(sameW_iff _ _ (by omega) (by omega)).mpr h, select_one, if_pos h]
  · rw [eq_zero_of_ne_one (fun hh => h ((sameW_iff _ _ (by omega) (by omega)).mp hh)), select_zero, if_neg h]

/-- The different-group term at (r, cc) of tile i. -/
theorem pay13_apply (i : grid1.Coords) (v21 : FVec Ideal S256x1024 .f32) (v38 v40 : BitVec 32) (hs : Scalar.subi v38 v40 = 1#32) (r : Fin 256) (cc : Fin 1024) :
    k1_pay13 (F := Ideal) v21 (k1_pay6 i) (iota .tc S256x1024 32 [1] iota_S256x1024_d1_w32) (k1_pay7 i) 8#32 (k1_pay8 i) (k1_pay9 i)
        v38 v40 (ix2 r cc)
      = if (i 0).val * 256 + r.val < cc.val ∧ ((i 0).val * 256 + r.val) / 8 ≠ cc.val / 8 then max (1 - v21 (ix2 r cc)) 0 else 0 := by
  have hi : (i 0).val < 4 := (i 0).isLt
  have hr := r.isLt
  have hc := cc.isLt
  have key : k1_pay13 (F := Ideal) v21 (k1_pay6 i) (iota .tc S256x1024 32 [1] iota_S256x1024_d1_w32) (k1_pay7 i) 8#32 (k1_pay8 i) (k1_pay9 i)
        v38 v40 (ix2 r cc)
      = Scalar.select (IntOp.andi
          (IntOp.cmpi .sgt (iota .tc S256x1024 32 [1] iota_S256x1024_d1_w32 (ix2 r cc)) (k1_pay6 i (ix2 r cc)))
          (IntOp.cmpi .ne
            (grpW (k1_pay6 i (ix2 r cc)) (Scalar.subi v38 v40))
            (grpW (iota .tc S256x1024 32 [1] iota_S256x1024_d1_w32 (ix2 r cc)) (Scalar.subi (Scalar.extui (Scalar.cmpi .sgt 8#32 0#32)) (Scalar.extui (Scalar.cmpi .slt 8#32 0#32))))))
          (max (Ideal.ofBits .f32 0x3F800000#32 - v21 (ix2 r cc)) (Ideal.ofBits .f32 0x00000000#32)) (Ideal.ofBits .f32 0x00000000#32) := rfl
  refine key.trans ?_
  rw [pay6_apply, col_apply, sgn8, hs, Ideal.ofBits_zero_f32, ofBits_one]
  by_cases h : (i 0).val * 256 + r.val < cc.val ∧ ((i 0).val * 256 + r.val) / 8 ≠ cc.val / 8
  · rw [(diffW_iff _ _ (by omega) (by omega)).mpr h, select_one, if_pos h]
  · rw [eq_zero_of_ne_one (fun hh => h ((diffW_iff _ _ (by omega) (by omega)).mp hh)), select_zero, if_neg h]

/-- The two zeroing stores write 0. -/
theorem pay3_apply (j : S1x1.Idx) : k1_pay3 (F := Ideal) j = 0 := by
  unfold k1_pay3; simp only [shapeCast_self]; exact Ideal.ofBits_zero_f32
theorem pay4_apply (j : S1x1.Idx) : k1_pay4 (F := Ideal) j = 0 := by
  unfold k1_pay4; simp only [shapeCast_self]; exact Ideal.ofBits_zero_f32

/-- A vector [a] cast to the column [a,1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a tile: over the columns of each row, then over the rows. -/
theorem tileSum_apply (v : FVec Ideal S256x1024 .f32) :
    shapeCast S1x1 (multiReduction (F := Ideal) .add [0] S1
        (shapeCast S256x1 (multiReduction (F := Ideal) .add [1] S256 v 0x00000000#32 reduces_S256x1024_S256 (.inl rfl) rfl) shapeCasts_S256_S256x1)
        0x00000000#32 reduces_S256x1_S1 (.inl rfl) rfl) shapeCasts_S1_S1x1 (ix2 (0 : Fin 1) (0 : Fin 1))
      = ∑ r : Fin 256, ∑ cc : Fin 1024, v (ix2 r cc) := by
  rw [shapeCast_a_1a_apply]
  refine (Ideal.multiReduction_add_single _ _ _ _ _ (ix1 (0 : Fin 1))).trans ?_
  show ∑ k : Fin 256, _ = _
  refine Finset.sum_congr rfl fun k _ => ?_
  have hl : reduces_S256x1_S1.lift (ix1 (0 : Fin 1)) k = ix2 k (0 : Fin 1) :=
    funext fun a => match a with | ⟨0, _⟩ => rfl | ⟨1, _⟩ => rfl
  rw [hl, shapeCast_a_a1_apply]
  refine (Ideal.multiReduction_add_single _ _ _ _ _ (ix1 k)).trans ?_
  show ∑ l : Fin 1024, _ = _
  refine Finset.sum_congr rfl fun l _ => ?_
  have hl2 : reduces_S256x1024_S256.lift (ix1 k) l = ix2 k l :=
    funext fun a => match a with | ⟨0, _⟩ => rfl | ⟨1, _⟩ => rfl
  rw [hl2]

/-- The accumulating stores: the accumulator plus the tile's sum. -/
theorem pay1_apply (v81 : FVec Ideal S256x1024 .f32) (v96 : FVec Ideal S1x1 .f32) :
    k1_pay1 (F := Ideal) v81 v96 (ix2 (0 : Fin 1) (0 : Fin 1))
      = v96 (ix2 (0 : Fin 1) (0 : Fin 1)) + ∑ r : Fin 256, ∑ cc : Fin 1024, v81 (ix2 r cc) := by
  unfold k1_pay1
  simp only [shapeCast_self]
  rw [addf_apply, tileSum_apply]
theorem pay2_apply (v87 : FVec Ideal S256x1024 .f32) (v101 : FVec Ideal S1x1 .f32) :
    k1_pay2 (F := Ideal) v87 v101 (ix2 (0 : Fin 1) (0 : Fin 1))
      = v101 (ix2 (0 : Fin 1) (0 : Fin 1)) + ∑ r : Fin 256, ∑ cc : Fin 1024, v87 (ix2 r cc) := by
  unfold k1_pay2
  simp only [shapeCast_self]
  rw [addf_apply, tileSum_apply]

end Cert.KernelIdeal.Hand

end
-- ==== Proof.KI.R1ValRun.lean ====
/-
  Region 1 at the extended reals: the two results.

  After tile n the two scalar accumulators hold the running sums 0 + T₀ + … + Tₙ of the tiles' masked sums (by
  induction on the tile); the last tile copies them over the two output windows, which are written back once, each
  block being its whole [1,1] array. A tile's three input blocks are rows [256·ti, 256·ti + 256) of both Gram shards
  and of the column of row norms, and the whole row of row norms; so the tile sums are the inner sums of the two
  specified sums, and the left fold from 0 over the four tiles is their sum over the tiles.
-/
import proofs.«167578_j20134806684259_2_alg».proof.Proof.KI.R1ValCase
import proofs.«167578_j20134806684259_2_alg».proof.Proof.KI.R1ValPay
import proofs.«167578_j20134806684259_2_alg».proof.Proof.Spec
import proofs.«167578_j20134806684259_2_alg».proof.Proof.SpecG
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-- The same-group sum of the tile at point t. -/
def tHomo (t : Fin cfg1.N) : EReal :=
  ∑ r : Fin 256, ∑ cc : Fin 1024, homoPay (F := Ideal) (grid1.coords t) (iblk1 V c 0 t) (iblk1 V c 1 t) (iblk1 V c 2 t) (ix2 r cc)
/-- The different-group sum of the tile at point t. -/
def tHeter (t : Fin cfg1.N) : EReal :=
  ∑ r : Fin 256, ∑ cc : Fin 1024, heterPay (F := Ideal) (grid1.coords t) (iblk1 V c 0 t) (iblk1 V c 1 t) (iblk1 V c 2 t) (ix2 r cc)

/-- The running sums after tile n. -/
def chainHomo : (n : ℕ) → n < cfg1.N → EReal
  | 0, h => 0 + tHomo V c ⟨0, h⟩
  | n + 1, h => chainHomo n (Nat.lt_of_succ_lt h) + tHomo V c ⟨n + 1, h⟩
def chainHeter : (n : ℕ) → n < cfg1.N → EReal
  | 0, h => 0 + tHeter V c ⟨0, h⟩
  | n + 1, h => chainHeter n (Nat.lt_of_succ_lt h) + tHeter V c ⟨n + 1, h⟩

abbrev o00 : S1x1.Idx := ix2 (0 : Fin 1) (0 : Fin 1)

/-- Accumulator 0 after tile n is the running same-group sum. -/
theorem acc0_eq : ∀ (n : ℕ) (hn : n < cfg1.N), (outsAt1 V c n hn).2.2.1 o00 = chainHomo V c n hn
  | 0, hn => by
    have e := congrArg (fun p => p.2.2.1 o00) (outsAt1_A V c ⟨0, hn⟩ (Nat.zero_mod _) (by show ¬ 0 % 4 = 3; decide))
    refine e.trans ?_
    dsimp only
    rw [soutA1_0_eq]
    refine (pay1_apply _ _).trans ?_
    rw [pay3_apply]
    rfl
  | n + 1, hn => by
    have hN : cfg1.N = 4 := N_1
    have h0 : ¬ (n + 1) % 4 = 0 := by omega
    by_cases h1 : (n + 1) % 4 = 3
    · have e := congrArg (fun p => p.2.2.1 o00) (outsAt1_C V c ⟨n + 1, hn⟩ h0 h1)
      refine e.trans ?_
      dsimp only
      rw [soutC1_0_eq]
      refine (pay1_apply _ _).trans ?_
      show (outsAt1 V c n _).2.2.1 o00 + tHomo V c ⟨n + 1, hn⟩ = chainHomo V c n _ + tHomo V c ⟨n + 1, hn⟩
      rw [acc0_eq n]
    · have e := congrArg (fun p => p.2.2.1 o00) (outsAt1_B V c ⟨n + 1, hn⟩ h0 h1)
      refine e.trans ?_
      dsimp only
      rw [soutB1_0_eq]
      refine (pay1_apply _ _).trans ?_
      show (outsAt1 V c n _).2.2.1 o00 + tHomo V c ⟨n + 1, hn⟩ = chainHomo V c n _ + tHomo V c ⟨n + 1, hn⟩
      rw [acc0_eq n]

/-- Accumulator 1 after tile n is the running different-group sum. -/
theorem acc1_eq : ∀ (n : ℕ) (hn : n < cfg1.N), (outsAt1 V c n hn).2.2.2 o00 = chainHeter V c n hn
  | 0, hn => by
    have e := congrArg (fun p => p.2.2.2 o00) (outsAt1_A V c ⟨0, hn⟩ (Nat.zero_mod _) (by show ¬ 0 % 4 = 3; decide))
    refine e.trans ?_
    dsimp only
    rw [soutA1_1_eq]
    refine (pay2_apply _ _).trans ?_
    rw [pay4_apply]
    rfl
  | n + 1, hn => by
    have hN : cfg1.N = 4 := N_1
    have h0 : ¬ (n + 1) % 4 = 0 := by omega
    by_cases h1 : (n + 1) % 4 = 3
    · have e := congrArg (fun p => p.2.2.2 o00) (outsAt1_C V c ⟨n + 1, hn⟩ h0 h1)
      refine e.trans ?_
      dsimp only
      rw [soutC1_1_eq]
      refine (pay2_apply _ _).trans ?_
      show (outsAt1 V c n _).2.2.2 o00 + tHeter V c ⟨n + 1, hn⟩ = chainHeter V c n _ + tHeter V c ⟨n + 1, hn⟩
      rw [acc1_eq n]
    · have e := congrArg (fun p => p.2.2.2 o00) (outsAt1_B V c ⟨n + 1, hn⟩ h0 h1)
      refine e.trans ?_
      dsimp only
      rw [soutB1_1_eq]
      refine (pay2_apply _ _).trans ?_
      show (outsAt1 V c n _).2.2.2 o00 + tHeter V c ⟨n + 1, hn⟩ = chainHeter V c n _ + tHeter V c ⟨n + 1, hn⟩
      rw [acc1_eq n]

theorem lt3 : 3 < cfg1.N := by rw [show cfg1.N = 4 from N_1]; decide

/-- The output windows after the last tile hold the complete sums. -/
theorem win3_eq : (outsAt1 V c 3 lt3).1 o00 = chainHomo V c 3 lt3 := by
  have e := congrArg (fun p => p.1 o00) (outsAt1_C V c ⟨3, lt3⟩ (by show ¬ 3 % 4 = 0; decide) (by show 3 % 4 = 3; decide))
  refine e.trans ?_
  dsimp only
  rw [outC1_3_eq]
  refine (pay1_apply _ _).trans ?_
  show (outsAt1 V c 2 _).2.2.1 o00 + tHomo V c ⟨3, lt3⟩ = chainHomo V c 2 _ + tHomo V c ⟨3, lt3⟩
  rw [acc0_eq V c 2]
theorem win4_eq : (outsAt1 V c 3 lt3).2.1 o00 = chainHeter V c 3 lt3 := by
  have e := congrArg (fun p => p.2.1 o00) (outsAt1_C V c ⟨3, lt3⟩ (by show ¬ 3 % 4 = 0; decide) (by show 3 % 4 = 3; decide))
  refine e.trans ?_
  dsimp only
  rw [outC1_4_eq]
  refine (pay2_apply _ _).trans ?_
  show (outsAt1 V c 2 _).2.2.2 o00 + tHeter V c ⟨3, lt3⟩ = chainHeter V c 2 _ + tHeter V c ⟨3, lt3⟩
  rw [acc1_eq V c 2]

/-! ## The arrays -/

/-- What the two result arrays end holding. -/
abbrev res3 : Buf (Elt Ideal) ((c : Thread nD τ).loc main_v8_0) := (outsAt1 V c 3 lt3).1
abbrev res4 : Buf (Elt Ideal) ((c : Thread nD τ).loc main_v8_1) := (outsAt1 V c 3 lt3).2.1

/-- The one write-back of window 3, at the last tile, writes its whole [1,1] array. -/
theorem flushed3_eq (t : Fin cfg1.N) (hf : (cfg1.win 3).flush t = true) :
    (dat1 V c).flushed 3 t = ((cfg1.win 3).blk t).view.read (Elt Ideal) (res3 V c) := by
  have hN : cfg1.N = 4 := N_1
  have h3 : t.val = 3 := by have := (flush1_3 t).mp hf; have := t.isLt; omega
  obtain rfl : t = t1_3 := Fin.ext h3
  show (cfg1.win 3).cut (grid1.coords t1_3) ((dat1 V c).after 3 t1_3) = _
  rw [after1_3]
  have hz' : (fun a => win1_3.index t1_3 a * main_v8_0.ty.shape.size a) = fun _ => 0 := funext fun a => by fin_cases a <;> decide
  exact (Memref.read_access_unit_zero (Elt Ideal) main_v8_0 hz' (fun a => by rw [congrFun hz' a]; simp) (res3 V c)).symm
theorem flushed4_eq (t : Fin cfg1.N) (hf : (cfg1.win 4).flush t = true) :
    (dat1 V c).flushed 4 t = ((cfg1.win 4).blk t).view.read (Elt Ideal) (res4 V c) := by
  have hN : cfg1.N = 4 := N_1
  have h3 : t.val = 3 := by have := (flush1_4 t).mp hf; have := t.isLt; omega
  obtain rfl : t = t1_3 := Fin.ext h3
  show (cfg1.win 4).cut (grid1.coords t1_3) ((dat1 V c).after 4 t1_3) = _
  rw [after1_4]
  have hz' : (fun a => win1_4.index t1_3 a * main_v8_1.ty.shape.size a) = fun _ => 0 := funext fun a => by fin_cases a <;> decide
  exact (Memref.read_access_unit_zero (Elt Ideal) main_v8_1 hz' (fun a => by rw [congrFun hz' a]; simp) (res4 V c)).symm

theorem final3 : (dat1 V c).arrAt 3 cfg1.N = res3 V c :=
  (dat1 V c).arrAt_eq_of_cover 3 (res3 V c) (flushed3_eq V c) fun i =>
    ⟨t1_3, (flush1_3 t1_3).mpr rfl, by
      show i ∈ ((View.whole main_v8_0).slice (win1_3.rect t1_3)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_3 0 * win1_3.size 0 ≤ (i 0 : Nat) ∧ (i 0 : Nat) < win1_3.index t1_3 0 * win1_3.size 0 + win1_3.xsize (grid1.coords t1_3) 0
                  rw [show win1_3.index t1_3 0 * win1_3.size 0 = 0 from by decide +kernel, show win1_3.xsize (grid1.coords t1_3) 0 = 1 from by decide +kernel]; omega
      | ⟨1, _⟩ => show win1_3.index t1_3 1 * win1_3.size 1 ≤ (i 1 : Nat) ∧ (i 1 : Nat) < win1_3.index t1_3 1 * win1_3.size 1 + win1_3.xsize (grid1.coords t1_3) 1
                  rw [show win1_3.index t1_3 1 * win1_3.size 1 = 0 from by decide +kernel, show win1_3.xsize (grid1.coords t1_3) 1 = 1 from by decide +kernel]; omega⟩
theorem final4 : (dat1 V c).arrAt 4 cfg1.N = res4 V c :=
  (dat1 V c).arrAt_eq_of_cover 4 (res4 V c) (flushed4_eq V c) fun i =>
    ⟨t1_3, (flush1_4 t1_3).mpr rfl, by
      show i ∈ ((View.whole main_v8_1).slice (win1_4.rect t1_3)).set
      rw [View.set_slice_whole, Rect.mem_set_unit]
      intro a
      have h0 : (i 0 : Nat) < 1 := (i 0).isLt
      have h1 : (i 1 : Nat) < 1 := (i 1).isLt
      match a with
      | ⟨0, _⟩ => show win1_4.index t1_3 0 * win1_4.size 0 ≤ (i 0 : Nat) ∧ (i 0 : Nat) < win1_4.index t1_3 0 * win1_4.size 0 + win1_4.xsize (grid1.coords t1_3) 0
                  rw [show win1_4.index t1_3 0 * win1_4.size 0 = 0 from by decide +kernel, show win1_4.xsize (grid1.coords t1_3) 0 = 1 from by decide +kernel]; omega
      | ⟨1, _⟩ => show win1_4.index t1_3 1 * win1_4.size 1 ≤ (i 1 : Nat) ∧ (i 1 : Nat) < win1_4.index t1_3 1 * win1_4.size 1 + win1_4.xsize (grid1.coords t1_3) 1
                  rw [show win1_4.index t1_3 1 * win1_4.size 1 = 0 from by decide +kernel, show win1_4.xsize (grid1.coords t1_3) 1 = 1 from by decide +kernel]; omega⟩

/-! ## The input blocks -/

theorem idx1_0 : ∀ t : Fin cfg1.N, win1_0.index t 0 = 0 ∧ win1_0.index t 1 = t.val ∧ win1_0.index t 2 = 0 :=
  (by decide +kernel : ∀ t : Fin grid1.N, win1_0.index t 0 = 0 ∧ win1_0.index t 1 = t.val ∧ win1_0.index t 2 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem coord1 : ∀ t : Fin cfg1.N, (grid1.coords t 0).val = t.val :=
  (by decide +kernel : ∀ t : Fin grid1.N, (grid1.coords t 0).val = t.val)

/-- The first block at tile ti: rows 256·ti … of both Gram shards. -/
theorem blk0_apply (t : Fin cfg1.N) (ti : Fin 4) (h : t.val = ti.val) (s : Fin 2) (r : Fin 256) (cc : Fin 1024) :
    (iblk1 V c 0 t : S2x256x1024.Idx → EReal) (ix3 s r cc) = (V c main_v1_0 : S2x1024x1024.Idx → EReal) (ix3 s (Spec.rowOf ti r) cc) := by
  obtain ⟨h0, h1, h2⟩ := idx1_0 t
  unfold iblk1
  rw [View.read_apply]
  show V c main_v1_0 _ = V c main_v1_0 _
  congr 1
  funext a
  apply Fin.ext
  match a with
  | ⟨0, _⟩ => show win1_0.index t 0 * 2 + 1 * s.val = s.val; rw [h0]; omega
  | ⟨1, _⟩ => show win1_0.index t 1 * 256 + 1 * r.val = ti.val * 256 + r.val; rw [h1, h]; omega
  | ⟨2, _⟩ => show win1_0.index t 2 * 1024 + 1 * cc.val = cc.val; rw [h2]; omega

/-- The second block: the same rows of the column of row norms. -/
theorem blk1_apply (t : Fin cfg1.N) (ti : Fin 4) (h : t.val = ti.val) (r : Fin 256) :
    (iblk1 V c 1 t : S256x1.Idx → EReal) (ix2 r (0 : Fin 1)) = (V c main_v6 : S1024x1.Idx → EReal) (ix2 (Spec.rowOf ti r) (0 : Fin 1)) := by
  obtain ⟨h0, h1⟩ := idx1_1 t
  unfold iblk1
  rw [View.read_apply]
  show V c main_v6 _ = V c main_v6 _
  congr 1
  funext a
  apply Fin.ext
  match a with
  | ⟨0, _⟩ => show win1_1.index t 0 * 256 + 1 * r.val = ti.val * 256 + r.val; rw [h0, h]; omega
  | ⟨1, _⟩ => show win1_1.index t 1 * 1 + 1 * 0 = 0; rw [h1]

/-- The third block: the whole row of row norms. -/
theorem blk2_apply (t : Fin cfg1.N) (cc : Fin 1024) :
    (iblk1 V c 2 t : S1x1024.Idx → EReal) (ix2 (0 : Fin 1) cc) = (V c main_v7 : S1x1024.Idx → EReal) (ix2 (0 : Fin 1) cc) := by
  obtain ⟨h0, h1⟩ := idx1_2 t
  unfold iblk1
  rw [View.read_apply]
  show V c main_v7 _ = V c main_v7 _
  congr 1
  funext a
  apply Fin.ext
  match a with
  | ⟨0, _⟩ => show win1_2.index t 0 * 1 + 1 * 0 = 0; rw [h0]
  | ⟨1, _⟩ => show win1_2.index t 1 * 1024 + 1 * cc.val = cc.val; rw [h1]; omega

/-! ## The two results -/

/-- What the epilogue is handed. -/
abbrev sqcOf : Fin 1024 → EReal := fun i => (V c main_v6 : S1024x1.Idx → EReal) (ix2 i (0 : Fin 1))
abbrev sqrOf : Fin 1024 → EReal := fun j => (V c main_v7 : S1x1024.Idx → EReal) (ix2 (0 : Fin 1) j)
abbrev g0Of : Fin 1024 → Fin 1024 → EReal := fun i j => (V c main_v1_0 : S2x1024x1024.Idx → EReal) (ix3 (0 : Fin 2) i j)
abbrev g1Of : Fin 1024 → Fin 1024 → EReal := fun i j => (V c main_v1_0 : S2x1024x1024.Idx → EReal) (ix3 (1 : Fin 2) i j)

theorem tHomo_eq (t : Fin cfg1.N) (ti : Fin 4) (h : t.val = ti.val) :
    tHomo V c t = ∑ r : Fin 256, ∑ cc : Fin 1024,
      if (Spec.rowOf ti r).val < cc.val ∧ (Spec.rowOf ti r).val / 8 = cc.val / 8 then
        Spec.distG (sqcOf V c) (sqrOf V c) (g0Of V c) (g1Of V c) (Spec.rowOf ti r) cc else 0 := by
  have hco : (grid1.coords t 0).val = ti.val := (coord1 t).trans h
  unfold tHomo homoPay
  refine Finset.sum_congr rfl fun r _ => Finset.sum_congr rfl fun cc _ => ?_
  refine (pay12_apply (grid1.coords t) _ 1#32 0#32 (by decide) r cc).trans ?_
  rw [pay5_apply, blk0_apply V c t ti h, blk0_apply V c t ti h, blk1_apply V c t ti h, blk2_apply V c t, hco]
  rfl

theorem tHeter_eq (t : Fin cfg1.N) (ti : Fin 4) (h : t.val = ti.val) :
    tHeter V c t = ∑ r : Fin 256, ∑ cc : Fin 1024,
      if (Spec.rowOf ti r).val < cc.val ∧ (Spec.rowOf ti r).val / 8 ≠ cc.val / 8 then
        max (1 - Spec.distG (sqcOf V c) (sqrOf V c) (g0Of V c) (g1Of V c) (Spec.rowOf ti r) cc) 0 else 0 := by
  have hco : (grid1.coords t 0).val = ti.val := (coord1 t).trans h
  unfold tHeter heterPay
  refine Finset.sum_congr rfl fun r _ => Finset.sum_congr rfl fun cc _ => ?_
  refine (pay13_apply (grid1.coords t) _ 1#32 0#32 (by decide) r cc).trans ?_
  rw [pay5_apply, blk0_apply V c t ti h, blk0_apply V c t ti h, blk1_apply V c t ti h, blk2_apply V c t, hco]
  rfl

/-- Result 0: the same-group sum. -/
theorem homoOut_eq :
    ((dat1 (F := Ideal) V c).arrAt 3 cfg1.N : S1x1.Idx → EReal) (ix2 (0 : Fin 1) (0 : Fin 1))
      = Spec.homoG (sqcOf V c) (sqrOf V c) (g0Of V c) (g1Of V c) := by
  refine (congrFun (final3 V c) o00).trans ?_
  refine (win3_eq V c).trans ?_
  unfold Spec.homoG
  rw [Fin.sum_univ_four]
  show ((0 + tHomo V c ⟨0, _⟩ + tHomo V c ⟨1, _⟩) + tHomo V c ⟨2, _⟩) + tHomo V c ⟨3, _⟩ = _
  rw [tHomo_eq V c ⟨0, _⟩ 0 rfl, tHomo_eq V c ⟨1, _⟩ 1 rfl, tHomo_eq V c ⟨2, _⟩ 2 rfl, tHomo_eq V c ⟨3, _⟩ 3 rfl, zero_add]

/-- Result 1: the different-group hinge sum. -/
theorem heterOut_eq :
    ((dat1 (F := Ideal) V c).arrAt 4 cfg1.N : S1x1.Idx → EReal) (ix2 (0 : Fin 1) (0 : Fin 1))
      = Spec.heterG (sqcOf V c) (sqrOf V c) (g0Of V c) (g1Of V c) := by
  refine (congrFun (final4 V c) o00).trans ?_
  refine (win4_eq V c).trans ?_
  unfold Spec.heterG
  rw [Fin.sum_univ_four]
  show ((0 + tHeter V c ⟨0, _⟩ + tHeter V c ⟨1, _⟩) + tHeter V c ⟨2, _⟩) + tHeter V c ⟨3, _⟩ = _
  rw [tHeter_eq V c ⟨0, _⟩ 0 rfl, tHeter_eq V c ⟨1, _⟩ 1 rfl, tHeter_eq V c ⟨2, _⟩ 2 rfl, tHeter_eq V c ⟨3, _⟩ 3 rfl, zero_add]

end Cert.KernelIdeal.Hand

end
-- ==== Proof.Ref.Run.lean ====
/-
  The reference program's @main as the list of its 83 host operations, the three outlined functions' operations
  written at their call sites over the calls' buffer records, and its run: every weakly fair execution terminates
  with each buffer at the fold of the operations' results over the launch contents.
-/
import proofs.«167578_j20134806684259_2_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The operations in stretches: @main's own up to the floor division, the floor division's seventeen (its sixteen and
    the select of the function it calls), @main's up to the first masked selection, its three, @main's up to the second,
    its three, the rest of the first window, and the second window. -/

abbrev opsA : List (HloOp τ sig (Elt F)) :=
  [ reshape main_arg0 main_v0 rfl shapeCasts_S1024x64x768_S1024x49152,
    binary main_v0 main_v0 main_v1 (mulf : (⟨S1024x49152, .f32⟩ : BufTy).Contents (Elt F) → (⟨S1024x49152, .f32⟩ : BufTy).Contents (Elt F) → (⟨S1024x49152, .f32⟩ : BufTy).Contents (Elt F)),
    nullary main_cst (constant S_ .f32 0x00000000#32),
    binary main_v1 main_cst main_v2 ((fun x v => Host.reduceAdd x v reducesTo_S1024x49152_S1024_d1 h_S_) : (⟨S1024x49152, .f32⟩ : BufTy).Contents (Elt F) → (⟨S_, .f32⟩ : BufTy).Contents (Elt F) → (⟨S1024, .f32⟩ : BufTy).Contents (Elt F)),
    unary main_v2 main_v3 (broadcastInDim S1024x1 ![0] bcast_S1024_S1024x1_0 : (⟨S1024, .f32⟩ : BufTy).Contents (Elt F) → (⟨S1024x1, .f32⟩ : BufTy).Contents (Elt F)),
    unary main_v2 main_v4 (broadcastInDim S1x1024 ![1] bcast_S1024_S1x1024_1 : (⟨S1024, .f32⟩ : BufTy).Contents (Elt F) → (⟨S1x1024, .f32⟩ : BufTy).Contents (Elt F)),
    unary main_v3 main_v5 (broadcastInDim S1024x1024 ![0, 1] bcast_S1024x1_S1024x1024_0_1 : (⟨S1024x1, .f32⟩ : BufTy).Contents (Elt F) → (⟨S1024x1024, .f32⟩ : BufTy).Contents (Elt F)),
    unary main_v4 main_v6 (broadcastInDim S1024x1024 ![0, 1] bcast_S1x1024_S1024x1024_0_1 : (⟨S1x1024, .f32⟩ : BufTy).Contents (Elt F) → (⟨S1024x1024, .f32⟩ : BufTy).Contents (Elt F)),
    binary main_v5 main_v6 main_v7 (addf : (⟨S1024x1024, .f32⟩ : BufTy).Contents (Elt F) → (⟨S1024x1024, .f32⟩ : BufTy).Contents (Elt F) → (⟨S1024x1024, .f32⟩ : BufTy).Contents (Elt F)),
    unary main_v0 main_v8 ((transpose S49152x1024 [1, 0] · transposes_S1024x49152_S49152x1024_1_0) : (⟨S1024x49152, .f32⟩ : BufTy).Contents (Elt F) → (⟨S49152x1024, .f32⟩ : BufTy).Contents (Elt F)),
    binary main_v0 main_v8 main_v9 ((fun l r => Host.dotGeneral dot_S1024x49152_S49152x1024_S1024x1024_1_0_0_1_n_n none l r) : (⟨S1024x49152, .f32⟩ : BufTy).Contents (Elt F) → (⟨S49152x1024, .f32⟩ : BufTy).Contents (Elt F) → (⟨S1024x1024, .f32⟩ : BufTy).Contents (Elt F)),
    nullary main_cst_0 (constant S_ .f32 0x40000000#32),
    unary main_cst_0 main_v10 (broadcastInDim S1024x1024 ![] bcast_S_S1024x1024 : (⟨S_, .f32⟩ : BufTy).Contents (Elt F) → (⟨S1024x1024, .f32⟩ : BufTy).Contents (Elt F)),
    binary main_v10 main_v9 main_v11 (mulf : (⟨S1024x1024, .f32⟩ : BufTy).Contents (Elt F) → (⟨S1024x1024, .f32⟩ : BufTy).Contents (Elt F) → (⟨S1024x1024, .f32⟩ : BufTy).Contents (Elt F)),
    binary main_v7 main_v11 main_v12 (subf : (⟨S1024x1024, .f32⟩ : BufTy).Contents (Elt F) → (⟨S1024x1024, .f32⟩ : BufTy).Contents (Elt F) → (⟨S1024x1024, .f32⟩ : BufTy).Contents (Elt F)),
    nullary main_cst_1 (constant S_ .f32 0x00000000#32),
    unary main_cst_1 main_v13 (broadcastInDim S1024x1024 ![] bcast_S_S1024x1024 : (⟨S_, .f32⟩ : BufTy).Contents (Elt F) → (⟨S1024x1024, .f32⟩ : BufTy).Contents (Elt F)),
    binary main_v12 main_v13 main_v14 (maximumf : (⟨S1024x1024, .f32⟩ : BufTy).Contents (Elt F) → (⟨S1024x1024, .f32⟩ : BufTy).Contents (Elt F) → (⟨S1024x1024, .f32⟩ : BufTy).Contents (Elt F)),
    nullary main_v15 (iotaInDim S1024 32 0),
    nullary main_c (constantI S_ 32 8#32) ]

abbrev opsF : List (HloOp τ sig (Elt F)) :=
  [ TRef.unary (.of main_c : TRef sig ⟨S_, .i32⟩) main_call0.v0 id,
    TRef.unary main_call0.v0 main_call0.v1 (broadcastInDim S1024 ![] bcast_S_S1024),
    TRef.binary (.of main_v15 : TRef sig ⟨S1024, .i32⟩) main_call0.v1 main_call0.v2 Host.divsi,
    TRef.unary (.of main_v15 : TRef sig ⟨S1024, .i32⟩) main_call0.v3 signi,
    TRef.unary main_call0.v0 main_call0.v4 signi,
    TRef.unary main_call0.v4 main_call0.v5 (broadcastInDim S1024 ![] bcast_S_S1024),
    TRef.binary main_call0.v3 main_call0.v5 main_call0.v6 (cmpi .ne),
    TRef.unary main_call0.v0 main_call0.v7 (broadcastInDim S1024 ![] bcast_S_S1024),
    TRef.binary (.of main_v15 : TRef sig ⟨S1024, .i32⟩) main_call0.v7 main_call0.v8 Host.remsi,
    TRef.nullary main_call0.c (constantI S_ 32 0#32),
    TRef.unary main_call0.c main_call0.v9 (broadcastInDim S1024 ![] bcast_S_S1024),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1024 ![] bcast_S_S1024),
    TRef.binary main_call0.v2 main_call0.v12 main_call0.v13 subi,
    TRef.ternary main_call0.v11 main_call0.v13 main_call0.v2 main_call0.call0.v0 select ]

abbrev opsB : List (HloOp τ sig (Elt F)) :=
  [ unary main_v16 main_v17 (broadcastInDim S1024x1 ![0] bcast_S1024_S1024x1_0 : (⟨S1024, .i32⟩ : BufTy).Contents (Elt F) → (⟨S1024x1, .i32⟩ : BufTy).Contents (Elt F)),
    unary main_v16 main_v18 (broadcastInDim S1x1024 ![1] bcast_S1024_S1x1024_1 : (⟨S1024, .i32⟩ : BufTy).Contents (Elt F) → (⟨S1x1024, .i32⟩ : BufTy).Contents (Elt F)),
    unary main_v17 main_v19 (broadcastInDim S1024x1024 ![0, 1] bcast_S1024x1_S1024x1024_0_1 : (⟨S1024x1, .i32⟩ : BufTy).Contents (Elt F) → (⟨S1024x1024, .i32⟩ : BufTy).Contents (Elt F)),
    unary main_v18 main_v20 (broadcastInDim S1024x1024 ![0, 1] bcast_S1x1024_S1024x1024_0_1 : (⟨S1x1024, .i32⟩ : BufTy).Contents (Elt F) → (⟨S1024x1024, .i32⟩ : BufTy).Contents (Elt F)),
    binary main_v19 main_v20 main_v21 (cmpi .eq : (⟨S1024x1024, .i32⟩ : BufTy).Contents (Elt F) → (⟨S1024x1024, .i32⟩ : BufTy).Contents (Elt F) → (⟨S1024x1024, .i1⟩ : BufTy).Contents (Elt F)),
    nullary main_v22 (iotaInDim S1024x1024 32 0),
    nullary main_v23 (iotaInDim S1024x1024 32 1),
    nullary main_c_2 (constantI S_ 32 0#32),
    unary main_c_2 main_v24 (broadcastInDim S1024x1024 ![] bcast_S_S1024x1024 : (⟨S_, .i32⟩ : BufTy).Contents (Elt F) → (⟨S1024x1024, .i32⟩ : BufTy).Contents (Elt F)),
    binary main_v22 main_v24 main_v25 (addi : (⟨S1024x1024, .i32⟩ : BufTy).Contents (Elt F) → (⟨S1024x1024, .i32⟩ : BufTy).Contents (Elt F) → (⟨S1024x1024, .i32⟩ : BufTy).Contents (Elt F)),
    binary main_v25 main_v23 main_v26 (cmpi .eq : (⟨S1024x1024, .i32⟩ : BufTy).Contents (Elt F) → (⟨S1024x1024, .i32⟩ : BufTy).Contents (Elt F) → (⟨S1024x1024, .i1⟩ : BufTy).Contents (Elt F)),
    unary main_v26 main_v27 (noti : (⟨S1024x1024, .i1⟩ : BufTy).Contents (Elt F) → (⟨S1024x1024, .i1⟩ : BufTy).Contents (Elt F)),
    binary main_v21 main_v27 main_v28 (andi : (⟨S1024x1024, .i1⟩ : BufTy).Contents (Elt F) → (⟨S1024x1024, .i1⟩ : BufTy).Contents (Elt F) → (⟨S1024x1024, .i1⟩ : BufTy).Contents (Elt F)),
    unary main_v16 main_v29 (broadcastInDim S1024x1 ![0] bcast_S1024_S1024x1_0 : (⟨S1024, .i32⟩ : BufTy).Contents (Elt F) → (⟨S1024x1, .i32⟩ : BufTy).Contents (Elt F)),
    unary main_v16 main_v30 (broadcastInDim S1x1024 ![1] bcast_S1024_S1x1024_1 : (⟨S1024, .i32⟩ : BufTy).Contents (Elt F) → (⟨S1x1024, .i32⟩ : BufTy).Contents (Elt F)),
    unary main_v29 main_v31 (broadcastInDim S1024x1024 ![0, 1] bcast_S1024x1_S1024x1024_0_1 : (⟨S1024x1, .i32⟩ : BufTy).Contents (Elt F) → (⟨S1024x1024, .i32⟩ : BufTy).Contents (Elt F)),
    unary main_v30 main_v32 (broadcastInDim S1024x1024 ![0, 1] bcast_S1x1024_S1024x1024_0_1 : (⟨S1x1024, .i32⟩ : BufTy).Contents (Elt F) → (⟨S1024x1024, .i32⟩ : BufTy).Contents (Elt F)),
    binary main_v31 main_v32 main_v33 (cmpi .ne : (⟨S1024x1024, .i32⟩ : BufTy).Contents (Elt F) → (⟨S1024x1024, .i32⟩ : BufTy).Contents (Elt F) → (⟨S1024x1024, .i1⟩ : BufTy).Contents (Elt F)),
    nullary main_cst_3 (constant S_ .f32 0x00000000#32) ]

abbrev opsW1 : List (HloOp τ sig (Elt F)) :=
  [ TRef.unary (.of main_cst_3 : TRef sig ⟨S_, .f32⟩) main_call1.v0 id,
    TRef.unary main_call1.v0 main_call1.v1 (broadcastInDim S1024x1024 ![] bcast_S_S1024x1024),
    TRef.ternary (.of main_v28 : TRef sig ⟨S1024x1024, .i1⟩) (.of main_v14 : TRef sig ⟨S1024x1024, .f32⟩) main_call1.v1 main_call1.v2 select ]

abbrev opsC : List (HloOp τ sig (Elt F)) :=
  [ nullary main_cst_4 (constant S_ .f32 0x00000000#32),
    binary main_v34 main_cst_4 main_v35 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_5 (constant S_ .f32 0x3F000000#32),
    binary main_cst_5 main_v35 main_v36 (mulf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    unary main_cst_6 main_v37 (broadcastInDim S1024x1024 ![] bcast_S_S1024x1024 : (⟨S_, .f32⟩ : BufTy).Contents (Elt F) → (⟨S1024x1024, .f32⟩ : BufTy).Contents (Elt F)),
    binary main_v37 main_v14 main_v38 (subf : (⟨S1024x1024, .f32⟩ : BufTy).Contents (Elt F) → (⟨S1024x1024, .f32⟩ : BufTy).Contents (Elt F) → (⟨S1024x1024, .f32⟩ : BufTy).Contents (Elt F)),
    nullary main_cst_7 (constant S_ .f32 0x00000000#32),
    unary main_cst_7 main_v39 (broadcastInDim S1024x1024 ![] bcast_S_S1024x1024 : (⟨S_, .f32⟩ : BufTy).Contents (Elt F) → (⟨S1024x1024, .f32⟩ : BufTy).Contents (Elt F)),
    binary main_v38 main_v39 main_v40 (maximumf : (⟨S1024x1024, .f32⟩ : BufTy).Contents (Elt F) → (⟨S1024x1024, .f32⟩ : BufTy).Contents (Elt F) → (⟨S1024x1024, .f32⟩ : BufTy).Contents (Elt F)),
    nullary main_cst_8 (constant S_ .f32 0x00000000#32) ]

abbrev opsW2 : List (HloOp τ sig (Elt F)) :=
  [ TRef.unary (.of main_cst_8 : TRef sig ⟨S_, .f32⟩) main_call2.v0 id,
    TRef.unary main_call2.v0 main_call2.v1 (broadcastInDim S1024x1024 ![] bcast_S_S1024x1024),
    TRef.ternary (.of main_v33 : TRef sig ⟨S1024x1024, .i1⟩) (.of main_v40 : TRef sig ⟨S1024x1024, .f32⟩) main_call2.v1 main_call2.v2 select ]

abbrev opsD : List (HloOp τ sig (Elt F)) :=
  [ nullary main_cst_9 (constant S_ .f32 0x00000000#32),
    binary main_v41 main_cst_9 main_v42 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_10 (constant S_ .f32 0x40000000#32),
    binary main_cst_10 main_v36 main_v43 (mulf : (⟨S_, .f32⟩ : BufTy).Contents (Elt F) → (⟨S_, .f32⟩ : BufTy).Contents (Elt F) → (⟨S_, .f32⟩ : BufTy).Contents (Elt F)),
    nullary main_cst_11 (constant S_ .f32 0x45E00000#32),
    binary main_v43 main_cst_11 main_v44 (Host.divf : (⟨S_, .f32⟩ : BufTy).Contents (Elt F) → (⟨S_, .f32⟩ : BufTy).Contents (Elt F) → (⟨S_, .f32⟩ : BufTy).Contents (Elt F)),
    nullary main_cst_12 (constant S_ .f32 0x40000000#32) ]

abbrev opsE : List (HloOp τ sig (Elt F)) :=
  [ binary main_cst_12 main_v42 main_v45 (mulf : (⟨S_, .f32⟩ : BufTy).Contents (Elt F) → (⟨S_, .f32⟩ : BufTy).Contents (Elt F) → (⟨S_, .f32⟩ : BufTy).Contents (Elt F)),
    nullary main_cst_13 (constant S_ .f32 0x47FE0000#32),
    binary main_v45 main_cst_13 main_v46 (Host.divf : (⟨S_, .f32⟩ : BufTy).Contents (Elt F) → (⟨S_, .f32⟩ : BufTy).Contents (Elt F) → (⟨S_, .f32⟩ : BufTy).Contents (Elt F)) ]

/-- @main's operations, in order. -/
abbrev ops : List (HloOp τ sig (Elt F)) :=
  [ reshape main_arg0 main_v0 rfl shapeCasts_S1024x64x768_S1024x49152,
    binary main_v0 main_v0 main_v1 (mulf : (⟨S1024x49152, .f32⟩ : BufTy).Contents (Elt F) → (⟨S1024x49152, .f32⟩ : BufTy).Contents (Elt F) → (⟨S1024x49152, .f32⟩ : BufTy).Contents (Elt F)),
    nullary main_cst (constant S_ .f32 0x00000000#32),
    binary main_v1 main_cst main_v2 ((fun x v => Host.reduceAdd x v reducesTo_S1024x49152_S1024_d1 h_S_) : (⟨S1024x49152, .f32⟩ : BufTy).Contents (Elt F) → (⟨S_, .f32⟩ : BufTy).Contents (Elt F) → (⟨S1024, .f32⟩ : BufTy).Contents (Elt F)),
    unary main_v2 main_v3 (broadcastInDim S1024x1 ![0] bcast_S1024_S1024x1_0 : (⟨S1024, .f32⟩ : BufTy).Contents (Elt F) → (⟨S1024x1, .f32⟩ : BufTy).Contents (Elt F)),
    unary main_v2 main_v4 (broadcastInDim S1x1024 ![1] bcast_S1024_S1x1024_1 : (⟨S1024, .f32⟩ : BufTy).Contents (Elt F) → (⟨S1x1024, .f32⟩ : BufTy).Contents (Elt F)),
    unary main_v3 main_v5 (broadcastInDim S1024x1024 ![0, 1] bcast_S1024x1_S1024x1024_0_1 : (⟨S1024x1, .f32⟩ : BufTy).Contents (Elt F) → (⟨S1024x1024, .f32⟩ : BufTy).Contents (Elt F)),
    unary main_v4 main_v6 (broadcastInDim S1024x1024 ![0, 1] bcast_S1x1024_S1024x1024_0_1 : (⟨S1x1024, .f32⟩ : BufTy).Contents (Elt F) → (⟨S1024x1024, .f32⟩ : BufTy).Contents (Elt F)),
    binary main_v5 main_v6 main_v7 (addf : (⟨S1024x1024, .f32⟩ : BufTy).Contents (Elt F) → (⟨S1024x1024, .f32⟩ : BufTy).Contents (Elt F) → (⟨S1024x1024, .f32⟩ : BufTy).Contents (Elt F)),
    unary main_v0 main_v8 ((transpose S49152x1024 [1, 0] · transposes_S1024x49152_S49152x1024_1_0) : (⟨S1024x49152, .f32⟩ : BufTy).Contents (Elt F) → (⟨S49152x1024, .f32⟩ : BufTy).Contents (Elt F)),
    binary main_v0 main_v8 main_v9 ((fun l r => Host.dotGeneral dot_S1024x49152_S49152x1024_S1024x1024_1_0_0_1_n_n none l r) : (⟨S1024x49152, .f32⟩ : BufTy).Contents (Elt F) → (⟨S49152x1024, .f32⟩ : BufTy).Contents (Elt F) → (⟨S1024x1024, .f32⟩ : BufTy).Contents (Elt F)),
    nullary main_cst_0 (constant S_ .f32 0x40000000#32),
    unary main_cst_0 main_v10 (broadcastInDim S1024x1024 ![] bcast_S_S1024x1024 : (⟨S_, .f32⟩ : BufTy).Contents (Elt F) → (⟨S1024x1024, .f32⟩ : BufTy).Contents (Elt F)),
    binary main_v10 main_v9 main_v11 (mulf : (⟨S1024x1024, .f32⟩ : BufTy).Contents (Elt F) → (⟨S1024x1024, .f32⟩ : BufTy).Contents (Elt F) → (⟨S1024x1024, .f32⟩ : BufTy).Contents (Elt F)),
    binary main_v7 main_v11 main_v12 (subf : (⟨S1024x1024, .f32⟩ : BufTy).Contents (Elt F) → (⟨S1024x1024, .f32⟩ : BufTy).Contents (Elt F) → (⟨S1024x1024, .f32⟩ : BufTy).Contents (Elt F)),
    nullary main_cst_1 (constant S_ .f32 0x00000000#32),
    unary main_cst_1 main_v13 (broadcastInDim S1024x1024 ![] bcast_S_S1024x1024 : (⟨S_, .f32⟩ : BufTy).Contents (Elt F) → (⟨S1024x1024, .f32⟩ : BufTy).Contents (Elt F)),
    binary main_v12 main_v13 main_v14 (maximumf : (⟨S1024x1024, .f32⟩ : BufTy).Contents (Elt F) → (⟨S1024x1024, .f32⟩ : BufTy).Contents (Elt F) → (⟨S1024x1024, .f32⟩ : BufTy).Contents (Elt F)),
    nullary main_v15 (iotaInDim S1024 32 0),
    nullary main_c (constantI S_ 32 8#32),
    TRef.unary (.of main_c : TRef sig ⟨S_, .i32⟩) main_call0.v0 id,
    TRef.unary main_call0.v0 main_call0.v1 (broadcastInDim S1024 ![] bcast_S_S1024),
    TRef.binary (.of main_v15 : TRef sig ⟨S1024, .i32⟩) main_call0.v1 main_call0.v2 Host.divsi,
    TRef.unary (.of main_v15 : TRef sig ⟨S1024, .i32⟩) main_call0.v3 signi,
    TRef.unary main_call0.v0 main_call0.v4 signi,
    TRef.unary main_call0.v4 main_call0.v5 (broadcastInDim S1024 ![] bcast_S_S1024),
    TRef.binary main_call0.v3 main_call0.v5 main_call0.v6 (cmpi .ne),
    TRef.unary main_call0.v0 main_call0.v7 (broadcastInDim S1024 ![] bcast_S_S1024),
    TRef.binary (.of main_v15 : TRef sig ⟨S1024, .i32⟩) main_call0.v7 main_call0.v8 Host.remsi,
    TRef.nullary main_call0.c (constantI S_ 32 0#32),
    TRef.unary main_call0.c main_call0.v9 (broadcastInDim S1024 ![] bcast_S_S1024),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1024 ![] bcast_S_S1024),
    TRef.binary main_call0.v2 main_call0.v12 main_call0.v13 subi,
    TRef.ternary main_call0.v11 main_call0.v13 main_call0.v2 main_call0.call0.v0 select,
    unary main_v16 main_v17 (broadcastInDim S1024x1 ![0] bcast_S1024_S1024x1_0 : (⟨S1024, .i32⟩ : BufTy).Contents (Elt F) → (⟨S1024x1, .i32⟩ : BufTy).Contents (Elt F)),
    unary main_v16 main_v18 (broadcastInDim S1x1024 ![1] bcast_S1024_S1x1024_1 : (⟨S1024, .i32⟩ : BufTy).Contents (Elt F) → (⟨S1x1024, .i32⟩ : BufTy).Contents (Elt F)),
    unary main_v17 main_v19 (broadcastInDim S1024x1024 ![0, 1] bcast_S1024x1_S1024x1024_0_1 : (⟨S1024x1, .i32⟩ : BufTy).Contents (Elt F) → (⟨S1024x1024, .i32⟩ : BufTy).Contents (Elt F)),
    unary main_v18 main_v20 (broadcastInDim S1024x1024 ![0, 1] bcast_S1x1024_S1024x1024_0_1 : (⟨S1x1024, .i32⟩ : BufTy).Contents (Elt F) → (⟨S1024x1024, .i32⟩ : BufTy).Contents (Elt F)),
    binary main_v19 main_v20 main_v21 (cmpi .eq : (⟨S1024x1024, .i32⟩ : BufTy).Contents (Elt F) → (⟨S1024x1024, .i32⟩ : BufTy).Contents (Elt F) → (⟨S1024x1024, .i1⟩ : BufTy).Contents (Elt F)),
    nullary main_v22 (iotaInDim S1024x1024 32 0),
    nullary main_v23 (iotaInDim S1024x1024 32 1),
    nullary main_c_2 (constantI S_ 32 0#32),
    unary main_c_2 main_v24 (broadcastInDim S1024x1024 ![] bcast_S_S1024x1024 : (⟨S_, .i32⟩ : BufTy).Contents (Elt F) → (⟨S1024x1024, .i32⟩ : BufTy).Contents (Elt F)),
    binary main_v22 main_v24 main_v25 (addi : (⟨S1024x1024, .i32⟩ : BufTy).Contents (Elt F) → (⟨S1024x1024, .i32⟩ : BufTy).Contents (Elt F) → (⟨S1024x1024, .i32⟩ : BufTy).Contents (Elt F)),
    binary main_v25 main_v23 main_v26 (cmpi .eq : (⟨S1024x1024, .i32⟩ : BufTy).Contents (Elt F) → (⟨S1024x1024, .i32⟩ : BufTy).Contents (Elt F) → (⟨S1024x1024, .i1⟩ : BufTy).Contents (Elt F)),
    unary main_v26 main_v27 (noti : (⟨S1024x1024, .i1⟩ : BufTy).Contents (Elt F) → (⟨S1024x1024, .i1⟩ : BufTy).Contents (Elt F)),
    binary main_v21 main_v27 main_v28 (andi : (⟨S1024x1024, .i1⟩ : BufTy).Contents (Elt F) → (⟨S1024x1024, .i1⟩ : BufTy).Contents (Elt F) → (⟨S1024x1024, .i1⟩ : BufTy).Contents (Elt F)),
    unary main_v16 main_v29 (broadcastInDim S1024x1 ![0] bcast_S1024_S1024x1_0 : (⟨S1024, .i32⟩ : BufTy).Contents (Elt F) → (⟨S1024x1, .i32⟩ : BufTy).Contents (Elt F)),
    unary main_v16 main_v30 (broadcastInDim S1x1024 ![1] bcast_S1024_S1x1024_1 : (⟨S1024, .i32⟩ : BufTy).Contents (Elt F) → (⟨S1x1024, .i32⟩ : BufTy).Contents (Elt F)),
    unary main_v29 main_v31 (broadcastInDim S1024x1024 ![0, 1] bcast_S1024x1_S1024x1024_0_1 : (⟨S1024x1, .i32⟩ : BufTy).Contents (Elt F) → (⟨S1024x1024, .i32⟩ : BufTy).Contents (Elt F)),
    unary main_v30 main_v32 (broadcastInDim S1024x1024 ![0, 1] bcast_S1x1024_S1024x1024_0_1 : (⟨S1x1024, .i32⟩ : BufTy).Contents (Elt F) → (⟨S1024x1024, .i32⟩ : BufTy).Contents (Elt F)),
    binary main_v31 main_v32 main_v33 (cmpi .ne : (⟨S1024x1024, .i32⟩ : BufTy).Contents (Elt F) → (⟨S1024x1024, .i32⟩ : BufTy).Contents (Elt F) → (⟨S1024x1024, .i1⟩ : BufTy).Contents (Elt F)),
    nullary main_cst_3 (constant S_ .f32 0x00000000#32),
    TRef.unary (.of main_cst_3 : TRef sig ⟨S_, .f32⟩) main_call1.v0 id,
    TRef.unary main_call1.v0 main_call1.v1 (broadcastInDim S1024x1024 ![] bcast_S_S1024x1024),
    TRef.ternary (.of main_v28 : TRef sig ⟨S1024x1024, .i1⟩) (.of main_v14 : TRef sig ⟨S1024x1024, .f32⟩) main_call1.v1 main_call1.v2 select,
    nullary main_cst_4 (constant S_ .f32 0x00000000#32),
    binary main_v34 main_cst_4 main_v35 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_5 (constant S_ .f32 0x3F000000#32),
    binary main_cst_5 main_v35 main_v36 (mulf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    unary main_cst_6 main_v37 (broadcastInDim S1024x1024 ![] bcast_S_S1024x1024 : (⟨S_, .f32⟩ : BufTy).Contents (Elt F) → (⟨S1024x1024, .f32⟩ : BufTy).Contents (Elt F)),
    binary main_v37 main_v14 main_v38 (subf : (⟨S1024x1024, .f32⟩ : BufTy).Contents (Elt F) → (⟨S1024x1024, .f32⟩ : BufTy).Contents (Elt F) → (⟨S1024x1024, .f32⟩ : BufTy).Contents (Elt F)),
    nullary main_cst_7 (constant S_ .f32 0x00000000#32),
    unary main_cst_7 main_v39 (broadcastInDim S1024x1024 ![] bcast_S_S1024x1024 : (⟨S_, .f32⟩ : BufTy).Contents (Elt F) → (⟨S1024x1024, .f32⟩ : BufTy).Contents (Elt F)),
    binary main_v38 main_v39 main_v40 (maximumf : (⟨S1024x1024, .f32⟩ : BufTy).Contents (Elt F) → (⟨S1024x1024, .f32⟩ : BufTy).Contents (Elt F) → (⟨S1024x1024, .f32⟩ : BufTy).Contents (Elt F)),
    nullary main_cst_8 (constant S_ .f32 0x00000000#32),
    TRef.unary (.of main_cst_8 : TRef sig ⟨S_, .f32⟩) main_call2.v0 id,
    TRef.unary main_call2.v0 main_call2.v1 (broadcastInDim S1024x1024 ![] bcast_S_S1024x1024),
    TRef.ternary (.of main_v33 : TRef sig ⟨S1024x1024, .i1⟩) (.of main_v40 : TRef sig ⟨S1024x1024, .f32⟩) main_call2.v1 main_call2.v2 select,
    nullary main_cst_9 (constant S_ .f32 0x00000000#32),
    binary main_v41 main_cst_9 main_v42 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_10 (constant S_ .f32 0x40000000#32),
    binary main_cst_10 main_v36 main_v43 (mulf : (⟨S_, .f32⟩ : BufTy).Contents (Elt F) → (⟨S_, .f32⟩ : BufTy).Contents (Elt F) → (⟨S_, .f32⟩ : BufTy).Contents (Elt F)),
    nullary main_cst_11 (constant S_ .f32 0x45E00000#32),
    binary main_v43 main_cst_11 main_v44 (Host.divf : (⟨S_, .f32⟩ : BufTy).Contents (Elt F) → (⟨S_, .f32⟩ : BufTy).Contents (Elt F) → (⟨S_, .f32⟩ : BufTy).Contents (Elt F)),
    nullary main_cst_12 (constant S_ .f32 0x40000000#32),
    binary main_cst_12 main_v42 main_v45 (mulf : (⟨S_, .f32⟩ : BufTy).Contents (Elt F) → (⟨S_, .f32⟩ : BufTy).Contents (Elt F) → (⟨S_, .f32⟩ : BufTy).Contents (Elt F)),
    nullary main_cst_13 (constant S_ .f32 0x47FE0000#32),
    binary main_v45 main_cst_13 main_v46 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = opsA ++ (opsF ++ (opsB ++ (opsW1 ++ (opsC ++ (opsW2 ++ (opsD ++ opsE)))))) := rfl

/-- @main is the chain of the stretches: the two windows and the functions' bodies unfold against them. -/
theorem main_chain (c : Dev nD) : main (F := F) c
    = Pipeline.chain [seq opsA, seq opsF, seq opsB, seq opsW1, seq opsC, seq opsW2, seq opsD, seq opsE] := by
  chain_rfl

/-- @main is that straight line. -/
theorem main_eq (c : Dev nD) : main (F := F) c = seq ops := by
  rw [main_chain, ops_eq]
  simp only [Pipeline.chain_cons, Pipeline.chain_nil, seq_append, bind_assoc, bind_pure_unit]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., unary_bufs_sub .., unary_bufs_sub .., unary_bufs_sub .., unary_bufs_sub .., binary_bufs_sub ..,
    nullary_bufs_sub .., nullary_bufs_sub .., nullary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., nullary_bufs_sub .., unary_bufs_sub .., unary_bufs_sub .., ternary_bufs_sub .., nullary_bufs_sub ..,
    binary_bufs_sub .., nullary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., binary_bufs_sub .., nullary_bufs_sub .., binary_bufs_sub .., nullary_bufs_sub ..,
    binary_bufs_sub .., nullary_bufs_sub .., binary_bufs_sub .., nullary_bufs_sub .., binary_bufs_sub ..⟩

/-- From any memory with zero counters: every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Terms.lean ====
/-
  The reference's values as terms of the argument array, stage by stage: the flattened features, the row sums of
  squares, the clamped squared distances, the group words and the two masks, the two masked sums and the two scaled
  results.
-/
import proofs.«167578_j20134806684259_2_alg».proof.Proof.Gen.ReferenceIdeal
import Idealize.ShloMosaic.Lib.IdealHost
import Idealize.ShloMosaic.Lib.ValueLayout

noncomputable section

namespace Cert.ReferenceIdeal.Hand

open Cert.ReferenceIdeal Cert.ReferenceIdeal.Gen Idealize.ShloMosaic

/-- A float array's contents at the ideal values. -/
abbrev CF (s : Shape) : Type := FVec Ideal s .f32
/-- An array of 32-bit words, of one-bit words. -/
abbrev CI (s : Shape) : Type := IVec s 32
abbrev CB (s : Shape) : Type := IVec s 1

/-- The scalar constants. -/
def kZero : CF S_ := constant S_ .f32 0x00000000#32
def kTwo : CF S_ := constant S_ .f32 0x40000000#32
def kHalf : CF S_ := constant S_ .f32 0x3F000000#32
def kOne : CF S_ := constant S_ .f32 0x3F800000#32
def k7168 : CF S_ := constant S_ .f32 0x45E00000#32
def k130048 : CF S_ := constant S_ .f32 0x47FE0000#32

/-- A scalar over the whole square. -/
def sq2 {α : Type} (x : S_.Idx → α) : S1024x1024.Idx → α := broadcastInDim S1024x1024 ![] bcast_S_S1024x1024 x
/-- A vector along the rows (entry (i, j) reads i) and along the columns (reads j). -/
def rows {α : Type} (x : S1024.Idx → α) : S1024x1024.Idx → α :=
  broadcastInDim S1024x1024 ![0, 1] bcast_S1024x1_S1024x1024_0_1 (broadcastInDim S1024x1 ![0] bcast_S1024_S1024x1_0 x)
def cols {α : Type} (x : S1024.Idx → α) : S1024x1024.Idx → α :=
  broadcastInDim S1024x1024 ![0, 1] bcast_S1x1024_S1024x1024_0_1 (broadcastInDim S1x1024 ![1] bcast_S1024_S1x1024_1 x)

variable (X : CF S1024x64x768)

/-- The flattened features. -/
def vF : CF S1024x49152 := shapeCast S1024x49152 X shapeCasts_S1024x64x768_S1024x49152
/-- The row sums of squares. -/
def vSq : CF S1024 := Host.reduceAdd (mulf (vF X) (vF X)) kZero reducesTo_S1024x49152_S1024_d1 h_S_
/-- The Gram products. -/
def vGram : CF S1024x1024 :=
  Host.dotGeneral dot_S1024x49152_S49152x1024_S1024x1024_1_0_0_1_n_n none (vF X)
    (transpose S49152x1024 [1, 0] (vF X) transposes_S1024x49152_S49152x1024_1_0)
/-- The clamped squared distances. -/
def vDist : CF S1024x1024 :=
  maximumf (subf (addf (rows (vSq X)) (cols (vSq X))) (mulf (sq2 kTwo) (vGram X))) (sq2 kZero)

/-- The group words: the floor division of the row number by eight, as the program computes it. -/
def vIota : CI S1024 := iotaInDim S1024 32 0
def vEight : CI S_ := constantI S_ 32 8#32
def vB {α : Type} (x : S_.Idx → α) : S1024.Idx → α := broadcastInDim S1024 ![] bcast_S_S1024 x
def vQuot : CI S1024 := Host.divsi vIota (vB (id vEight))
def vGrp : CI S1024 :=
  select (andi (cmpi .ne (signi vIota) (vB (signi (id vEight))))
      (cmpi .ne (Host.remsi vIota (vB (id vEight))) (vB (constantI S_ 32 0#32))))
    (subi vQuot (vB (constantI S_ 32 1#32))) vQuot
/-- Same group and not the same row; different groups. -/
def vSame : CB S1024x1024 :=
  andi (cmpi .eq (rows vGrp) (cols vGrp))
    (noti (cmpi .eq (addi (iotaInDim S1024x1024 32 0) (sq2 (constantI S_ 32 0#32))) (iotaInDim S1024x1024 32 1)))
def vDiff : CB S1024x1024 := cmpi .ne (rows vGrp) (cols vGrp)

/-- The masked sums. -/
def vHomo : CF S_ := Host.reduceAdd (select vSame (vDist X) (sq2 (id kZero))) kZero reducesTo_S1024x1024_S_d0_1 h_S_
def vHinge : CF S1024x1024 := maximumf (subf (sq2 kOne) (vDist X)) (sq2 kZero)
def vHeter : CF S_ := Host.reduceAdd (select vDiff (vHinge X) (sq2 (id kZero))) kZero reducesTo_S1024x1024_S_d0_1 h_S_
/-- The two results. -/
def vOut0 : CF S_ := Host.divf (mulf kTwo (mulf kHalf (vHomo X))) k7168
def vOut1 : CF S_ := Host.divf (mulf kTwo (vHeter X)) k130048

end Cert.ReferenceIdeal.Hand

end
-- ==== Proof.Ref.Result.lean ====
/-
  The reference's two results and its argument after the run, as terms of the argument array: the fold of the
  operations' results at the two result buffers is the composed term of the stages, and at the argument buffer the
  argument; with the two results' values as functions of the features, the run's statement.
-/
import proofs.«167578_j20134806684259_2_alg».proof.Proof.Ref.Run
import proofs.«167578_j20134806684259_2_alg».proof.Proof.Ref.Terms
import proofs.«167578_j20134806684259_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
/-- The first result buffer after the operations: each operation's result at its own buffer, the stages' terms by
    unfolding (the typed references' transports are the identity at these literal references). -/
theorem out0_after (V : Valuation τ sig (Elt Ideal)) :
    after (ops (F := Ideal)) V (main_v44 : DevRef τ sig) = vOut0 (V (main_arg0 : DevRef τ sig)) := by
  after_results_simp
  chain_rfl

set_option maxRecDepth 8192 in
/-- The second result buffer likewise. -/
theorem out1_after (V : Valuation τ sig (Elt Ideal)) :
    after (ops (F := Ideal)) V (main_v46 : DevRef τ sig) = vOut1 (V (main_arg0 : DevRef τ sig)) := by
  after_results_simp
  chain_rfl

/-- No operation writes the argument. -/
theorem arg0_after (V : Valuation τ sig (Elt Ideal)) :
    after (ops (F := Ideal)) V (main_arg0 : DevRef τ sig) = V (main_arg0 : DevRef τ sig) := by
  after_results_simp

/-- The run, given the two results' values as functions of the features: every weakly fair execution terminates with
    the two result buffers at the reference arrangement's two values and the argument unchanged. -/
theorem run_of (res0_eq : ∀ X, vOut0 X = fun _ => Cert.Spec.out0R (Cert.Spec.feat X))
    (res1_eq : ∀ X, vOut1 X = fun _ => Cert.Spec.out1R (Cert.Spec.feat X))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = (fun _ => Cert.Spec.out0R (Cert.Spec.feat (m ((c.tc : Thread nD τ).loc main_arg0))))
      ∧ r.2.mem ((c.tc : Thread nD τ).loc main_v46) = (fun _ => Cert.Spec.out1R (Cert.Spec.feat (m ((c.tc : Thread nD τ).loc main_arg0))))
      ∧ r.2.mem ((c.tc : Thread nD τ).loc main_arg0) = m ((c.tc : Thread nD τ).loc main_arg0)) :=
  (θ_run defs _ _).mono (fun _ h c => ⟨(h c main_v44).trans ((out0_after _).trans (res0_eq _)),
      (h c main_v46).trans ((out1_after _).trans (res1_eq _)),
      (h c main_arg0).trans (arg0_after _)⟩) (run_main m ρ)

end Cert.ReferenceIdeal.Hand

end
-- ==== Proof.Ref.FloatA.lean ====
/-
  The reference's float stages read at an index, over the extended reals: the flattened features are the argument at
  (sample, part, feature); the row sums of squares and the Gram products are the sums over the 49152 flattened columns;
  the clamped squared distance at (i, j) is max((sq i + sq j) − 2·gram i j, 0).
-/
import proofs.«167578_j20134806684259_2_alg».proof.Proof.Ref.Terms
import proofs.«167578_j20134806684259_2_alg».proof.Proof.Spec
import proofs.«167578_j20134806684259_2_alg».proof.Proof.KI.Consts
import Idealize.ShloMosaic.PureOps.Ideal.Laws
import Idealize.ShloMosaic.Lib.IdealHost
import Idealize.ShloMosaic.Lib.Pipeline.Value
import Idealize.ShloMosaic.Lib.ValueIdx
import Idealize.ShloMosaic.Lib.ValueLayout

noncomputable section

namespace Cert.ReferenceIdeal.Hand

open Cert.ReferenceIdeal Cert.ReferenceIdeal.Gen Idealize.ShloMosaic Idealize.ShloMosaic.ValueIdx

variable (X : CF S1024x64x768)

/-! ## The broadcasts -/

theorem sq2_apply {α : Type} (x : S_.Idx → α) (y : S1024x1024.Idx) : sq2 x y = x ix0 :=
  broadcastInDim_scalar_apply _ x y

theorem rows_apply {α : Type} (x : S1024.Idx → α) (i j : Fin 1024) : rows x (ix2 i j) = x (ix1 i) := by
  unfold rows
  refine (broadcastInDim_apply _ _ _ (ix2 i j) (ix2 i (0 : Fin 1)) (fun a => by
    match a with | ⟨0, _⟩ => rfl | ⟨1, _⟩ => rfl)).trans ?_
  exact broadcastInDim_apply _ _ _ (ix2 i (0 : Fin 1)) (ix1 i) (fun a => by match a with | ⟨0, _⟩ => rfl)

theorem cols_apply {α : Type} (x : S1024.Idx → α) (i j : Fin 1024) : cols x (ix2 i j) = x (ix1 j) := by
  unfold cols
  refine (broadcastInDim_apply _ _ _ (ix2 i j) (ix2 (0 : Fin 1) j) (fun a => by
    match a with | ⟨0, _⟩ => rfl | ⟨1, _⟩ => rfl)).trans ?_
  exact broadcastInDim_apply _ _ _ (ix2 (0 : Fin 1) j) (ix1 j) (fun a => by match a with | ⟨0, _⟩ => rfl)

/-! ## The stages -/

/-- The flattened features at (i, k): the argument at (i, k / 768, k % 768). -/
theorem vF_apply (i : Fin 1024) (k : Fin 49152) : vF X (ix2 i k) = Cert.Spec.feat X i k := by
  unfold vF Cert.Spec.feat
  refine shapeCast_apply _ _ _ _ ?_
  rw [Shape.rowMajor_val_three, Shape.rowMajor_val_two]
  show ((i.val * 64 + k.val / 768) * 768 + k.val % 768) = i.val * 49152 + k.val
  omega

theorem reduces_cols : S1024x49152.Reduces [1] S1024 := by decide

/-- The row sums of squares. -/
theorem vSq_apply (i : Fin 1024) : vSq X (ix1 i) = Cert.Spec.sqR (Cert.Spec.feat X) i := by
  unfold vSq kZero
  refine (hostReduceAdd_apply _ _ _ _ (ix1 i)).trans ?_
  refine (Ideal.hostReduceAdd_single reducesTo_S1024x49152_S1024_d1 reduces_cols _ _ (ix1 i)).trans ?_
  show Ideal.ofBits .f32 0x00000000#32 + (∑ k : Fin 49152, _) = _
  rw [Ideal.ofBits_zero_f32, zero_add]
  unfold Cert.Spec.sqR
  refine Finset.sum_congr rfl fun k _ => ?_
  have hl : reduces_cols.lift (ix1 i) k = (ix2 i k : S1024x49152.Idx) :=
    funext fun a => match a with | ⟨0, _⟩ => rfl | ⟨1, _⟩ => rfl
  rw [hl, mulf_apply, vF_apply]

/-- The Gram products. -/
theorem vGram_apply (i j : Fin 1024) : vGram X (ix2 i j) = Cert.Spec.gramR (Cert.Spec.feat X) i j := by
  unfold vGram
  show FloatOps.dotGeneral dot_S1024x49152_S49152x1024_S1024x1024_1_0_0_1_n_n none _ (vF X)
    (transpose S49152x1024 [1, 0] (vF X) transposes_S1024x49152_S49152x1024_1_0) (ix2 i j) = _
  rw [Ideal.dotGeneral_apply, ← Equiv.sum_comp (contrEquiv1 dot_S1024x49152_S49152x1024_S1024x1024_1_0_0_1_n_n 49152 rfl rfl).symm]
  unfold Cert.Spec.gramR
  refine Finset.sum_congr rfl fun k _ => ?_
  have c2 := contrEquiv1_symm_val dot_S1024x49152_S49152x1024_S1024x1024_1_0_0_1_n_n 49152 rfl rfl k
  have l2 : dot_S1024x49152_S49152x1024_S1024x1024_1_0_0_1_n_n.lhsIdx (ix2 i j) ((contrEquiv1 _ 49152 rfl rfl).symm k) = ix2 i k := by
    funext ax; apply Fin.ext
    match ax with
    | ⟨0, _⟩ => simp [DotDims.lhsIdx, dot_S1024x49152_S49152x1024_S1024x1024_1_0_0_1_n_n]; rfl
    | ⟨1, _⟩ => simp [DotDims.lhsIdx, dot_S1024x49152_S49152x1024_S1024x1024_1_0_0_1_n_n]; exact c2
  have r2 : dot_S1024x49152_S49152x1024_S1024x1024_1_0_0_1_n_n.rhsIdx (ix2 i j) ((contrEquiv1 _ 49152 rfl rfl).symm k) = ix2 k j := by
    funext ax; apply Fin.ext
    match ax with
    | ⟨0, _⟩ => simp [DotDims.rhsIdx, dot_S1024x49152_S49152x1024_S1024x1024_1_0_0_1_n_n]; exact c2
    | ⟨1, _⟩ => simp [DotDims.rhsIdx, dot_S1024x49152_S49152x1024_S1024x1024_1_0_0_1_n_n]; rfl
  rw [l2, r2, transpose_ix2_apply, vF_apply, vF_apply]

/-- The clamped squared distances. -/
theorem vDist_apply (i j : Fin 1024) : vDist X (ix2 i j) = Cert.Spec.distR (Cert.Spec.feat X) i j := by
  unfold vDist
  rw [maximumf_apply, subf_apply, addf_apply, mulf_apply, rows_apply, cols_apply, sq2_apply, sq2_apply, vSq_apply,
    vSq_apply, vGram_apply]
  show max ((_ + _) - Ideal.ofBits .f32 0x40000000#32 * _) (Ideal.ofBits .f32 0x00000000#32) = _
  rw [Cert.KernelIdeal.Hand.Consts.ofBits_two, Ideal.ofBits_zero_f32]
  rfl

end Cert.ReferenceIdeal.Hand

end
-- ==== Proof.Ref.MaskWords.lean ====
/-
  The integer words of the reference's masks. The group of sample n is the floor division n / 8 spelt out for signed
  words (truncating quotient, lowered by one when the signs of n and 8 differ and the remainder is not zero); on a
  word that reads as a natural number below 2^31 the correction never fires, so the group word of n is the word of
  n / 8. Two samples are in the same group exactly when the quotients agree, and the diagonal is excluded by comparing
  the sample numbers themselves.
-/
import Idealize.ShloMosaic.Lib.Affine
import Idealize.ShloMosaic.Lib.ValueIdx
import proofs.«167578_j20134806684259_2_alg».proof.Proof.KI.R1ValMask

namespace Cert.ReferenceIdeal.Hand

open Idealize.ShloMosaic
open Cert.KernelIdeal.Hand (divsi8_ofNat toInt_ofNat_lt ofNat32_inj)

/-- The sign of a word as the host computes it: 0 at zero, −1 when the top bit is set, else 1. -/
def sgnH (x : BitVec 32) : BitVec 32 := if x = 0 then 0 else if x.msb then -1 else 1

/-- Floor division by 8 as the host spells it. -/
def grpH (a : BitVec 32) : BitVec 32 :=
  Scalar.select (IntOp.andi (IntOp.cmpi .ne (sgnH a) (sgnH 8#32)) (IntOp.cmpi .ne (IntOp.remsi .host a 8#32) 0#32))
    (IntOp.subi (IntOp.divsi .host a 8#32) 1#32) (IntOp.divsi .host a 8#32)

theorem sgnH_eight : sgnH 8#32 = 1#32 := by decide

theorem sgnH_pos (n : Nat) (h0 : 0 < n) (hn : n < 2 ^ 31) : sgnH (BitVec.ofNat 32 n) = 1#32 := by
  unfold sgnH
  have hne : BitVec.ofNat 32 n ≠ 0 := by
    intro h
    have := congrArg BitVec.toNat h
    rw [BitVec.toNat_ofNat] at this
    simp at this
    omega
  have hmsb : (BitVec.ofNat 32 n).msb = false := by
    rw [BitVec.msb_eq_decide, BitVec.toNat_ofNat]
    simp
    omega
  rw [if_neg hne, hmsb]
  rfl

theorem divsiH8_ofNat (n : Nat) (hn : n < 2 ^ 31) :
    IntOp.divsi .host (BitVec.ofNat 32 n) 8#32 = BitVec.ofNat 32 (n / 8) := by
  have hpos8 : 0 < (8#32 : BitVec 32).toInt := by decide
  rw [← divsi8_ofNat n hn, IntOp.divsi, IntOp.divsi, if_neg (IntOp.not_corner_of_pos hpos8),
    if_neg (IntOp.not_corner_of_pos hpos8)]

/-- The group word of a number below 2^31 is the word of its quotient by 8. -/
theorem grpH_ofNat (n : Nat) (hn : n < 2 ^ 31) : grpH (BitVec.ofNat 32 n) = BitVec.ofNat 32 (n / 8) := by
  have hcond : ¬ (IntOp.andi (IntOp.cmpi .ne (sgnH (BitVec.ofNat 32 n)) (sgnH 8#32))
      (IntOp.cmpi .ne (IntOp.remsi .host (BitVec.ofNat 32 n) 8#32) 0#32)) = 1#1 := by
    rw [IntOp.andi_eq_one, IntOp.cmpi_ne, IntOp.cmpi_ne, sgnH_eight]
    rintro ⟨h1, h2⟩
    rcases Nat.eq_zero_or_pos n with rfl | hp
    · exact h2 (by decide)
    · exact h1 (sgnH_pos n hp hn)
  rw [grpH, ValueIdx.eq_zero_of_ne_one hcond, ValueIdx.select_zero, divsiH8_ofNat n hn]

private theorem not_bit (b : BitVec 1) : ~~~b = 1#1 ↔ b ≠ 1#1 := by
  rcases BitVec.eq_zero_or_eq_one b with h | h <;> subst h <;> decide

/-- Same group, off the diagonal. -/
theorem sameBit_iff (i j : Nat) (hi : i < 2 ^ 31) (hj : j < 2 ^ 31) :
    IntOp.andi (IntOp.cmpi .eq (BitVec.ofNat 32 (i / 8)) (BitVec.ofNat 32 (j / 8)))
      (~~~(IntOp.cmpi .eq (IntOp.addi (BitVec.ofNat 32 i) 0#32) (BitVec.ofNat 32 j))) = 1#1 ↔ i / 8 = j / 8 ∧ i ≠ j := by
  have hadd : IntOp.addi (BitVec.ofNat 32 i) 0#32 = BitVec.ofNat 32 i := by
    rw [IntOp.addi]; exact BitVec.add_zero _
  rw [IntOp.andi_eq_one, not_bit, Ne, IntOp.cmpi_eq, IntOp.cmpi_eq, hadd, ofNat32_inj (by omega) (by omega),
    ofNat32_inj (by omega) (by omega)]

/-- Different groups. -/
theorem diffBit_iff (i j : Nat) (hi : i < 2 ^ 31) (hj : j < 2 ^ 31) :
    IntOp.cmpi .ne (BitVec.ofNat 32 (i / 8)) (BitVec.ofNat 32 (j / 8)) = 1#1 ↔ i / 8 ≠ j / 8 := by
  rw [IntOp.cmpi_ne, Ne, ofNat32_inj (by omega) (by omega)]

end Cert.ReferenceIdeal.Hand
-- ==== Proof.Ref.Masks.lean ====
/-
  The reference's group vector and its two masks read at an index: the group of sample i is the word of i / 8; the
  first mask is 1 exactly at the pairs of one group off the diagonal, the second exactly at the pairs of different groups.
-/
import proofs.«167578_j20134806684259_2_alg».proof.Proof.Gen.ReferenceIdeal
import proofs.«167578_j20134806684259_2_alg».proof.Proof.Ref.MaskWords
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx

/-- The group vector: floor division of the sample numbers by 8, as the host spells it. -/
def grpVec : IVec S1024 32 :=
  select (andi (cmpi .ne (signi (iotaInDim S1024 32 0)) (broadcastInDim S1024 ![] bcast_S_S1024 (signi (constantI S_ 32 8#32))))
      (cmpi .ne (Host.remsi (iotaInDim S1024 32 0) (broadcastInDim S1024 ![] bcast_S_S1024 (constantI S_ 32 8#32)))
        (broadcastInDim S1024 ![] bcast_S_S1024 (constantI S_ 32 0#32))))
    (subi (Host.divsi (iotaInDim S1024 32 0) (broadcastInDim S1024 ![] bcast_S_S1024 (constantI S_ 32 8#32)))
      (broadcastInDim S1024 ![] bcast_S_S1024 (constantI S_ 32 1#32)))
    (Host.divsi (iotaInDim S1024 32 0) (broadcastInDim S1024 ![] bcast_S_S1024 (constantI S_ 32 8#32)))

theorem grpVec_apply (i : Fin 1024) : grpVec (ix1 i) = BitVec.ofNat 32 (i.val / 8) := by
  show grpH (BitVec.ofNat 32 i.val) = _
  exact grpH_ofNat _ (by have := i.isLt; omega)

/-- The groups along rows and along columns of the pair matrix. -/
def grpRows (G : IVec S1024 32) : IVec S1024x1024 32 :=
  broadcastInDim S1024x1024 ![0, 1] bcast_S1024x1_S1024x1024_0_1 (broadcastInDim S1024x1 ![0] bcast_S1024_S1024x1_0 G)
def grpCols (G : IVec S1024 32) : IVec S1024x1024 32 :=
  broadcastInDim S1024x1024 ![0, 1] bcast_S1x1024_S1024x1024_0_1 (broadcastInDim S1x1024 ![1] bcast_S1024_S1x1024_1 G)

theorem grpRows_apply (G : IVec S1024 32) (i j : Fin 1024) : grpRows G (ix2 i j) = G (ix1 i) := by
  unfold grpRows
  refine (broadcastInDim_apply _ _ _ (ix2 i j) (ix2 i (0 : Fin 1)) (fun a => by
    match a with | ⟨0, _⟩ => rfl | ⟨1, _⟩ => rfl)).trans ?_
  exact broadcastInDim_apply _ _ _ (ix2 i (0 : Fin 1)) (ix1 i) (fun a => by match a with | ⟨0, _⟩ => rfl)

theorem grpCols_apply (G : IVec S1024 32) (i j : Fin 1024) : grpCols G (ix2 i j) = G (ix1 j) := by
  unfold grpCols
  refine (broadcastInDim_apply _ _ _ (ix2 i j) (ix2 (0 : Fin 1) j) (fun a => by
    match a with | ⟨0, _⟩ => rfl | ⟨1, _⟩ => rfl)).trans ?_
  exact broadcastInDim_apply _ _ _ (ix2 (0 : Fin 1) j) (ix1 j) (fun a => by match a with | ⟨0, _⟩ => rfl)

/-- The first mask: same group, off the diagonal. -/
def sameMask (G : IVec S1024 32) : IVec S1024x1024 1 :=
  andi (cmpi .eq (grpRows G) (grpCols G))
    (noti (cmpi .eq (addi (iotaInDim S1024x1024 32 0) (broadcastInDim S1024x1024 ![] bcast_S_S1024x1024 (constantI S_ 32 0#32)))
      (iotaInDim S1024x1024 32 1)))
/-- The second mask: different groups. -/
def diffMask (G : IVec S1024 32) : IVec S1024x1024 1 := cmpi .ne (grpRows G) (grpCols G)

theorem sameMask_iff (i j : Fin 1024) : sameMask grpVec (ix2 i j) = 1#1 ↔ i.val / 8 = j.val / 8 ∧ i ≠ j := by
  have hi := i.isLt; have hj := j.isLt
  show IntOp.andi (IntOp.cmpi .eq (grpRows grpVec (ix2 i j)) (grpCols grpVec (ix2 i j)))
      (~~~(IntOp.cmpi .eq (IntOp.addi (BitVec.ofNat 32 i.val) 0#32) (BitVec.ofNat 32 j.val))) = 1#1 ↔ _
  rw [grpRows_apply, grpCols_apply, grpVec_apply, grpVec_apply, sameBit_iff i.val j.val (by omega) (by omega)]
  exact and_congr_right fun _ => not_congr Fin.val_inj

theorem diffMask_iff (i j : Fin 1024) : diffMask grpVec (ix2 i j) = 1#1 ↔ i.val / 8 ≠ j.val / 8 := by
  have hi := i.isLt; have hj := j.isLt
  show IntOp.cmpi .ne (grpRows grpVec (ix2 i j)) (grpCols grpVec (ix2 i j)) = 1#1 ↔ _
  rw [grpRows_apply, grpCols_apply, grpVec_apply, grpVec_apply, diffBit_iff i.val j.val (by omega) (by omega)]

end Cert.ReferenceIdeal.Hand

end
-- ==== Proof.Ref.Sums.lean ====
/-
  The reference's two masked sums and its two results, over the extended reals, from the clamped squared distances.
  The first mask keeps the pairs of one group off the diagonal, the second the pairs of different groups; a masked
  select reads the kept value or 0, and the reduction over both axes from 0 is the double sum over rows and columns.
  The results are 2·(½·S)/7168 and 2·T/130048.
-/
import proofs.«167578_j20134806684259_2_alg».proof.Proof.Ref.Terms
import proofs.«167578_j20134806684259_2_alg».proof.Proof.Ref.Masks
import proofs.«167578_j20134806684259_2_alg».proof.Proof.KI.Consts
import proofs.«167578_j20134806684259_2_alg».proof.Proof.Spec
import Idealize.ShloMosaic.Lib.IdealHost
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

variable (X : CF S1024x64x768)

/-- The two masks are the masks of the group vector. -/
theorem vSame_eq_mask : vSame = sameMask grpVec := rfl
theorem vDiff_eq_mask : vDiff = diffMask grpVec := rfl

/-- The bit pattern 0x3F000000 is the real number 1/2, and 0x3F800000 is 1. -/
theorem ofBits_half_f32 : Ideal.ofBits .f32 0x3F000000#32 = (((1 / 2 : ℝ)) : EReal) := by
  simp [Ideal.ofBits, Ideal.ieee, -EReal.coe_mul]; norm_num

/-- A scalar spread over the whole square reads the scalar. -/
theorem sq2_at {α : Type} (x : S_.Idx → α) (y : S1024x1024.Idx) : sq2 x y = x ix0 := by
  unfold sq2
  exact broadcastInDim_apply _ _ x y ix0 (fun a => a.elim0)

/-- The distances, index by index, as the specification's. -/
def DistIs : Prop := ∀ i j : Fin 1024, vDist X (ix2 i j) = Cert.Spec.distR (Cert.Spec.feat X) i j

variable {X}

/-- The hinge of the distance. -/
theorem vHinge_at (hD : DistIs X) (i j : Fin 1024) :
    vHinge X (ix2 i j) = max (1 - Cert.Spec.distR (Cert.Spec.feat X) i j) 0 := by
  unfold vHinge
  rw [maximumf_apply, subf_apply, sq2_at, sq2_at, hD i j]
  show max (Ideal.ofBits .f32 0x3F800000#32 - _) (Ideal.ofBits .f32 0x00000000#32) = _
  rw [Ideal.ofBits_one_f32, Ideal.ofBits_zero_f32]

/-- The first masked sum. -/
theorem vHomo_at (hD : DistIs X) (j : S_.Idx) : vHomo X j = Cert.Spec.homoR (Cert.Spec.feat X) := by
  unfold vHomo kZero
  refine (hostReduceAdd_apply _ _ _ _ j).trans ?_
  refine (Ideal.hostReduceAdd_total reducesTo_S1024x1024_S_d0_1 (fun b => b.elim0) _ _ j).trans ?_
  show Ideal.ofBits .f32 0x00000000#32 + _ = _
  rw [Ideal.ofBits_zero_f32, zero_add]
  refine (sum_idx2 _).trans ?_
  unfold Cert.Spec.homoR
  refine Finset.sum_congr rfl fun a _ => Finset.sum_congr rfl fun b _ => ?_
  rw [select_apply, vSame_eq_mask]
  by_cases h : a.val / 8 = b.val / 8 ∧ a ≠ b
  · rw [(sameMask_iff a b).mpr h, select_one, if_pos h, hD a b]
  · rw [eq_zero_of_ne_one (fun hh => h ((sameMask_iff a b).mp hh)), select_zero, if_neg h, sq2_at]
    exact Ideal.ofBits_zero_f32

/-- The second masked sum. -/
theorem vHeter_at (hD : DistIs X) (j : S_.Idx) : vHeter X j = Cert.Spec.heterR (Cert.Spec.feat X) := by
  unfold vHeter kZero
  refine (hostReduceAdd_apply _ _ _ _ j).trans ?_
  refine (Ideal.hostReduceAdd_total reducesTo_S1024x1024_S_d0_1 (fun b => b.elim0) _ _ j).trans ?_
  show Ideal.ofBits .f32 0x00000000#32 + _ = _
  rw [Ideal.ofBits_zero_f32, zero_add]
  refine (sum_idx2 _).trans ?_
  unfold Cert.Spec.heterR
  refine Finset.sum_congr rfl fun a _ => Finset.sum_congr rfl fun b _ => ?_
  rw [select_apply, vDiff_eq_mask]
  by_cases h : a.val / 8 ≠ b.val / 8
  · rw [(diffMask_iff a b).mpr h, select_one, if_pos h, vHinge_at hD a b]
  · rw [eq_zero_of_ne_one (fun hh => h ((diffMask_iff a b).mp hh)), select_zero, if_neg h, sq2_at]
    exact Ideal.ofBits_zero_f32

/-- The first result. -/
theorem vOut0_of_dist (hD : DistIs X) : vOut0 X = fun _ => Cert.Spec.out0R (Cert.Spec.feat X) := by
  funext j
  unfold vOut0 kTwo kHalf k7168
  rw [hostDivf_apply, mulf_apply, mulf_apply, vHomo_at hD]
  show Ideal.div (Ideal.ofBits .f32 0x40000000#32 * (Ideal.ofBits .f32 0x3F000000#32 * _)) (Ideal.ofBits .f32 0x45E00000#32) = _
  rw [Cert.KernelIdeal.Hand.Consts.ofBits_two, ofBits_half_f32, Cert.KernelIdeal.Hand.Consts.ofBits_7168,
    Cert.KernelIdeal.Hand.Consts.div_real (by norm_num)]
  rfl

/-- The second result. -/
theorem vOut1_of_dist (hD : DistIs X) : vOut1 X = fun _ => Cert.Spec.out1R (Cert.Spec.feat X) := by
  funext j
  unfold vOut1 kTwo k130048
  rw [hostDivf_apply, mulf_apply, vHeter_at hD]
  show Ideal.div (Ideal.ofBits .f32 0x40000000#32 * _) (Ideal.ofBits .f32 0x47FE0000#32) = _
  rw [Cert.KernelIdeal.Hand.Consts.ofBits_two, Cert.KernelIdeal.Hand.Consts.ofBits_130048,
    Cert.KernelIdeal.Hand.Consts.div_real (by norm_num)]
  rfl

end Cert.ReferenceIdeal.Hand

end
-- ==== Proof.Ref.Final.lean ====
/-
  The reference's run: every weakly fair execution of @main terminates with the two result buffers at the
  reference arrangement's two values of the flattened features, and the argument unchanged.
-/
import proofs.«167578_j20134806684259_2_alg».proof.Proof.Ref.Result
import proofs.«167578_j20134806684259_2_alg».proof.Proof.Ref.FloatA
import proofs.«167578_j20134806684259_2_alg».proof.Proof.Ref.Sums

noncomputable section

namespace Cert.ReferenceIdeal.Hand

open Cert.ReferenceIdeal Cert.ReferenceIdeal.Gen Idealize.ShloMosaic Idealize.ShloMosaic.TcCoe Idealize.SL.Sem Idealize.ShloMosaic.StableHlo

/-- The squared distances index by index give the two results; the run's statement follows. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = (fun _ => Cert.Spec.out0R (Cert.Spec.feat (m ((c.tc : Thread nD τ).loc main_arg0))))
      ∧ r.2.mem ((c.tc : Thread nD τ).loc main_v46) = (fun _ => Cert.Spec.out1R (Cert.Spec.feat (m ((c.tc : Thread nD τ).loc main_arg0))))
      ∧ r.2.mem ((c.tc : Thread nD τ).loc main_arg0) = m ((c.tc : Thread nD τ).loc main_arg0)) :=
  run_of (fun X => vOut0_of_dist (vDist_apply X)) (fun X => vOut1_of_dist (vDist_apply X)) m ρ

end Cert.ReferenceIdeal.Hand

end
-- ==== Proof.SpecRegroup.lean ====
/-
  Re-grouping lemmas for the two arrangements, valid in any commutative additive monoid (so over the extended reals
  without any finiteness): the 49152 columns as 2 shards of 24 blocks of 1024, the 1024 rows as 4 tiles of 256, and
  a sum of a symmetric quantity over ordered off-diagonal pairs as twice the sum over pairs with col > row.
-/
import proofs.«167578_j20134806684259_2_alg».proof.Proof.Spec
import Mathlib

namespace Cert.Spec

open Finset

/-- (shard, block, lane) ↦ column is a bijection. -/
def colEquiv : (Fin 2 × Fin 24 × Fin 1024) ≃ Fin 49152 where
  toFun p := kidx p.1 p.2.1 p.2.2
  invFun k := (⟨k.val / 24576, by have := k.isLt; omega⟩, ⟨k.val / 1024 % 24, Nat.mod_lt _ (by norm_num)⟩,
    ⟨k.val % 1024, Nat.mod_lt _ (by norm_num)⟩)
  left_inv := by
    rintro ⟨s, kk, l⟩
    have := s.isLt; have := kk.isLt; have := l.isLt
    refine Prod.ext (Fin.ext ?_) (Prod.ext (Fin.ext ?_) (Fin.ext ?_)) <;> simp only [kidx] <;> omega
  right_inv := by
    intro k
    have := k.isLt
    refine Fin.ext ?_
    simp only [kidx]
    omega

/-- (row tile, row in tile) ↦ row is a bijection. -/
def rowEquiv : (Fin 4 × Fin 256) ≃ Fin 1024 where
  toFun p := rowOf p.1 p.2
  invFun i := (⟨i.val / 256, by have := i.isLt; omega⟩, ⟨i.val % 256, Nat.mod_lt _ (by norm_num)⟩)
  left_inv := by
    rintro ⟨ti, r⟩
    have := ti.isLt; have := r.isLt
    refine Prod.ext (Fin.ext ?_) (Fin.ext ?_) <;> simp only [rowOf] <;> omega
  right_inv := by
    intro i
    have := i.isLt
    refine Fin.ext ?_
    simp only [rowOf]
    omega

section
variable {M : Type*} [AddCommMonoid M]

/-- The two shards' block sums together are the whole sum over the columns. -/
theorem sum_cols (h : Fin 49152 → M) :
    (∑ kk : Fin 24, ∑ l : Fin 1024, h (kidx 0 kk l)) + (∑ kk : Fin 24, ∑ l : Fin 1024, h (kidx 1 kk l))
      = ∑ k : Fin 49152, h k := by
  rw [← Equiv.sum_comp colEquiv h, Fintype.sum_prod_type, Fin.sum_univ_two]
  simp only [Fintype.sum_prod_type]
  rfl

/-- The tile-by-tile sum over the rows is the whole sum over the rows. -/
theorem sum_rows (h : Fin 1024 → M) :
    (∑ ti : Fin 4, ∑ r : Fin 256, h (rowOf ti r)) = ∑ i : Fin 1024, h i := by
  rw [← Equiv.sum_comp rowEquiv h, Fintype.sum_prod_type]
  rfl

/-- A symmetric quantity summed over ordered off-diagonal pairs satisfying a symmetric condition is the sum over the
    pairs with col > row, taken twice. -/
theorem sum_offdiag_sym (P : Fin 1024 → Fin 1024 → Prop) [∀ i j, Decidable (P i j)] (d : Fin 1024 → Fin 1024 → M)
    (hd : ∀ i j, d i j = d j i) (hP : ∀ i j, P i j → P j i) :
    (∑ i : Fin 1024, ∑ j : Fin 1024, if P i j ∧ i ≠ j then d i j else 0)
      = (∑ i : Fin 1024, ∑ j : Fin 1024, if i.val < j.val ∧ P i j then d i j else 0)
        + (∑ i : Fin 1024, ∑ j : Fin 1024, if i.val < j.val ∧ P i j then d i j else 0) := by
  have key : ∀ i j : Fin 1024, (if P i j ∧ i ≠ j then d i j else 0)
      = (if i.val < j.val ∧ P i j then d i j else 0) + (if j.val < i.val ∧ P j i then d j i else 0) := by
    intro i j
    rcases lt_trichotomy i.val j.val with h | h | h
    · have h1 : ¬ j.val < i.val := by omega
      have h2 : i ≠ j := fun e => by rw [e] at h; exact lt_irrefl _ h
      by_cases hg : P i j
      · rw [if_pos ⟨hg, h2⟩, if_pos ⟨h, hg⟩, if_neg (fun c => h1 c.1), add_zero]
      · rw [if_neg (fun c => hg c.1), if_neg (fun c => hg c.2), if_neg (fun c => h1 c.1), add_zero]
    · have e : i = j := Fin.ext h
      subst e
      rw [if_neg (fun c => c.2 rfl), if_neg (fun c => lt_irrefl _ c.1), add_zero]
    · have h1 : ¬ i.val < j.val := by omega
      have h2 : i ≠ j := fun e => by rw [e] at h; exact lt_irrefl _ h
      by_cases hg : P i j
      · rw [if_pos ⟨hg, h2⟩, if_neg (fun c => h1 c.1), if_pos ⟨h, hP i j hg⟩, zero_add, hd]
      · rw [if_neg (fun c => hg c.1), if_neg (fun c => h1 c.1), if_neg (fun c => hg (hP j i c.2)), add_zero]
  simp only [key, sum_add_distrib]
  congr 1
  exact sum_comm

end

end Cert.Spec
-- ==== Proof.SpecEq.lean ====
/-
  The two arrangements of the specification agree on real-valued features.

  The regroupings (columns into shards and blocks, rows into tiles) and the passage from ordered off-diagonal pairs to
  pairs with col > row hold over the extended reals as they stand. Finiteness is needed once: the pair sums S and T are
  real numbers, so 2·((1/2)·(S + S)) = 2·S and 2·(T + T) = 4·T.
-/
import proofs.«167578_j20134806684259_2_alg».proof.Proof.SpecRegroup

namespace Cert.Spec

open Finset

/-- An extended real that is (the coercion of) a real number. -/
def IsReal (x : EReal) : Prop := ∃ r : ℝ, x = (r : EReal)

theorem IsReal.zero : IsReal 0 := ⟨0, rfl⟩
theorem IsReal.one : IsReal 1 := ⟨1, rfl⟩
theorem IsReal.two : IsReal 2 := ⟨2, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩

theorem IsReal.ite {p : Prop} [Decidable p] {x y : EReal} (hx : IsReal x) (hy : IsReal y) :
    IsReal (if p then x else y) := by
  split_ifs <;> assumption

theorem IsReal.sum {ι : Type*} (s : Finset ι) (g : ι → EReal) (hg : ∀ i ∈ s, IsReal (g i)) :
    IsReal (∑ i ∈ s, g i) := by
  classical
  induction s using Finset.induction_on with
  | empty => simpa using IsReal.zero
  | insert a s ha ih =>
    rw [Finset.sum_insert ha]
    exact (hg a (Finset.mem_insert_self a s)).add (ih (fun i hi => hg i (Finset.mem_insert_of_mem hi)))

variable (f : Fin 1024 → Fin 49152 → EReal)

/-! ## The regroupings -/

theorem sqK_eq (i : Fin 1024) : sqK f i = sqR f i := sum_cols (fun k => f i k * f i k)

theorem gramK_eq {i j : Fin 1024} (h : i.val / 256 ≤ j.val / 256) : gramK f i j = gramR f i j := by
  unfold gramK gramP
  rw [if_pos h, if_pos h]
  exact sum_cols (fun k => f i k * f j k)

theorem distK_eq {i j : Fin 1024} (h : i.val < j.val) : distK f i j = distR f i j := by
  unfold distK distR
  rw [sqK_eq, sqK_eq, gramK_eq f (Nat.div_le_div_right (le_of_lt h))]

theorem gramR_comm (i j : Fin 1024) : gramR f i j = gramR f j i :=
  Finset.sum_congr rfl (fun k _ => mul_comm _ _)

theorem distR_comm (i j : Fin 1024) : distR f i j = distR f j i := by
  unfold distR
  rw [gramR_comm f i j, add_comm]

/-- The same-group sum over pairs with col > row. -/
noncomputable def homoU : EReal := ∑ i : Fin 1024, ∑ j : Fin 1024,
  if i.val < j.val ∧ i.val / 8 = j.val / 8 then distR f i j else 0

/-- The different-group hinge sum over pairs with col > row. -/
noncomputable def heterU : EReal := ∑ i : Fin 1024, ∑ j : Fin 1024,
  if i.val < j.val ∧ i.val / 8 ≠ j.val / 8 then Max.max (1 - distR f i j) 0 else 0

theorem homoK_eq : homoK f = homoU f := by
  unfold homoK homoU
  refine (sum_rows (fun i : Fin 1024 => ∑ cc : Fin 1024,
    if i.val < cc.val ∧ i.val / 8 = cc.val / 8 then distK f i cc else 0)).trans ?_
  refine Finset.sum_congr rfl (fun i _ => Finset.sum_congr rfl (fun j _ => ?_))
  by_cases h : i.val < j.val ∧ i.val / 8 = j.val / 8
  · rw [if_pos h, if_pos h, distK_eq f h.1]
  · rw [if_neg h, if_neg h]

theorem heterK_eq : heterK f = heterU f := by
  unfold heterK heterU
  refine (sum_rows (fun i : Fin 1024 => ∑ cc : Fin 1024,
    if i.val < cc.val ∧ i.val / 8 ≠ cc.val / 8 then Max.max (1 - distK f i cc) 0 else 0)).trans ?_
  refine Finset.sum_congr rfl (fun i _ => Finset.sum_congr rfl (fun j _ => ?_))
  by_cases h : i.val < j.val ∧ i.val / 8 ≠ j.val / 8
  · rw [if_pos h, if_pos h, distK_eq f h.1]
  · rw [if_neg h, if_neg h]

theorem homoR_eq : homoR f = homoU f + homoU f := by
  unfold homoR homoU
  exact sum_offdiag_sym (fun i j : Fin 1024 => i.val / 8 = j.val / 8) (fun i j => distR f i j)
    (distR_comm f) (fun _ _ h => h.symm)

theorem heterR_eq : heterR f = heterU f + heterU f := by
  unfold heterR heterU
  have e : ∀ i j : Fin 1024, (if i.val / 8 ≠ j.val / 8 then Max.max (1 - distR f i j) 0 else 0)
      = (if i.val / 8 ≠ j.val / 8 ∧ i ≠ j then Max.max (1 - distR f i j) 0 else 0) := by
    intro i j
    refine if_congr ⟨fun h => ⟨h, fun e => h (by rw [e])⟩, fun h => h.1⟩ rfl rfl
  simp only [e]
  exact sum_offdiag_sym (fun i j : Fin 1024 => i.val / 8 ≠ j.val / 8) (fun i j => Max.max (1 - distR f i j) 0)
    (fun i j => by rw [distR_comm f i j]) (fun _ _ h => fun c => h c.symm)

/-! ## Finiteness of the pair sums -/

section real
variable {f}
variable (hf : ∀ i k, ∃ r : ℝ, f i k = (r : EReal))
include hf

theorem isReal_sqR (i : Fin 1024) : IsReal (sqR f i) :=
  IsReal.sum _ _ (fun k _ => IsReal.mul (hf i k) (hf i k))

theorem isReal_gramR (i j : Fin 1024) : IsReal (gramR f i j) :=
  IsReal.sum _ _ (fun k _ => IsReal.mul (hf i k) (hf j k))

theorem isReal_distR (i j : Fin 1024) : IsReal (distR f i j) :=
  IsReal.max (IsReal.sub (IsReal.add (isReal_sqR hf i) (isReal_sqR hf j)) (IsReal.mul IsReal.two (isReal_gramR hf i j)))
    IsReal.zero

theorem isReal_homoU : IsReal (homoU f) :=
  IsReal.sum _ _ (fun i _ => IsReal.sum _ _ (fun j _ => IsReal.ite (isReal_distR hf i j) IsReal.zero))

theorem isReal_heterU : IsReal (heterU f) :=
  IsReal.sum _ _ (fun i _ => IsReal.sum _ _ (fun j _ =>
    IsReal.ite (IsReal.max (IsReal.sub IsReal.one (isReal_distR hf i j)) IsReal.zero) IsReal.zero))

end real

/-! ## The two results -/

theorem out0_eq (hf : ∀ i k, ∃ r : ℝ, f i k = (r : EReal)) : out0K f = out0R f := by
  unfold out0K out0R
  rw [homoK_eq, homoR_eq]
  obtain ⟨s, hs⟩ := isReal_homoU hf
  rw [hs, ← EReal.coe_add, ← EReal.coe_mul, show (1 / 2 : ℝ) * (s + s) = s by ring]

theorem out1_eq (hf : ∀ i k, ∃ r : ℝ, f i k = (r : EReal)) : out1K f = out1R f := by
  unfold out1K out1R
  rw [heterK_eq, heterR_eq]
  obtain ⟨t, ht⟩ := isReal_heterU hf
  rw [ht, ← EReal.coe_add]
  have h4 : (4 : EReal) = ((4 : ℝ) : EReal) := rfl
  have h2 : (2 : EReal) = ((2 : ℝ) : EReal) := rfl
  rw [h4, h2, ← EReal.coe_mul, ← EReal.coe_mul, show (2 : ℝ) * (t + t) = 4 * t by ring]

end Cert.Spec
-- ==== Proof.Finite.lean ====
/-
  The precondition decoded: "all |x| < +inf" at the extended reals says every entry of the argument array is a real
  number. The conjunction over the whole array being 1 gives the comparison at each index; the comparison constant
  is +∞; and an extended real whose absolute value max x (-x) is below +∞ is neither infinity.
-/
import proofs.«167578_j20134806684259_2_alg».proof.Defs
import proofs.«167578_j20134806684259_2_alg».proof.Proof.Gen.Pre_finite_inputs
import proofs.«167578_j20134806684259_2_alg».proof.Proof.Spec
import Idealize.ShloMosaic.Lib.ReduceAll
import Idealize.ShloMosaic.Lib.ValueIdx

namespace Cert.Finite

open Idealize.ShloMosaic

instance : Subsingleton Cert.Pre_finite_inputs.S_.Idx := ⟨fun a b => funext fun d => d.elim0⟩

/-- The pattern of +inf denotes the top of the extended reals. -/
theorem ofBits_inf_f32 : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word says the strict inequality. -/
theorem lt_of_cmp_olt {x y : EReal} (h : Ideal.cmp .olt x y = 1#1) : x < y := by
  unfold Ideal.cmp at h
  by_contra hn
  simp [hn] at h

theorem real_of_pre [hP : Cert.Pre_finite_inputs.Facts]
    (X : (⟨Cert.KernelIdeal.S1024x64x768, .f32⟩ : BufTy).Contents (Elt Ideal))
    (h : Cert.Pre_finite_inputs.fn (F := Ideal) X = fun _ => 1#1) :
    ∀ i k, ∃ r : ℝ, Cert.Spec.feat X i k = (r : EReal) := by
  intro i k
  have h0 := congrFun h ValueIdx.ix0
  dsimp only [Cert.Pre_finite_inputs.fn] at h0
  have h1 := Host.reduce_andi_all _ _ _ _ _ h0
    (ValueIdx.ix3 i (⟨k.val / 768, by have := k.isLt; omega⟩ : Fin 64) (⟨k.val % 768, Nat.mod_lt _ (by norm_num)⟩ : Fin 768))
  have h2 := lt_of_cmp_olt h1
  refine real_of_abs_lt_top _ ?_
  refine lt_of_lt_of_eq h2 ?_
  exact ofBits_inf_f32
-- ==== Proof.lean ====
/-
  The certificate of one kernel against its jnp reference.

  x : f32[1024, 64, 768] is flattened per sample to f : 1024 × 49152. With sq_i = Σ_k f_ik², G_ij = Σ_k f_ik f_jk and
  d_ij = max(sq_i + sq_j − 2 G_ij, 0), and samples grouped by i / 8, the two results are the sum of d over same-group
  pairs and the sum of max(1 − d, 0) over different-group pairs, scaled by 2/(1024·7) and 2/(1024·127).

  The reference sums over all ordered pairs off the diagonal and halves the first sum. The kernel cuts the 49152 columns
  into two shards of 24 blocks, accumulates per shard the row norms and the Gram products on the 256-tiles on or above
  the diagonal only, adds the shards, and sums over the pairs with j > i only, doubling the scale of the second result.
  Since d is symmetric in its two rows the two agree whenever every entry of x is a real number, which is the
  precondition: at the exact instance every float input is finite.

  The frames (each program runs to the end, faults nowhere and leaves its argument unchanged) come from the runs:
  the kernel's two regions each carry two accumulators across their grid points, so each region's invariant names
  what the accumulators hold after every point; the reference is a straight line of host operations.
-/
import proofs.«167578_j20134806684259_2_alg».proof.Defs
import proofs.«167578_j20134806684259_2_alg».proof.Proof.Gen.Kernel
import proofs.«167578_j20134806684259_2_alg».proof.Proof.Gen.KernelIdeal
import proofs.«167578_j20134806684259_2_alg».proof.Proof.Gen.ReferenceIdeal
import proofs.«167578_j20134806684259_2_alg».proof.Proof.Gen.Pre_finite_inputs
import proofs.«167578_j20134806684259_2_alg».proof.Proof.K.Frame
import proofs.«167578_j20134806684259_2_alg».proof.Proof.KI.Frame
import proofs.«167578_j20134806684259_2_alg».proof.Proof.KI.Glue
import proofs.«167578_j20134806684259_2_alg».proof.Proof.KI.R0ValGram
import proofs.«167578_j20134806684259_2_alg».proof.Proof.KI.R1ValRun
import proofs.«167578_j20134806684259_2_alg».proof.Proof.Ref.Final
import proofs.«167578_j20134806684259_2_alg».proof.Proof.SpecEq
import proofs.«167578_j20134806684259_2_alg».proof.Proof.Finite

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Hand.run m ρ)

/-- The idealization rewrote nothing. -/
theorem preserves : Cert.preserves_Kernel_KernelIdeal := trivial

/-- Both idealized programs end with the reference's arrangement of the two results; the kernel's own arrangement
    equals it because the argument's entries are real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.out0R (Cert.Spec.feat (m ((c.tc : Thread Cert.KernelIdeal.nD Cert.KernelIdeal.τ).loc Cert.KernelIdeal.main_arg0))),
    fun c => fun _ => Cert.Spec.out1R (Cert.Spec.feat (m ((c.tc : Thread Cert.KernelIdeal.nD Cert.KernelIdeal.τ).loc Cert.KernelIdeal.main_arg0))), ?_, ?_⟩
  · refine (θ_run (Cert.KernelIdeal.defs (F := Ideal)) _ _).mono (fun r h c => ?_) (Cert.KernelIdeal.Hand.run_all (F := Ideal) m ρ)
    have hf := Cert.Finite.real_of_pre (m ((c.tc : Thread Cert.KernelIdeal.nD Cert.KernelIdeal.τ).loc Cert.KernelIdeal.main_arg0)) (hpre c)
    have hG := fun s i j => Cert.KernelIdeal.Hand.gramParts_eq (Cert.KernelIdeal.Hand.U1 m ρ) c s i j
    have hS := fun s i => Cert.KernelIdeal.Hand.sqParts_eq (Cert.KernelIdeal.Hand.U1 m ρ) c s i
    have h0 := Cert.KernelIdeal.Hand.out0_of m ρ c hG hS (Cert.KernelIdeal.Hand.homoOut_eq (Cert.KernelIdeal.Hand.U3 m ρ) c)
    have h1 := Cert.KernelIdeal.Hand.out1_of m ρ c hG hS (Cert.KernelIdeal.Hand.heterOut_eq (Cert.KernelIdeal.Hand.U3 m ρ) c)
    refine ⟨(h c _ (Cert.KernelIdeal.Hand.mem_uc Cert.KernelIdeal.main_v11 (by decide))).trans (h0.trans (funext fun _ => Cert.Spec.out0_eq _ hf)),
      (h c _ (Cert.KernelIdeal.Hand.mem_uc Cert.KernelIdeal.main_v14 (by decide))).trans (h1.trans (funext fun _ => Cert.Spec.out1_eq _ hf)),
      (h c _ (Cert.KernelIdeal.Hand.mem_uc Cert.KernelIdeal.main_arg0 (by decide))).trans (Cert.KernelIdeal.Hand.W5_main_arg0 m ρ c)⟩
  · refine (θ_run (Cert.ReferenceIdeal.defs (F := Ideal)) _ _).mono (fun r h c => ?_) (Cert.ReferenceIdeal.Hand.run m' ρ')
    obtain ⟨h0, h1, h2⟩ := h c
    rw [hagree c] at h0 h1
    exact ⟨h0, h1, h2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
